-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S256 .f32) (main_arg12 : FVec F S256x256 .f32) (main_arg13 : FVec F S256 .f32) (main_arg14 : FVec F S256x1 .f32) (main_arg15 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x1 .f32) (main_arg15 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S10000x10000 .f32) (main_arg1 : FVec F S10000x10000 .f32) (main_arg2 : FVec F S10000x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x1 .f32) (main_arg15 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x128 : Shape := ⟨2, ![1, 128]⟩
abbrev S200x10000 : Shape := ⟨2, ![200, 10000]⟩
abbrev S200x128 : Shape := ⟨2, ![200, 128]⟩
abbrev S200 : Shape := ⟨1, ![200]⟩
abbrev S200x1 : Shape := ⟨2, ![200, 1]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S1x256 : Shape := ⟨2, ![1, 256]⟩
abbrev S1x1 : Shape := ⟨2, ![1, 1]⟩
abbrev S10000x1 : Shape := ⟨2, ![10000, 1]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 55
  | .vmem => 96
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S128x128, .bf16⟩
  | .hbm, ⟨21, _⟩ => ⟨S128x128, .bf16⟩
  | .hbm, ⟨22, _⟩ => ⟨S128x128, .bf16⟩
  | .hbm, ⟨23, _⟩ => ⟨S10000x128, .bf16⟩
  | .hbm, ⟨24, _⟩ => ⟨S10000x128, .f32⟩
  | .hbm, ⟨25, _⟩ => ⟨S10000x10000, .bf16⟩
  | .hbm, ⟨26, _⟩ => ⟨S10000x128, .bf16⟩
  | .hbm, ⟨27, _⟩ => ⟨S10000x128, .f32⟩
  | .hbm, ⟨28, _⟩ => ⟨S10000x128, .bf16⟩
  | .hbm, ⟨29, _⟩ => ⟨S10000x128, .f32⟩
  | .hbm, ⟨30, _⟩ => ⟨S10000x128, .bf16⟩
  | .hbm, ⟨31, _⟩ => ⟨S10000x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S128x128, .bf16⟩
  | .hbm, ⟨37, _⟩ => ⟨S128x128, .bf16⟩
  | .hbm, ⟨38, _⟩ => ⟨S128x128, .bf16⟩
  | .hbm, ⟨39, _⟩ => ⟨S10000x128, .bf16⟩
  | .hbm, ⟨40, _⟩ => ⟨S10000x128, .f32⟩
  | .hbm, ⟨41, _⟩ => ⟨S10000x10000, .bf16⟩
  | .hbm, ⟨42, _⟩ => ⟨S10000x128, .bf16⟩
  | .hbm, ⟨43, _⟩ => ⟨S10000x128, .f32⟩
  | .hbm, ⟨44, _⟩ => ⟨S10000x128, .bf16⟩
  | .hbm, ⟨45, _⟩ => ⟨S10000x128, .f32⟩
  | .hbm, ⟨46, _⟩ => ⟨S10000x128, .bf16⟩
  | .hbm, ⟨47, _⟩ => ⟨S10000x128, .f32⟩
  | .hbm, ⟨48, _⟩ => ⟨S128x256, .bf16⟩
  | .hbm, ⟨49, _⟩ => ⟨S1x256, .f32⟩
  | .hbm, ⟨50, _⟩ => ⟨S256x256, .bf16⟩
  | .hbm, ⟨51, _⟩ => ⟨S1x256, .f32⟩
  | .hbm, ⟨52, _⟩ => ⟨S256x1, .bf16⟩
  | .hbm, ⟨53, _⟩ => ⟨S1x1, .f32⟩
  | .hbm, ⟨54, _⟩ => ⟨S10000x1, .f32⟩
  | .local _ .vmem, ⟨0, _⟩ => ⟨S200x10000, .f32⟩
  | .local _ .vmem, ⟨1, _⟩ => ⟨S200x10000, .f32⟩
  | .local _ .vmem, ⟨2, _⟩ => ⟨S10000x128, .bf16⟩
  | .local _ .vmem, ⟨3, _⟩ => ⟨S1x128, .f32⟩
  | .local _ .vmem, ⟨4, _⟩ => ⟨S128x128, .bf16⟩
  | .local _ .vmem, ⟨5, _⟩ => ⟨S200x128, .f32⟩
  | .local _ .vmem, ⟨6, _⟩ => ⟨S200x128, .f32⟩
  | .local _ .vmem, ⟨7, _⟩ => ⟨S200x10000, .bf16⟩
  | .local _ .vmem, ⟨8, _⟩ => ⟨S200x10000, .bf16⟩
  | .local _ .vmem, ⟨9, _⟩ => ⟨S200x128, .bf16⟩
  | .local _ .vmem, ⟨10, _⟩ => ⟨S200x128, .bf16⟩
  | .local _ .vmem, ⟨11, _⟩ => ⟨S400x10000, .bf16⟩
  | .local _ .vmem, ⟨12, _⟩ => ⟨S400x10000, .bf16⟩
  | .local _ .vmem, ⟨13, _⟩ => ⟨S10000x128, .bf16⟩
  | .local _ .vmem, ⟨14, _⟩ => ⟨S1x128, .f32⟩
  | .local _ .vmem, ⟨15, _⟩ => ⟨S128x128, .bf16⟩
  | .local _ .vmem, ⟨16, _⟩ => ⟨S400x128, .f32⟩
  | .local _ .vmem, ⟨17, _⟩ => ⟨S400x128, .f32⟩
  | .local _ .vmem, ⟨18, _⟩ => ⟨S400x128, .bf16⟩
  | .local _ .vmem, ⟨19, _⟩ => ⟨S400x128, .bf16⟩
  | .local _ .vmem, ⟨20, _⟩ => ⟨S400x10000, .bf16⟩
  | .local _ .vmem, ⟨21, _⟩ => ⟨S400x10000, .bf16⟩
  | .local _ .vmem, ⟨22, _⟩ => ⟨S10000x128, .bf16⟩
  | .local _ .vmem, ⟨23, _⟩ => ⟨S1x128, .f32⟩
  | .local _ .vmem, ⟨24, _⟩ => ⟨S128x128, .bf16⟩
  | .local _ .vmem, ⟨25, _⟩ => ⟨S400x128, .f32⟩
  | .local _ .vmem, ⟨26, _⟩ => ⟨S400x128, .f32⟩
  | .local _ .vmem, ⟨27, _⟩ => ⟨S400x128, .bf16⟩
  | .local _ .vmem, ⟨28, _⟩ => ⟨S400x128, .bf16⟩
  | .local _ .vmem, ⟨29, _⟩ => ⟨S400x10000, .bf16⟩
  | .local _ .vmem, ⟨30, _⟩ => ⟨S400x10000, .bf16⟩
  | .local _ .vmem, ⟨31, _⟩ => ⟨S10000x128, .bf16⟩
  | .local _ .vmem, ⟨32, _⟩ => ⟨S1x128, .f32⟩
  | .local _ .vmem, ⟨33, _⟩ => ⟨S128x128, .bf16⟩
  | .local _ .vmem, ⟨34, _⟩ => ⟨S400x128, .f32⟩
  | .local _ .vmem, ⟨35, _⟩ => ⟨S400x128, .f32⟩
  | .local _ .vmem, ⟨36, _⟩ => ⟨S200x10000, .f32⟩
  | .local _ .vmem, ⟨37, _⟩ => ⟨S200x10000, .f32⟩
  | .local _ .vmem, ⟨38, _⟩ => ⟨S10000x128, .bf16⟩
  | .local _ .vmem, ⟨39, _⟩ => ⟨S1x128, .f32⟩
  | .local _ .vmem, ⟨40, _⟩ => ⟨S128x128, .bf16⟩
  | .local _ .vmem, ⟨41, _⟩ => ⟨S200x128, .f32⟩
  | .local _ .vmem, ⟨42, _⟩ => ⟨S200x128, .f32⟩
  | .local _ .vmem, ⟨43, _⟩ => ⟨S200x10000, .bf16⟩
  | .local _ .vmem, ⟨44, _⟩ => ⟨S200x10000, .bf16⟩
  | .local _ .vmem, ⟨45, _⟩ => ⟨S200x128, .bf16⟩
  | .local _ .vmem, ⟨46, _⟩ => ⟨S200x128, .bf16⟩
  | .local _ .vmem, ⟨47, _⟩ => ⟨S400x10000, .bf16⟩
  | .local _ .vmem, ⟨48, _⟩ => ⟨S400x10000, .bf16⟩
  | .local _ .vmem, ⟨49, _⟩ => ⟨S10000x128, .bf16⟩
  | .local _ .vmem, ⟨50, _⟩ => ⟨S1x128, .f32⟩
  | .local _ .vmem, ⟨51, _⟩ => ⟨S128x128, .bf16⟩
  | .local _ .vmem, ⟨52, _⟩ => ⟨S400x128, .f32⟩
  | .local _ .vmem, ⟨53, _⟩ => ⟨S400x128, .f32⟩
  | .local _ .vmem, ⟨54, _⟩ => ⟨S400x128, .bf16⟩
  | .local _ .vmem, ⟨55, _⟩ => ⟨S400x128, .bf16⟩
  | .local _ .vmem, ⟨56, _⟩ => ⟨S400x10000, .bf16⟩
  | .local _ .vmem, ⟨57, _⟩ => ⟨S400x10000, .bf16⟩
  | .local _ .vmem, ⟨58, _⟩ => ⟨S10000x128, .bf16⟩
  | .local _ .vmem, ⟨59, _⟩ => ⟨S1x128, .f32⟩
  | .local _ .vmem, ⟨60, _⟩ => ⟨S128x128, .bf16⟩
  | .local _ .vmem, ⟨61, _⟩ => ⟨S400x128, .f32⟩
  | .local _ .vmem, ⟨62, _⟩ => ⟨S400x128, .f32⟩
  | .local _ .vmem, ⟨63, _⟩ => ⟨S400x128, .bf16⟩
  | .local _ .vmem, ⟨64, _⟩ => ⟨S400x128, .bf16⟩
  | .local _ .vmem, ⟨65, _⟩ => ⟨S400x10000, .bf16⟩
  | .local _ .vmem, ⟨66, _⟩ => ⟨S400x10000, .bf16⟩
  | .local _ .vmem, ⟨67, _⟩ => ⟨S10000x128, .bf16⟩
  | .local _ .vmem, ⟨68, _⟩ => ⟨S1x128, .f32⟩
  | .local _ .vmem, ⟨69, _⟩ => ⟨S128x128, .bf16⟩
  | .local _ .vmem, ⟨70, _⟩ => ⟨S400x128, .f32⟩
  | .local _ .vmem, ⟨71, _⟩ => ⟨S400x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S128x256, .bf16⟩
  | .local _ .vmem, ⟨89, _⟩ => ⟨S1x256, .f32⟩
  | .local _ .vmem, ⟨90, _⟩ => ⟨S256x256, .bf16⟩
  | .local _ .vmem, ⟨91, _⟩ => ⟨S1x256, .f32⟩
  | .local _ .vmem, ⟨92, _⟩ => ⟨S256x1, .bf16⟩
  | .local _ .vmem, ⟨93, _⟩ => ⟨S1x1, .f32⟩
  | .local _ .vmem, ⟨94, _⟩ => ⟨S2000x1, .f32⟩
  | .local _ .vmem, ⟨95, _⟩ => ⟨S2000x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v9_0 : Ref sig .tc := ⟨.hbm, 27, rfl⟩
abbrev main_v9_1 : Ref sig .tc := ⟨.hbm, 28, rfl⟩
abbrev main_v10_0 : Ref sig .tc := ⟨.hbm, 29, rfl⟩
abbrev main_v10_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v21_0 : Ref sig .tc := ⟨.hbm, 43, rfl⟩
abbrev main_v21_1 : Ref sig .tc := ⟨.hbm, 44, rfl⟩
abbrev main_v22_0 : Ref sig .tc := ⟨.hbm, 45, rfl⟩
abbrev main_v22_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg4_1 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc4_stg6_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg4_1 : Ref sig .tc := ⟨.vmem, 62, rfl⟩
abbrev cc6_stg5_0 : Ref sig .tc := ⟨.vmem, 63, rfl⟩
abbrev cc6_stg5_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg3_1 : Ref sig .tc := ⟨.vmem, 79, rfl⟩
abbrev cc8_stg4_0 : Ref sig .tc := ⟨.vmem, 80, rfl⟩
abbrev cc8_stg4_1 : Ref sig .tc := ⟨.vmem, 81, rfl⟩
abbrev cc8_stg5_0 : Ref sig .tc := ⟨.vmem, 82, rfl⟩
abbrev cc8_stg5_1 : Ref sig .tc := ⟨.vmem, 83, rfl⟩
abbrev cc8_stg6_0 : Ref sig .tc := ⟨.vmem, 84, rfl⟩
abbrev cc8_stg6_1 : Ref sig .tc := ⟨.vmem, 85, rfl⟩
abbrev cc8_stg7_0 : Ref sig .tc := ⟨.vmem, 86, rfl⟩
abbrev cc8_stg7_1 : Ref sig .tc := ⟨.vmem, 87, rfl⟩
abbrev cc8_stg8_0 : Ref sig .tc := ⟨.vmem, 88, rfl⟩
abbrev cc8_stg9_0 : Ref sig .tc := ⟨.vmem, 89, rfl⟩
abbrev cc8_stg10_0 : Ref sig .tc := ⟨.vmem, 90, rfl⟩
abbrev cc8_stg11_0 : Ref sig .tc := ⟨.vmem, 91, rfl⟩
abbrev cc8_stg12_0 : Ref sig .tc := ⟨.vmem, 92, rfl⟩
abbrev cc8_stg13_0 : Ref sig .tc := ⟨.vmem, 93, rfl⟩
abbrev cc8_stg14_0 : Ref sig .tc := ⟨.vmem, 94, rfl⟩
abbrev cc8_stg14_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem4_1 : DmaSem sig := 42
abbrev cc4_sem5_0 : DmaSem sig := 43
abbrev cc4_sem5_1 : DmaSem sig := 44
abbrev cc4_sem6_0 : DmaSem sig := 45
abbrev cc4_sem6_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem4_1 : DmaSem sig := 53
abbrev cc5_sem5_0 : DmaSem sig := 54
abbrev cc5_sem5_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem4_1 : DmaSem sig := 62
abbrev cc6_sem5_0 : DmaSem sig := 63
abbrev cc6_sem5_1 : DmaSem sig := 64
abbrev cc7_sem0_0 : DmaSem sig := 65
abbrev cc7_sem0_1 : DmaSem sig := 66
abbrev cc7_sem1_0 : DmaSem sig := 67
abbrev cc7_sem2_0 : DmaSem sig := 68
abbrev cc7_sem3_0 : DmaSem sig := 69
abbrev cc7_sem4_0 : DmaSem sig := 70
abbrev cc7_sem4_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem3_1 : DmaSem sig := 79
abbrev cc8_sem4_0 : DmaSem sig := 80
abbrev cc8_sem4_1 : DmaSem sig := 81
abbrev cc8_sem5_0 : DmaSem sig := 82
abbrev cc8_sem5_1 : DmaSem sig := 83
abbrev cc8_sem6_0 : DmaSem sig := 84
abbrev cc8_sem6_1 : DmaSem sig := 85
abbrev cc8_sem7_0 : DmaSem sig := 86
abbrev cc8_sem7_1 : DmaSem sig := 87
abbrev cc8_sem8_0 : DmaSem sig := 88
abbrev cc8_sem9_0 : DmaSem sig := 89
abbrev cc8_sem10_0 : DmaSem sig := 90
abbrev cc8_sem11_0 : DmaSem sig := 91
abbrev cc8_sem12_0 : DmaSem sig := 92
abbrev cc8_sem13_0 : DmaSem sig := 93
abbrev cc8_sem14_0 : DmaSem sig := 94
abbrev cc8_sem14_1 : DmaSem sig := 95

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S200x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S200x10000 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S200x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S400x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S400x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S400x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S400x128 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S400x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S2000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S128x256 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x256 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S256x256 .bf16 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x256 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S256x1 .bf16 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S1x1 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 2 → Memref sig .tc .vmem S2000x1 .f32 := fun | 0 => Memref.whole cc8_stg14_0 | 1 => Memref.whole cc8_stg14_1 | ⟨_ + 2, h⟩ => absurd h (Nat.not_lt.2 (Nat.le_add_left _ _))
abbrev sem8_14 : Fin 2 → DmaSem sig := fun | 0 => cc8_sem14_0 | 1 => cc8_sem14_1 | ⟨_ + 2, h⟩ => absurd h (Nat.not_lt.2 (Nat.le_add_left _ _))
abbrev reads8_14 : Fin grid8.rank → Bool := ![true]

class Facts₀ : Prop where
  shapeCasts_S128_S1x128 : S128.ShapeCasts S1x128
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  shapeCasts_S200_S200x1 : S200.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S200x128_S200x128_0_0 : (Rect.unit (s := S200x128) ![0, 0] S200x128.size inb_S200x128_S200x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S256_S1x256 : S256.ShapeCasts S1x256
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .bf16 = 32 ∨ (Rect.block (s := S10000x10000) S200x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .bf16 = 32 ∨ (Rect.block (s := S10000x128) S200x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .bf16 = 32 ∨ (Rect.block (s := S10000x128) S400x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .f32 = 32 ∨ (Rect.block (s := S10000x128) S400x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x10000.size a ≤ S10000x10000.size a
  hwx4_0 : ∀ i : grid4.Coords, EltTy.bits .f32 = 32 ∨ (Rect.block (s := S10000x10000) S200x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S200x128.size a ≤ S10000x128.size a
  hwx4_4 : ∀ i : grid4.Coords, EltTy.bits .f32 = 32 ∨ (Rect.block (s := S10000x128) S200x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S200x10000.size a ≤ S10000x10000.size a
  hwx4_5 : ∀ i : grid4.Coords, EltTy.bits .bf16 = 32 ∨ (Rect.block (s := S10000x10000) S200x10000.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S200x128.size a ≤ S10000x128.size a
  hwx4_6 : ∀ i : grid4.Coords, EltTy.bits .bf16 = 32 ∨ (Rect.block (s := S10000x128) S200x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x128.size a ≤ S10000x128.size a
  hwx5_4 : ∀ i : grid5.Coords, EltTy.bits .f32 = 32 ∨ (Rect.block (s := S10000x128) S400x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S400x128.size a ≤ S10000x128.size a
  hwx5_5 : ∀ i : grid5.Coords, EltTy.bits .bf16 = 32 ∨ (Rect.block (s := S10000x128) S400x128.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .bf16 = 32 ∨ (Rect.block (s := S10000x128) S10000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .bf16 = 32 ∨ (Rect.block (s := S128x128) S128x128.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S400x128.size a ≤ S10000x128.size a
  hwx6_4 : ∀ i : grid6.Coords, EltTy.bits .f32 = 32 ∨ (Rect.block (s := S10000x128) S400x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S400x128.size a ≤ S10000x128.size a
  hwx6_5 : ∀ i : grid6.Coords, EltTy.bits .bf16 = 32 ∨ (Rect.block (s := S10000x128) S400x128.size (cc6_transform_5 i) (hinb6_5 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S10000x128.size a
  hwx7_1 : ∀ i : grid7.Coords, EltTy.bits .bf16 = 32 ∨ (Rect.block (s := S10000x128) S10000x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .bf16 = 32 ∨ (Rect.block (s := S128x128) S128x128.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S400x128.size a ≤ S10000x128.size a
  hwx7_4 : ∀ i : grid7.Coords, EltTy.bits .f32 = 32 ∨ (Rect.block (s := S10000x128) S400x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S10000x128.size a
  hwx8_0 : ∀ i : grid8.Coords, EltTy.bits .f32 = 32 ∨ (Rect.block (s := S10000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S10000x128.size a
  hwx8_1 : ∀ i : grid8.Coords, EltTy.bits .f32 = 32 ∨ (Rect.block (s := S10000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S10000x128.size a
  hwx8_2 : ∀ i : grid8.Coords, EltTy.bits .f32 = 32 ∨ (Rect.block (s := S10000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S10000x128.size a
  hwx8_3 : ∀ i : grid8.Coords, EltTy.bits .f32 = 32 ∨ (Rect.block (s := S10000x128) S2000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S10000x128.size a
  hwx8_4 : ∀ i : grid8.Coords, EltTy.bits .f32 = 32 ∨ (Rect.block (s := S10000x128) S2000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S10000x128.size a
  hwx8_5 : ∀ i : grid8.Coords, EltTy.bits .f32 = 32 ∨ (Rect.block (s := S10000x128) S2000x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S10000x128.size a
  hwx8_6 : ∀ i : grid8.Coords, EltTy.bits .f32 = 32 ∨ (Rect.block (s := S10000x128) S2000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x128.size a ≤ S10000x128.size a
  hwx8_7 : ∀ i : grid8.Coords, EltTy.bits .f32 = 32 ∨ (Rect.block (s := S10000x128) S2000x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S128x256.size a ≤ S128x256.size a
  hwx8_8 : ∀ i : grid8.Coords, EltTy.bits .bf16 = 32 ∨ (Rect.block (s := S128x256) S128x256.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x256.size a ≤ S1x256.size a
  hwx8_9 : ∀ i : grid8.Coords, EltTy.bits .f32 = 32 ∨ (Rect.block (s := S1x256) S1x256.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S256x256.size a ≤ S256x256.size a
  hwx8_10 : ∀ i : grid8.Coords, EltTy.bits .bf16 = 32 ∨ (Rect.block (s := S256x256) S256x256.size (cc8_transform_10 i) (hinb8_10 i)).WholeWords (EltTy.packing .bf16)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x256.size a ≤ S1x256.size a
  hwx8_11 : ∀ i : grid8.Coords, EltTy.bits .f32 = 32 ∨ (Rect.block (s := S1x256) S1x256.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S256x1.size a ≤ S256x1.size a
  hwx8_12 : ∀ i : grid8.Coords, EltTy.bits .bf16 = 32 ∨ (Rect.block (s := S256x1) S256x1.size (cc8_transform_12 i) (hinb8_12 i)).WholeWords (EltTy.packing .bf16)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S1x1.size a ≤ S1x1.size a
  hwx8_13 : ∀ i : grid8.Coords, EltTy.bits .f32 = 32 ∨ (Rect.block (s := S1x1) S1x1.size (cc8_transform_13 i) (hinb8_13 i)).WholeWords (EltTy.packing .f32)
  hstage8_14 : ∀ j, (stage8_14 j).IsWhole
  nbuf8_14 : grid8.bufCount reads8_14 false = 2
  hreads8_14 : ∀ i i' : grid8.Coords, (∀ a, reads8_14 a = true → i a = i' a) → cc8_transform_14 i = cc8_transform_14 i'
  hinb8_14 : ∀ (i : grid8.Coords) a, (cc8_transform_14 i a + 1) * S2000x1.size a ≤ S10000x1.size a
  hwx8_14 : ∀ i : grid8.Coords, EltTy.bits .f32 = 32 ∨ (Rect.block (s := S10000x1) S2000x1.size (cc8_transform_14 i) (hinb8_14 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S200x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S200x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v8_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10_0) S400x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10_1) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v8_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10_1) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S200x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20_0) S200x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v20_1) S200x10000.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v20_2) S200x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v20_1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20_2) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v13) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v17) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v21_0) S400x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v21_1) S400x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v20_1) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v21_1) S10000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v18) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v22_0) S400x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v22_1) S400x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v20_1) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v22_1) S10000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v18) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v23) S400x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v8_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9_0) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v10_0) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v11) S2000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v20_0) S2000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v21_0) S2000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v22_0) S2000x128.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v23) S2000x128.size cc8_transform_7 reads8_7 false false 2 stage8_7 sem8_7
    hrank8 hreads8_7 hinb8_7 nbuf8_7 (Memref.isWhole_whole _) hwx8_7 hstage8_7

abbrev win8_8 : Pipeline.Window sig grid8 :=
  Pipeline.Window.ofSpec (Memref.whole main_v24) S128x256.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v25) S1x256.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v26) S256x256.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v27) S1x256.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v28) S256x1.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v29) S1x1.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v30) S2000x1.size cc8_transform_14 reads8_14 true false 2 stage8_14 sem8_14
    hrank8 hreads8_14 hinb8_14 nbuf8_14 (Memref.isWhole_whole _) hwx8_14 hstage8_14

abbrev win8 : Fin 15 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | ⟨_ + 15, h⟩ => absurd h (Nat.not_lt.2 (Nat.le_add_left _ _))
abbrev spec8 : Fin 15 → Pipeline.WinSpec sig grid8.rank := fun w => (win8 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1x1 : Shape := ⟨2, ![1, 1]⟩

abbrev nBuf : Space → Nat
  | .hbm => 289
  | .vmem => 0
  | .smem => 0
  | _ => 0

abbrev hbmTy0_0 (i : Nat) : BufTy := match i % 128 with
  | 0 => ⟨S10000x10000, .f32⟩
  | 1 => ⟨S10000x10000, .f32⟩
  | 2 => ⟨S10000x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x256, .f32⟩
  | 11 => ⟨S256, .f32⟩
  | 12 => ⟨S256x256, .f32⟩
  | 13 => ⟨S256, .f32⟩
  | 14 => ⟨S256x1, .f32⟩
  | 15 => ⟨S1, .f32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S_, .f32⟩
  | 25 => ⟨S10000, .f32⟩
  | 26 => ⟨S10000x1, .f32⟩
  | 27 => ⟨S10000x1, .f32⟩
  | 28 => ⟨S_, .f32⟩
  | 29 => ⟨S10000x1, .f32⟩
  | 30 => ⟨S10000x1, .f32⟩
  | 31 => ⟨S10000x128, .f32⟩
  | 32 => ⟨S10000x128, .f32⟩
  | 33 => ⟨S10000x128, .f32⟩
  | 34 => ⟨S10000x128, .f32⟩
  | 35 => ⟨S1x128, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x128, .f32⟩
  | 42 => ⟨S_, .f32⟩
  | 43 => ⟨S10000, .f32⟩
  | 44 => ⟨S10000x1, .f32⟩
  | 45 => ⟨S10000x1, .f32⟩
  | 46 => ⟨S_, .f32⟩
  | 47 => ⟨S10000x1, .f32⟩
  | 48 => ⟨S10000x1, .f32⟩
  | 49 => ⟨S10000x128, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S10000x128, .f32⟩
  | 60 => ⟨S_, .f32⟩
  | 61 => ⟨S10000, .f32⟩
  | 62 => ⟨S10000x1, .f32⟩
  | 63 => ⟨S10000x1, .f32⟩
  | 64 => ⟨S_, .f32⟩
  | 65 => ⟨S10000x1, .f32⟩
  | 66 => ⟨S10000x1, .f32⟩
  | 67 => ⟨S10000x128, .f32⟩
  | 68 => ⟨S10000x128, .f32⟩
  | 69 => ⟨S10000x128, .f32⟩
  | 70 => ⟨S10000x128, .f32⟩
  | 71 => ⟨S1x128, .f32⟩
  | 72 => ⟨S10000x128, .f32⟩
  | 73 => ⟨S10000x128, .f32⟩
  | 74 => ⟨S_, .f32⟩
  | 75 => ⟨S10000x128, .f32⟩
  | 76 => ⟨S10000x128, .f32⟩
  | 77 => ⟨S10000x256, .f32⟩
  | 78 => ⟨S1x256, .f32⟩
  | 79 => ⟨S10000x256, .f32⟩
  | 80 => ⟨S10000x256, .f32⟩
  | 81 => ⟨S_, .f32⟩
  | 82 => ⟨S10000x256, .f32⟩
  | 83 => ⟨S10000x256, .f32⟩
  | 84 => ⟨S10000x256, .f32⟩
  | 85 => ⟨S1x256, .f32⟩
  | 86 => ⟨S10000x256, .f32⟩
  | 87 => ⟨S10000x256, .f32⟩
  | 88 => ⟨S_, .f32⟩
  | 89 => ⟨S10000x256, .f32⟩
  | 90 => ⟨S10000x256, .f32⟩
  | 91 => ⟨S10000x1, .f32⟩
  | 92 => ⟨S1x1, .f32⟩
  | 93 => ⟨S10000x1, .f32⟩
  | 94 => ⟨S10000x1, .f32⟩
  | 95 => ⟨S10000x256, .f32⟩
  | 96 => ⟨S1x256, .f32⟩
  | 97 => ⟨S10000x256, .f32⟩
  | 98 => ⟨S10000x256, .f32⟩
  | 99 => ⟨S_, .f32⟩
  | 100 => ⟨S10000x256, .f32⟩
  | 101 => ⟨S10000x256, .f32⟩
  | 102 => ⟨S10000x256, .f32⟩
  | 103 => ⟨S1x256, .f32⟩
  | 104 => ⟨S10000x256, .f32⟩
  | 105 => ⟨S10000x256, .f32⟩
  | 106 => ⟨S_, .f32⟩
  | 107 => ⟨S10000x256, .f32⟩
  | 108 => ⟨S10000x256, .f32⟩
  | 109 => ⟨S10000x1, .f32⟩
  | 110 => ⟨S1x1, .f32⟩
  | 111 => ⟨S10000x1, .f32⟩
  | 112 => ⟨S10000x1, .f32⟩
  | 113 => ⟨S10000x1, .f32⟩
  | 114 => ⟨S10000x256, .f32⟩
  | 115 => ⟨S1x256, .f32⟩
  | 116 => ⟨S10000x256, .f32⟩
  | 117 => ⟨S10000x256, .f32⟩
  | 118 => ⟨S_, .f32⟩
  | 119 => ⟨S10000x256, .f32⟩
  | 120 => ⟨S10000x256, .f32⟩
  | 121 => ⟨S10000x256, .f32⟩
  | 122 => ⟨S1x256, .f32⟩
  | 123 => ⟨S10000x256, .f32⟩
  | 124 => ⟨S10000x256, .f32⟩
  | 125 => ⟨S_, .f32⟩
  | 126 => ⟨S10000x256, .f32⟩
  | 127 => ⟨S10000x256, .f32⟩
  | _ => ⟨S10000x10000, .f32⟩

abbrev hbmTy0_1 (i : Nat) : BufTy := match i % 128 with
  | 0 => ⟨S10000x1, .f32⟩
  | 1 => ⟨S1x1, .f32⟩
  | 2 => ⟨S10000x1, .f32⟩
  | 3 => ⟨S10000x1, .f32⟩
  | 4 => ⟨S10000x1, .f32⟩
  | 5 => ⟨S10000x256, .f32⟩
  | 6 => ⟨S1x256, .f32⟩
  | 7 => ⟨S10000x256, .f32⟩
  | 8 => ⟨S10000x256, .f32⟩
  | 9 => ⟨S_, .f32⟩
  | 10 => ⟨S10000x256, .f32⟩
  | 11 => ⟨S10000x256, .f32⟩
  | 12 => ⟨S10000x256, .f32⟩
  | 13 => ⟨S1x256, .f32⟩
  | 14 => ⟨S10000x256, .f32⟩
  | 15 => ⟨S10000x256, .f32⟩
  | 16 => ⟨S_, .f32⟩
  | 17 => ⟨S10000x256, .f32⟩
  | 18 => ⟨S10000x256, .f32⟩
  | 19 => ⟨S10000x1, .f32⟩
  | 20 => ⟨S1x1, .f32⟩
  | 21 => ⟨S10000x1, .f32⟩
  | 22 => ⟨S10000x1, .f32⟩
  | 23 => ⟨S10000x1, .f32⟩
  | 24 => ⟨S10000x128, .f32⟩
  | 25 => ⟨S1x128, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S10000x128, .f32⟩
  | 32 => ⟨S_, .f32⟩
  | 33 => ⟨S10000, .f32⟩
  | 34 => ⟨S10000x1, .f32⟩
  | 35 => ⟨S10000x1, .f32⟩
  | 36 => ⟨S_, .f32⟩
  | 37 => ⟨S10000x1, .f32⟩
  | 38 => ⟨S10000x1, .f32⟩
  | 39 => ⟨S10000x128, .f32⟩
  | 40 => ⟨S10000x128, .f32⟩
  | 41 => ⟨S10000x128, .f32⟩
  | 42 => ⟨S10000x128, .f32⟩
  | 43 => ⟨S1x128, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S10000x128, .f32⟩
  | 50 => ⟨S_, .f32⟩
  | 51 => ⟨S10000, .f32⟩
  | 52 => ⟨S10000x1, .f32⟩
  | 53 => ⟨S10000x1, .f32⟩
  | 54 => ⟨S_, .f32⟩
  | 55 => ⟨S10000x1, .f32⟩
  | 56 => ⟨S10000x1, .f32⟩
  | 57 => ⟨S10000x128, .f32⟩
  | 58 => ⟨S10000x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S_, .f32⟩
  | 65 => ⟨S10000x128, .f32⟩
  | 66 => ⟨S10000x128, .f32⟩
  | 67 => ⟨S10000x128, .f32⟩
  | 68 => ⟨S_, .f32⟩
  | 69 => ⟨S10000, .f32⟩
  | 70 => ⟨S10000x1, .f32⟩
  | 71 => ⟨S10000x1, .f32⟩
  | 72 => ⟨S_, .f32⟩
  | 73 => ⟨S10000x1, .f32⟩
  | 74 => ⟨S10000x1, .f32⟩
  | 75 => ⟨S10000x128, .f32⟩
  | 76 => ⟨S10000x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x256, .f32⟩
  | 86 => ⟨S1x256, .f32⟩
  | 87 => ⟨S10000x256, .f32⟩
  | 88 => ⟨S10000x256, .f32⟩
  | 89 => ⟨S_, .f32⟩
  | 90 => ⟨S10000x256, .f32⟩
  | 91 => ⟨S10000x256, .f32⟩
  | 92 => ⟨S10000x256, .f32⟩
  | 93 => ⟨S1x256, .f32⟩
  | 94 => ⟨S10000x256, .f32⟩
  | 95 => ⟨S10000x256, .f32⟩
  | 96 => ⟨S_, .f32⟩
  | 97 => ⟨S10000x256, .f32⟩
  | 98 => ⟨S10000x256, .f32⟩
  | 99 => ⟨S10000x1, .f32⟩
  | 100 => ⟨S1x1, .f32⟩
  | 101 => ⟨S10000x1, .f32⟩
  | 102 => ⟨S10000x1, .f32⟩
  | 103 => ⟨S10000x256, .f32⟩
  | 104 => ⟨S1x256, .f32⟩
  | 105 => ⟨S10000x256, .f32⟩
  | 106 => ⟨S10000x256, .f32⟩
  | 107 => ⟨S_, .f32⟩
  | 108 => ⟨S10000x256, .f32⟩
  | 109 => ⟨S10000x256, .f32⟩
  | 110 => ⟨S10000x256, .f32⟩
  | 111 => ⟨S1x256, .f32⟩
  | 112 => ⟨S10000x256, .f32⟩
  | 113 => ⟨S10000x256, .f32⟩
  | 114 => ⟨S_, .f32⟩
  | 115 => ⟨S10000x256, .f32⟩
  | 116 => ⟨S10000x256, .f32⟩
  | 117 => ⟨S10000x1, .f32⟩
  | 118 => ⟨S1x1, .f32⟩
  | 119 => ⟨S10000x1, .f32⟩
  | 120 => ⟨S10000x1, .f32⟩
  | 121 => ⟨S10000x1, .f32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x10000, .f32⟩

abbrev hbmTy0_2 (i : Nat) : BufTy := match i % 128 with
  | 0 => ⟨S10000x256, .f32⟩
  | 1 => ⟨S10000x256, .f32⟩
  | 2 => ⟨S1x256, .f32⟩
  | 3 => ⟨S10000x256, .f32⟩
  | 4 => ⟨S10000x256, .f32⟩
  | 5 => ⟨S_, .f32⟩
  | 6 => ⟨S10000x256, .f32⟩
  | 7 => ⟨S10000x256, .f32⟩
  | 8 => ⟨S10000x1, .f32⟩
  | 9 => ⟨S1x1, .f32⟩
  | 10 => ⟨S10000x1, .f32⟩
  | 11 => ⟨S10000x1, .f32⟩
  | 12 => ⟨S10000x1, .f32⟩
  | 13 => ⟨S10000x256, .f32⟩
  | 14 => ⟨S1x256, .f32⟩
  | 15 => ⟨S10000x256, .f32⟩
  | 16 => ⟨S10000x256, .f32⟩
  | 17 => ⟨S_, .f32⟩
  | 18 => ⟨S10000x256, .f32⟩
  | 19 => ⟨S10000x256, .f32⟩
  | 20 => ⟨S10000x256, .f32⟩
  | 21 => ⟨S1x256, .f32⟩
  | 22 => ⟨S10000x256, .f32⟩
  | 23 => ⟨S10000x256, .f32⟩
  | 24 => ⟨S_, .f32⟩
  | 25 => ⟨S10000x256, .f32⟩
  | 26 => ⟨S10000x256, .f32⟩
  | 27 => ⟨S10000x1, .f32⟩
  | 28 => ⟨S1x1, .f32⟩
  | 29 => ⟨S10000x1, .f32⟩
  | 30 => ⟨S10000x1, .f32⟩
  | 31 => ⟨S10000x1, .f32⟩
  | 32 => ⟨S10000x1, .f32⟩
  | _ => ⟨S10000x10000, .f32⟩

abbrev hbmTy (i : Nat) : BufTy := match i / 128 with
  | 0 => hbmTy0_0 i
  | 1 => hbmTy0_1 i
  | 2 => hbmTy0_2 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_call3_v0 : Ref sig .tc := ⟨.hbm, 41, rfl⟩
abbrev main_call3_cst : Ref sig .tc := ⟨.hbm, 42, rfl⟩
abbrev main_call3_v1 : Ref sig .tc := ⟨.hbm, 43, rfl⟩
abbrev main_call3_v2 : Ref sig .tc := ⟨.hbm, 44, rfl⟩
abbrev main_v16 : Ref sig .tc := ⟨.hbm, 45, rfl⟩
abbrev main_cst_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call4_cst : Ref sig .tc := ⟨.hbm, 56, rfl⟩
abbrev main_call4_v0 : Ref sig .tc := ⟨.hbm, 57, rfl⟩
abbrev main_v26 : Ref sig .tc := ⟨.hbm, 58, rfl⟩
abbrev main_call5_v0 : Ref sig .tc := ⟨.hbm, 59, rfl⟩
abbrev main_call5_cst : Ref sig .tc := ⟨.hbm, 60, rfl⟩
abbrev main_call5_v1 : Ref sig .tc := ⟨.hbm, 61, rfl⟩
abbrev main_call5_v2 : Ref sig .tc := ⟨.hbm, 62, rfl⟩
abbrev main_v27 : Ref sig .tc := ⟨.hbm, 63, rfl⟩
abbrev main_cst_1 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call6_cst : Ref sig .tc := ⟨.hbm, 74, rfl⟩
abbrev main_call6_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call7_cst : Ref sig .tc := ⟨.hbm, 81, rfl⟩
abbrev main_call7_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call8_cst : Ref sig .tc := ⟨.hbm, 88, rfl⟩
abbrev main_call8_v0 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_call9_cst : Ref sig .tc := ⟨.hbm, 99, rfl⟩
abbrev main_call9_v0 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_call10_cst : Ref sig .tc := ⟨.hbm, 106, rfl⟩
abbrev main_call10_v0 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call11_cst : Ref sig .tc := ⟨.hbm, 118, rfl⟩
abbrev main_call11_v0 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_call12_cst : Ref sig .tc := ⟨.hbm, 125, rfl⟩
abbrev main_call12_v0 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call13_cst : Ref sig .tc := ⟨.hbm, 137, rfl⟩
abbrev main_call13_v0 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call14_cst : Ref sig .tc := ⟨.hbm, 144, rfl⟩
abbrev main_call14_v0 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call15_cst : Ref sig .tc := ⟨.hbm, 156, rfl⟩
abbrev main_call15_v0 : Ref sig .tc := ⟨.hbm, 157, rfl⟩
abbrev main_v101 : Ref sig .tc := ⟨.hbm, 158, rfl⟩
abbrev main_call16_v0 : Ref sig .tc := ⟨.hbm, 159, rfl⟩
abbrev main_call16_cst : Ref sig .tc := ⟨.hbm, 160, rfl⟩
abbrev main_call16_v1 : Ref sig .tc := ⟨.hbm, 161, rfl⟩
abbrev main_call16_v2 : Ref sig .tc := ⟨.hbm, 162, rfl⟩
abbrev main_v102 : Ref sig .tc := ⟨.hbm, 163, rfl⟩
abbrev main_cst_2 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_call17_cst : Ref sig .tc := ⟨.hbm, 174, rfl⟩
abbrev main_call17_v0 : Ref sig .tc := ⟨.hbm, 175, rfl⟩
abbrev main_v112 : Ref sig .tc := ⟨.hbm, 176, rfl⟩
abbrev main_call18_v0 : Ref sig .tc := ⟨.hbm, 177, rfl⟩
abbrev main_call18_cst : Ref sig .tc := ⟨.hbm, 178, rfl⟩
abbrev main_call18_v1 : Ref sig .tc := ⟨.hbm, 179, rfl⟩
abbrev main_call18_v2 : Ref sig .tc := ⟨.hbm, 180, rfl⟩
abbrev main_v113 : Ref sig .tc := ⟨.hbm, 181, rfl⟩
abbrev main_cst_3 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_call19_cst : Ref sig .tc := ⟨.hbm, 192, rfl⟩
abbrev main_call19_v0 : Ref sig .tc := ⟨.hbm, 193, rfl⟩
abbrev main_v123 : Ref sig .tc := ⟨.hbm, 194, rfl⟩
abbrev main_call20_v0 : Ref sig .tc := ⟨.hbm, 195, rfl⟩
abbrev main_call20_cst : Ref sig .tc := ⟨.hbm, 196, rfl⟩
abbrev main_call20_v1 : Ref sig .tc := ⟨.hbm, 197, rfl⟩
abbrev main_call20_v2 : Ref sig .tc := ⟨.hbm, 198, rfl⟩
abbrev main_v124 : Ref sig .tc := ⟨.hbm, 199, rfl⟩
abbrev main_cst_4 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_call21_cst : Ref sig .tc := ⟨.hbm, 210, rfl⟩
abbrev main_call21_v0 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_call22_cst : Ref sig .tc := ⟨.hbm, 217, rfl⟩
abbrev main_call22_v0 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_call23_cst : Ref sig .tc := ⟨.hbm, 224, rfl⟩
abbrev main_call23_v0 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_call24_cst : Ref sig .tc := ⟨.hbm, 235, rfl⟩
abbrev main_call24_v0 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_call25_cst : Ref sig .tc := ⟨.hbm, 242, rfl⟩
abbrev main_call25_v0 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_call26_cst : Ref sig .tc := ⟨.hbm, 254, rfl⟩
abbrev main_call26_v0 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_call27_cst : Ref sig .tc := ⟨.hbm, 261, rfl⟩
abbrev main_call27_v0 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_call28_cst : Ref sig .tc := ⟨.hbm, 273, rfl⟩
abbrev main_call28_v0 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_call29_cst : Ref sig .tc := ⟨.hbm, 280, rfl⟩
abbrev main_call29_v0 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  dot_S10000x256_S256x1_S10000x1_1_0_0_1_n_n_wf : DotDims.WF S10000x256 S256x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.KernelRun.lean ====
/- The run of @main with the result array exposed.

   The generated frame certificate proves that every weakly fair execution of @main on the TensorCores terminates
   without fault and leaves the sixteen argument arrays as launched. Its proof ends by reading EVERY unscoped buffer of
   the final state against the last boundary's contents (the fold `Gen.W12`); the generated statement keeps only the
   argument arrays of that reading. Here the same run is stated with one more conjunct, in front: the result array
   `main_v30` of the final state is the last boundary's contents at that buffer. The value of those contents is what the
   fold modules and the region modules compute; this module only exposes the buffer. -/
import proofs.«102964_g18485539242350_cont_8to1_1494_7_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of @main on the TensorCores terminates, nothing
    faulting, and in every final state the result array `main_v30` holds the last boundary's contents `Gen.W12` at
    that buffer, and every argument array is as launched. The final state is read at every unscoped buffer against
    `Gen.W12`; `main_v30` is unscoped, so its reading is one more component of the same conjunction. -/
theorem run_v30 : θ_run defs (onTc (τ := τ) (main (F := F))) ⟨m, fun _ => 0, ρ⟩ (fun r => ∀ c : Dev nD,
      r.2.mem ((c.tc : Thread nD τ).loc main_v30) = Gen.W12 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v30 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Hand

end
-- ==== Proof.FoldA.lean ====
/- What regions 0 to 3 find in their input arrays when they are entered.

   @main is a fold over buffer contents: a stretch of host operations rewrites the buffers it writes and leaves the
   rest; a region leaves in each of its output arrays what its write-backs fold to, in each of its input arrays what
   it found there, and every buffer that is not one of its arrays as it was. Walking that fold back from a region's
   entry gives each input array as a value:

   * the adjacency of the first layer is the launch memory's (nothing before region 0 writes it);
   * the bias rows are the bias vectors recast to one row, the weights and the features of the first layer the
     launch arrays' format change — what the first stretch of host operations wrote, kept by every region since,
     none of which owns those buffers;
   * the adjacency copy that layers 2, 3 and 4 read is region 0's second output, handed on unchanged by regions 1
     and 2, which read it through an input window;
   * the features of layers 2, 3 and 4 are the projected output of the region before. -/
import proofs.«102964_g18485539242350_cont_8to1_1494_7_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The first stretch of host operations -/

/-- Closes `StableHlo.after ops V b = V b` for a literal stretch `ops` none of whose operations writes `b`: each
    operation writes one buffer, and `b` is none of them. -/
local macro "host_keeps " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The first layer's adjacency, at region 0's entry, is the launch memory's: no host operation writes it. -/
theorem foldA_arg0 (c : Dev nD) : Gen.V1 m ρ c main_arg0 = m ((c : Thread nD τ).loc main_arg0) := by
  show StableHlo.after hostOps0 (W0 m ρ c) (Proc.devRef .tc main_arg0) = W0 m ρ c (Proc.devRef .tc main_arg0)
  host_keeps hostOps0

/-- Bias row of layer 1: the bias vector recast to one row. -/
theorem foldA_v0 (c : Dev nD) : Gen.V1 m ρ c main_v0
    = shapeCast S1x128 (m ((c : Thread nD τ).loc main_arg3) : FVec F S128 .f32) shapeCasts_S128_S1x128 := by
  show StableHlo.after hostOps0 (W0 m ρ c) (Proc.devRef .tc main_v0) = _
  dsimp only [hostOps0]; after_results; rfl
/-- Bias row of layer 2. -/
theorem foldA_v1 (c : Dev nD) : Gen.V1 m ρ c main_v1
    = shapeCast S1x128 (m ((c : Thread nD τ).loc main_arg5) : FVec F S128 .f32) shapeCasts_S128_S1x128 := by
  show StableHlo.after hostOps0 (W0 m ρ c) (Proc.devRef .tc main_v1) = _
  dsimp only [hostOps0]; after_results; rfl
/-- Bias row of layer 3. -/
theorem foldA_v2 (c : Dev nD) : Gen.V1 m ρ c main_v2
    = shapeCast S1x128 (m ((c : Thread nD τ).loc main_arg7) : FVec F S128 .f32) shapeCasts_S128_S1x128 := by
  show StableHlo.after hostOps0 (W0 m ρ c) (Proc.devRef .tc main_v2) = _
  dsimp only [hostOps0]; after_results; rfl
/-- Bias row of layer 4. -/
theorem foldA_v3 (c : Dev nD) : Gen.V1 m ρ c main_v3
    = shapeCast S1x128 (m ((c : Thread nD τ).loc main_arg9) : FVec F S128 .f32) shapeCasts_S128_S1x128 := by
  show StableHlo.after hostOps0 (W0 m ρ c) (Proc.devRef .tc main_v3) = _
  dsimp only [hostOps0]; after_results; rfl
/-- Weights of layer 2 in the narrow format. -/
theorem foldA_v4 (c : Dev nD) : Gen.V1 m ρ c main_v4
    = truncf .bf16 (m ((c : Thread nD τ).loc main_arg4) : FVec F S128x128 .f32) bitsLt_bf16_f32 := by
  show StableHlo.after hostOps0 (W0 m ρ c) (Proc.devRef .tc main_v4) = _
  dsimp only [hostOps0]; after_results
/-- Weights of layer 3 in the narrow format. -/
theorem foldA_v5 (c : Dev nD) : Gen.V1 m ρ c main_v5
    = truncf .bf16 (m ((c : Thread nD τ).loc main_arg6) : FVec F S128x128 .f32) bitsLt_bf16_f32 := by
  show StableHlo.after hostOps0 (W0 m ρ c) (Proc.devRef .tc main_v5) = _
  dsimp only [hostOps0]; after_results
/-- Weights of layer 4 in the narrow format. -/
theorem foldA_v6 (c : Dev nD) : Gen.V1 m ρ c main_v6
    = truncf .bf16 (m ((c : Thread nD τ).loc main_arg8) : FVec F S128x128 .f32) bitsLt_bf16_f32 := by
  show StableHlo.after hostOps0 (W0 m ρ c) (Proc.devRef .tc main_v6) = _
  dsimp only [hostOps0]; after_results
/-- The input features in the narrow format. -/
theorem foldA_v7 (c : Dev nD) : Gen.V1 m ρ c main_v7
    = truncf .bf16 (m ((c : Thread nD τ).loc main_arg2) : FVec F S10000x128 .f32) bitsLt_bf16_f32 := by
  show StableHlo.after hostOps0 (W0 m ρ c) (Proc.devRef .tc main_v7) = _
  dsimp only [hostOps0]; after_results

/-! ## Region 0 (layer 1), entered at the contents after the first host stretch -/

theorem e0_0 (c : Dev nD) : Gen.V1 m ρ c (Pipeline.arrRef spec0 0) = m ((c : Thread nD τ).loc main_arg0) :=
  foldA_arg0 m ρ c
theorem e0_1 (c : Dev nD) : Gen.V1 m ρ c (Pipeline.arrRef spec0 1)
    = truncf .bf16 (m ((c : Thread nD τ).loc main_arg2) : FVec F S10000x128 .f32) bitsLt_bf16_f32 :=
  foldA_v7 m ρ c
theorem e0_2 (c : Dev nD) : Gen.V1 m ρ c (Pipeline.arrRef spec0 2)
    = shapeCast S1x128 (m ((c : Thread nD τ).loc main_arg3) : FVec F S128 .f32) shapeCasts_S128_S1x128 :=
  foldA_v0 m ρ c
theorem e0_3 (c : Dev nD) : Gen.V1 m ρ c (Pipeline.arrRef spec0 3)
    = truncf .bf16 (m ((c : Thread nD τ).loc main_arg4) : FVec F S128x128 .f32) bitsLt_bf16_f32 :=
  foldA_v4 m ρ c

/-! ## Region 1 (layer 2), entered at region 0's exit -/

/-- The adjacency copy is region 0's output 5. -/
theorem e1_0 (c : Dev nD) : Gen.V2 m ρ c (Pipeline.arrRef spec1 0) = (Gen.dat0 (Gen.V1 m ρ) c).arrAt 5 cfg0.N :=
  W2_arr m ρ c 5
/-- The features are region 0's output 6, the projection of layer 1's output. -/
theorem e1_1 (c : Dev nD) : Gen.V2 m ρ c (Pipeline.arrRef spec1 1) = (Gen.dat0 (Gen.V1 m ρ) c).arrAt 6 cfg0.N :=
  W2_arr m ρ c 6
/-- Region 0 owns neither the bias row of layer 2 nor the weights of layer 3. -/
theorem e1_2 (c : Dev nD) : Gen.V2 m ρ c (Pipeline.arrRef spec1 2)
    = shapeCast S1x128 (m ((c : Thread nD τ).loc main_arg5) : FVec F S128 .f32) shapeCasts_S128_S1x128 :=
  (W2_of_ne m ρ c main_v1 (by decide)).trans (foldA_v1 m ρ c)
theorem e1_3 (c : Dev nD) : Gen.V2 m ρ c (Pipeline.arrRef spec1 3)
    = truncf .bf16 (m ((c : Thread nD τ).loc main_arg6) : FVec F S128x128 .f32) bitsLt_bf16_f32 :=
  (W2_of_ne m ρ c main_v5 (by decide)).trans (foldA_v5 m ρ c)

/-! ## Region 2 (layer 3), entered at region 1's exit -/

/-- Region 1 reads the adjacency copy through its input window 0 and leaves it as found. -/
theorem e2_0 (c : Dev nD) : Gen.V3 m ρ c (Pipeline.arrRef spec2 0) = (Gen.dat0 (Gen.V1 m ρ) c).arrAt 5 cfg0.N :=
  ((W3_arr m ρ c 0).trans (((dat1 (V2 m ρ) c).arrAt_in 0 rfl _).trans (A_eq1 (V2 m ρ) c 0))).trans (e1_0 m ρ c)
/-- The features are region 1's output 5. -/
theorem e2_1 (c : Dev nD) : Gen.V3 m ρ c (Pipeline.arrRef spec2 1) = (Gen.dat1 (Gen.V2 m ρ) c).arrAt 5 cfg1.N :=
  W3_arr m ρ c 5
theorem e2_2 (c : Dev nD) : Gen.V3 m ρ c (Pipeline.arrRef spec2 2)
    = shapeCast S1x128 (m ((c : Thread nD τ).loc main_arg7) : FVec F S128 .f32) shapeCasts_S128_S1x128 :=
  ((W3_of_ne m ρ c main_v2 (by decide)).trans (W2_of_ne m ρ c main_v2 (by decide))).trans (foldA_v2 m ρ c)
theorem e2_3 (c : Dev nD) : Gen.V3 m ρ c (Pipeline.arrRef spec2 3)
    = truncf .bf16 (m ((c : Thread nD τ).loc main_arg8) : FVec F S128x128 .f32) bitsLt_bf16_f32 :=
  ((W3_of_ne m ρ c main_v6 (by decide)).trans (W2_of_ne m ρ c main_v6 (by decide))).trans (foldA_v6 m ρ c)

/-! ## Region 3 (layer 4), entered at region 2's exit -/

/-- Region 2 reads the adjacency copy through its input window 0 and leaves it as found. -/
theorem e3_0 (c : Dev nD) : Gen.V4 m ρ c (Pipeline.arrRef spec3 0) = (Gen.dat0 (Gen.V1 m ρ) c).arrAt 5 cfg0.N :=
  ((W4_arr m ρ c 0).trans (((dat2 (V3 m ρ) c).arrAt_in 0 rfl _).trans (A_eq2 (V3 m ρ) c 0))).trans (e2_0 m ρ c)
/-- The features are region 2's output 5. -/
theorem e3_1 (c : Dev nD) : Gen.V4 m ρ c (Pipeline.arrRef spec3 1) = (Gen.dat2 (Gen.V3 m ρ) c).arrAt 5 cfg2.N :=
  W4_arr m ρ c 5
theorem e3_2 (c : Dev nD) : Gen.V4 m ρ c (Pipeline.arrRef spec3 2)
    = shapeCast S1x128 (m ((c : Thread nD τ).loc main_arg9) : FVec F S128 .f32) shapeCasts_S128_S1x128 :=
  (((W4_of_ne m ρ c main_v3 (by decide)).trans (W3_of_ne m ρ c main_v3 (by decide))).trans
    (W2_of_ne m ρ c main_v3 (by decide))).trans (foldA_v3 m ρ c)

end Cert.KernelIdeal.Hand

end
-- ==== Proof.FoldB.lean ====
/-
  What each input array of regions 4 to 8 holds when its region is entered, and what the result array holds at the end.

  The run's buffer contents at a segment boundary are a fold from the launch memory: a stretch of host operations
  rewrites the buffers it writes and keeps the rest, a region leaves at each of its arrays what its pipeline leaves
  (an input as entered, an output with its write-backs folded) and keeps every other buffer. Reading one buffer at one
  boundary is therefore a walk back along the fold: through every step that keeps it, to the step that wrote it — a
  region's output, read as that region's folded array; a host operation's result, read as the operation applied to its
  argument, which no step writes and which is therefore still the launch memory — or, for an argument array, all the
  way to the launch.
-/
import proofs.«102964_g18485539242350_cont_8to1_1494_7_alg».proof.Proof.Gen.KernelIdeal.Frame

set_option maxRecDepth 16384

noncomputable section

namespace Cert.KernelIdeal.Hand

open Idealize.ShloMosaic Idealize.ShloMosaic.TcCoe

variable {F : FTy → Type} [FloatOps F]
variable (m : (ℓ : Loc nD τ sig) → Buf (Elt F) ℓ) (ρ : Dev nD → PrngReg)

/-! ## The host stretches keep every buffer that is not one of their results -/

/-- The results of the host operations before region 0. -/
abbrev hostW0B : List (Ref sig .tc) := [main_v0, main_v1, main_v2, main_v3, main_v4, main_v5, main_v6, main_v7]
/-- The results of the host operations before region 4. -/
abbrev hostW4B : List (Ref sig .tc) := [main_v12, main_v13, main_v14, main_v15, main_v16, main_v17, main_v18, main_v19]
/-- The results of the host operations before region 8. -/
abbrev hostW8B : List (Ref sig .tc) := [main_v24, main_v25, main_v26, main_v27, main_v28, main_v29]

/-- Each host operation before region 0 writes one of the listed results. -/
theorem hostW0B_writes : (Gen.hostOps0 : List (HloOp τ sig (Elt F))).Forall
    fun op => op.writes ⊆ (hostW0B.map (Proc.devRef (τ := τ) .tc)).toFinset := by
  simp only [List.Forall]
  repeat' apply And.intro
  all_goals
    simp only [StableHlo.unary_writes, StableHlo.reshape_writes, Finset.singleton_subset_iff, List.mem_toFinset]
    exact List.mem_map_of_mem (by decide)
theorem keep0B (c : Dev nD) (b : Ref sig .tc) (h : b ∉ hostW0B) :
    Gen.W1 m ρ c (Proc.devRef .tc b) = Gen.W0 m ρ c (Proc.devRef .tc b) :=
  StableHlo.after_of_writes_sub Gen.hostOps0 _ hostW0B_writes h

/-- Each host operation before region 4 writes one of the listed results. -/
theorem hostW4B_writes : (Gen.hostOps4 : List (HloOp τ sig (Elt F))).Forall
    fun op => op.writes ⊆ (hostW4B.map (Proc.devRef (τ := τ) .tc)).toFinset := by
  simp only [List.Forall]
  repeat' apply And.intro
  all_goals
    simp only [StableHlo.unary_writes, StableHlo.reshape_writes, Finset.singleton_subset_iff, List.mem_toFinset]
    exact List.mem_map_of_mem (by decide)
theorem keep4B (c : Dev nD) (b : Ref sig .tc) (h : b ∉ hostW4B) :
    Gen.W6 m ρ c (Proc.devRef .tc b) = Gen.W5 m ρ c (Proc.devRef .tc b) :=
  StableHlo.after_of_writes_sub Gen.hostOps4 _ hostW4B_writes h

/-- Each host operation before region 8 writes one of the listed results. -/
theorem hostW8B_writes : (Gen.hostOps8 : List (HloOp τ sig (Elt F))).Forall
    fun op => op.writes ⊆ (hostW8B.map (Proc.devRef (τ := τ) .tc)).toFinset := by
  simp only [List.Forall]
  repeat' apply And.intro
  all_goals
    simp only [StableHlo.unary_writes, StableHlo.reshape_writes, Finset.singleton_subset_iff, List.mem_toFinset]
    exact List.mem_map_of_mem (by decide)
theorem keep8B (c : Dev nD) (b : Ref sig .tc) (h : b ∉ hostW8B) :
    Gen.W11 m ρ c (Proc.devRef .tc b) = Gen.W10 m ρ c (Proc.devRef .tc b) :=
  StableHlo.after_of_writes_sub Gen.hostOps8 _ hostW8B_writes h

/-! ## Stretches of regions keep every buffer that is none of their arrays -/

/-- Regions 0 to 3 keep a buffer that is no array of theirs. -/
theorem skip03B (c : Dev nD) (b : Ref sig .tc)
    (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) :
    Gen.W5 m ρ c (Proc.devRef .tc b) = Gen.W1 m ρ c (Proc.devRef .tc b) :=
  calc Gen.W5 m ρ c (Proc.devRef .tc b)
    _ = Gen.W4 m ρ c (Proc.devRef .tc b) := Gen.W5_of_ne m ρ c b h3
    _ = Gen.W3 m ρ c (Proc.devRef .tc b) := Gen.W4_of_ne m ρ c b h2
    _ = Gen.W2 m ρ c (Proc.devRef .tc b) := Gen.W3_of_ne m ρ c b h1
    _ = Gen.W1 m ρ c (Proc.devRef .tc b) := Gen.W2_of_ne m ρ c b h0

/-- Regions 4 to 7 keep a buffer that is no array of theirs. -/
theorem skip47B (c : Dev nD) (b : Ref sig .tc)
    (h4 : ∀ w, Pipeline.arrRef spec4 w ≠ b) (h5 : ∀ w, Pipeline.arrRef spec5 w ≠ b)
    (h6 : ∀ w, Pipeline.arrRef spec6 w ≠ b) (h7 : ∀ w, Pipeline.arrRef spec7 w ≠ b) :
    Gen.W10 m ρ c (Proc.devRef .tc b) = Gen.W6 m ρ c (Proc.devRef .tc b) :=
  calc Gen.W10 m ρ c (Proc.devRef .tc b)
    _ = Gen.W9 m ρ c (Proc.devRef .tc b) := Gen.W10_of_ne m ρ c b h7
    _ = Gen.W8 m ρ c (Proc.devRef .tc b) := Gen.W9_of_ne m ρ c b h6
    _ = Gen.W7 m ρ c (Proc.devRef .tc b) := Gen.W8_of_ne m ρ c b h5
    _ = Gen.W6 m ρ c (Proc.devRef .tc b) := Gen.W7_of_ne m ρ c b h4

/-- A buffer that nothing before region 4's host stretch writes still holds the launch memory there. -/
theorem W5_keepB (c : Dev nD) (b : Ref sig .tc) (h : b ∉ hostW0B)
    (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) :
    Gen.W5 m ρ c (Proc.devRef .tc b) = m ((c : Thread nD τ).loc b) :=
  calc Gen.W5 m ρ c (Proc.devRef .tc b)
    _ = Gen.W1 m ρ c (Proc.devRef .tc b) := skip03B m ρ c b h0 h1 h2 h3
    _ = Gen.W0 m ρ c (Proc.devRef .tc b) := keep0B m ρ c b h
    _ = m ((c : Thread nD τ).loc b) := rfl

/-- A buffer that nothing before region 8's host stretch writes still holds the launch memory there. -/
theorem W10_keepB (c : Dev nD) (b : Ref sig .tc) (h : b ∉ hostW0B) (h' : b ∉ hostW4B)
    (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (h4 : ∀ w, Pipeline.arrRef spec4 w ≠ b) (h5 : ∀ w, Pipeline.arrRef spec5 w ≠ b)
    (h6 : ∀ w, Pipeline.arrRef spec6 w ≠ b) (h7 : ∀ w, Pipeline.arrRef spec7 w ≠ b) :
    Gen.W10 m ρ c (Proc.devRef .tc b) = m ((c : Thread nD τ).loc b) :=
  calc Gen.W10 m ρ c (Proc.devRef .tc b)
    _ = Gen.W6 m ρ c (Proc.devRef .tc b) := skip47B m ρ c b h4 h5 h6 h7
    _ = Gen.W5 m ρ c (Proc.devRef .tc b) := keep4B m ρ c b h'
    _ = m ((c : Thread nD τ).loc b) := W5_keepB m ρ c b h h0 h1 h2 h3

/-! ## The argument arrays the host operations read are still the launch memory -/

theorem W5_arg2B (c : Dev nD) : Gen.W5 m ρ c (Proc.devRef .tc main_arg2) = m ((c : Thread nD τ).loc main_arg2) :=
  W5_keepB m ρ c main_arg2 (by decide) (by decide) (by decide) (by decide) (by decide)
theorem W5_arg3B (c : Dev nD) : Gen.W5 m ρ c (Proc.devRef .tc main_arg3) = m ((c : Thread nD τ).loc main_arg3) :=
  W5_keepB m ρ c main_arg3 (by decide) (by decide) (by decide) (by decide) (by decide)
theorem W5_arg4B (c : Dev nD) : Gen.W5 m ρ c (Proc.devRef .tc main_arg4) = m ((c : Thread nD τ).loc main_arg4) :=
  W5_keepB m ρ c main_arg4 (by decide) (by decide) (by decide) (by decide) (by decide)
theorem W5_arg5B (c : Dev nD) : Gen.W5 m ρ c (Proc.devRef .tc main_arg5) = m ((c : Thread nD τ).loc main_arg5) :=
  W5_keepB m ρ c main_arg5 (by decide) (by decide) (by decide) (by decide) (by decide)
theorem W5_arg6B (c : Dev nD) : Gen.W5 m ρ c (Proc.devRef .tc main_arg6) = m ((c : Thread nD τ).loc main_arg6) :=
  W5_keepB m ρ c main_arg6 (by decide) (by decide) (by decide) (by decide) (by decide)
theorem W5_arg7B (c : Dev nD) : Gen.W5 m ρ c (Proc.devRef .tc main_arg7) = m ((c : Thread nD τ).loc main_arg7) :=
  W5_keepB m ρ c main_arg7 (by decide) (by decide) (by decide) (by decide) (by decide)
theorem W5_arg8B (c : Dev nD) : Gen.W5 m ρ c (Proc.devRef .tc main_arg8) = m ((c : Thread nD τ).loc main_arg8) :=
  W5_keepB m ρ c main_arg8 (by decide) (by decide) (by decide) (by decide) (by decide)
theorem W5_arg9B (c : Dev nD) : Gen.W5 m ρ c (Proc.devRef .tc main_arg9) = m ((c : Thread nD τ).loc main_arg9) :=
  W5_keepB m ρ c main_arg9 (by decide) (by decide) (by decide) (by decide) (by decide)
theorem W10_arg10B (c : Dev nD) : Gen.W10 m ρ c (Proc.devRef .tc main_arg10) = m ((c : Thread nD τ).loc main_arg10) :=
  W10_keepB m ρ c main_arg10 (by decide) (by decide) (by decide) (by decide) (by decide) (by decide) (by decide) (by decide) (by decide) (by decide)
theorem W10_arg11B (c : Dev nD) : Gen.W10 m ρ c (Proc.devRef .tc main_arg11) = m ((c : Thread nD τ).loc main_arg11) :=
  W10_keepB m ρ c main_arg11 (by decide) (by decide) (by decide) (by decide) (by decide) (by decide) (by decide) (by decide) (by decide) (by decide)
theorem W10_arg12B (c : Dev nD) : Gen.W10 m ρ c (Proc.devRef .tc main_arg12) = m ((c : Thread nD τ).loc main_arg12) :=
  W10_keepB m ρ c main_arg12 (by decide) (by decide) (by decide) (by decide) (by decide) (by decide) (by decide) (by decide) (by decide) (by decide)
theorem W10_arg13B (c : Dev nD) : Gen.W10 m ρ c (Proc.devRef .tc main_arg13) = m ((c : Thread nD τ).loc main_arg13) :=
  W10_keepB m ρ c main_arg13 (by decide) (by decide) (by decide) (by decide) (by decide) (by decide) (by decide) (by decide) (by decide) (by decide)
theorem W10_arg14B (c : Dev nD) : Gen.W10 m ρ c (Proc.devRef .tc main_arg14) = m ((c : Thread nD τ).loc main_arg14) :=
  W10_keepB m ρ c main_arg14 (by decide) (by decide) (by decide) (by decide) (by decide) (by decide) (by decide) (by decide) (by decide) (by decide)
theorem W10_arg15B (c : Dev nD) : Gen.W10 m ρ c (Proc.devRef .tc main_arg15) = m ((c : Thread nD τ).loc main_arg15) :=
  W10_keepB m ρ c main_arg15 (by decide) (by decide) (by decide) (by decide) (by decide) (by decide) (by decide) (by decide) (by decide) (by decide)

/-! ## A host operation's result is the operation applied to its argument -/

theorem W6_v12B (c : Dev nD) : Gen.W6 m ρ c (Proc.devRef .tc main_v12)
    = shapeCast S1x128 (Gen.W5 m ρ c (Proc.devRef .tc main_arg3) : FVec F S128 .f32) Gen.shapeCasts_S128_S1x128 := by
  dsimp only [Gen.W6, Gen.hostOps4]
  after_results; rfl
theorem W6_v13B (c : Dev nD) : Gen.W6 m ρ c (Proc.devRef .tc main_v13)
    = shapeCast S1x128 (Gen.W5 m ρ c (Proc.devRef .tc main_arg5) : FVec F S128 .f32) Gen.shapeCasts_S128_S1x128 := by
  dsimp only [Gen.W6, Gen.hostOps4]
  after_results; rfl
theorem W6_v14B (c : Dev nD) : Gen.W6 m ρ c (Proc.devRef .tc main_v14)
    = shapeCast S1x128 (Gen.W5 m ρ c (Proc.devRef .tc main_arg7) : FVec F S128 .f32) Gen.shapeCasts_S128_S1x128 := by
  dsimp only [Gen.W6, Gen.hostOps4]
  after_results; rfl
theorem W6_v15B (c : Dev nD) : Gen.W6 m ρ c (Proc.devRef .tc main_v15)
    = shapeCast S1x128 (Gen.W5 m ρ c (Proc.devRef .tc main_arg9) : FVec F S128 .f32) Gen.shapeCasts_S128_S1x128 := by
  dsimp only [Gen.W6, Gen.hostOps4]
  after_results; rfl
theorem W6_v16B (c : Dev nD) : Gen.W6 m ρ c (Proc.devRef .tc main_v16)
    = truncf .bf16 (Gen.W5 m ρ c (Proc.devRef .tc main_arg4) : FVec F S128x128 .f32) Gen.bitsLt_bf16_f32 := by
  dsimp only [Gen.W6, Gen.hostOps4]
  after_results
theorem W6_v17B (c : Dev nD) : Gen.W6 m ρ c (Proc.devRef .tc main_v17)
    = truncf .bf16 (Gen.W5 m ρ c (Proc.devRef .tc main_arg6) : FVec F S128x128 .f32) Gen.bitsLt_bf16_f32 := by
  dsimp only [Gen.W6, Gen.hostOps4]
  after_results
theorem W6_v18B (c : Dev nD) : Gen.W6 m ρ c (Proc.devRef .tc main_v18)
    = truncf .bf16 (Gen.W5 m ρ c (Proc.devRef .tc main_arg8) : FVec F S128x128 .f32) Gen.bitsLt_bf16_f32 := by
  dsimp only [Gen.W6, Gen.hostOps4]
  after_results
theorem W6_v19B (c : Dev nD) : Gen.W6 m ρ c (Proc.devRef .tc main_v19)
    = truncf .bf16 (Gen.W5 m ρ c (Proc.devRef .tc main_arg2) : FVec F S10000x128 .f32) Gen.bitsLt_bf16_f32 := by
  dsimp only [Gen.W6, Gen.hostOps4]
  after_results
theorem W11_v24B (c : Dev nD) : Gen.W11 m ρ c (Proc.devRef .tc main_v24)
    = truncf .bf16 (Gen.W10 m ρ c (Proc.devRef .tc main_arg10) : FVec F S128x256 .f32) Gen.bitsLt_bf16_f32 := by
  dsimp only [Gen.W11, Gen.hostOps8]
  after_results
theorem W11_v25B (c : Dev nD) : Gen.W11 m ρ c (Proc.devRef .tc main_v25)
    = shapeCast S1x256 (Gen.W10 m ρ c (Proc.devRef .tc main_arg11) : FVec F S256 .f32) Gen.shapeCasts_S256_S1x256 := by
  dsimp only [Gen.W11, Gen.hostOps8]
  after_results; rfl
theorem W11_v26B (c : Dev nD) : Gen.W11 m ρ c (Proc.devRef .tc main_v26)
    = truncf .bf16 (Gen.W10 m ρ c (Proc.devRef .tc main_arg12) : FVec F S256x256 .f32) Gen.bitsLt_bf16_f32 := by
  dsimp only [Gen.W11, Gen.hostOps8]
  after_results
theorem W11_v27B (c : Dev nD) : Gen.W11 m ρ c (Proc.devRef .tc main_v27)
    = shapeCast S1x256 (Gen.W10 m ρ c (Proc.devRef .tc main_arg13) : FVec F S256 .f32) Gen.shapeCasts_S256_S1x256 := by
  dsimp only [Gen.W11, Gen.hostOps8]
  after_results; rfl
theorem W11_v28B (c : Dev nD) : Gen.W11 m ρ c (Proc.devRef .tc main_v28)
    = truncf .bf16 (Gen.W10 m ρ c (Proc.devRef .tc main_arg14) : FVec F S256x1 .f32) Gen.bitsLt_bf16_f32 := by
  dsimp only [Gen.W11, Gen.hostOps8]
  after_results
theorem W11_v29B (c : Dev nD) : Gen.W11 m ρ c (Proc.devRef .tc main_v29)
    = shapeCast S1x1 (Gen.W10 m ρ c (Proc.devRef .tc main_arg15) : FVec F S1 .f32) Gen.shapeCasts_S1_S1x1 := by
  dsimp only [Gen.W11, Gen.hostOps8]
  after_results; rfl

/-! ## Region 4's inputs at its entry -/

/-- The adjacency of branch 2: an argument array no step before region 4 writes. -/
theorem e4_0 (c : Dev nD) : Gen.V6 m ρ c (Pipeline.arrRef spec4 0) = m ((c : Thread nD τ).loc main_arg1) :=
  calc Gen.V6 m ρ c (Pipeline.arrRef spec4 0)
    _ = Gen.W5 m ρ c (Proc.devRef .tc main_arg1) := keep4B m ρ c main_arg1 (by decide)
    _ = m ((c : Thread nD τ).loc main_arg1) := W5_keepB m ρ c main_arg1 (by decide) (by decide) (by decide) (by decide) (by decide)
/-- The input features in the narrow format: the host's conversion of the feature argument. -/
theorem e4_1 (c : Dev nD) : Gen.V6 m ρ c (Pipeline.arrRef spec4 1)
    = truncf .bf16 (m ((c : Thread nD τ).loc main_arg2) : FVec F S10000x128 .f32) Gen.bitsLt_bf16_f32 :=
  calc Gen.V6 m ρ c (Pipeline.arrRef spec4 1)
    _ = truncf .bf16 (Gen.W5 m ρ c (Proc.devRef .tc main_arg2) : FVec F S10000x128 .f32) Gen.bitsLt_bf16_f32 := W6_v19B m ρ c
    _ = _ := by rw [W5_arg2B m ρ c]
/-- Layer 1's bias as one row: the host's reshape of the bias argument. -/
theorem e4_2 (c : Dev nD) : Gen.V6 m ρ c (Pipeline.arrRef spec4 2)
    = shapeCast S1x128 (m ((c : Thread nD τ).loc main_arg3) : FVec F S128 .f32) Gen.shapeCasts_S128_S1x128 :=
  calc Gen.V6 m ρ c (Pipeline.arrRef spec4 2)
    _ = shapeCast S1x128 (Gen.W5 m ρ c (Proc.devRef .tc main_arg3) : FVec F S128 .f32) Gen.shapeCasts_S128_S1x128 := W6_v12B m ρ c
    _ = _ := by rw [W5_arg3B m ρ c]
/-- Layer 2's weights in the narrow format: the host's conversion of the weight argument. -/
theorem e4_3 (c : Dev nD) : Gen.V6 m ρ c (Pipeline.arrRef spec4 3)
    = truncf .bf16 (m ((c : Thread nD τ).loc main_arg4) : FVec F S128x128 .f32) Gen.bitsLt_bf16_f32 :=
  calc Gen.V6 m ρ c (Pipeline.arrRef spec4 3)
    _ = truncf .bf16 (Gen.W5 m ρ c (Proc.devRef .tc main_arg4) : FVec F S128x128 .f32) Gen.bitsLt_bf16_f32 := W6_v16B m ρ c
    _ = _ := by rw [W5_arg4B m ρ c]

/-! ## Region 5's inputs at its entry -/

/-- The narrow copy of the adjacency: region 4's second output. -/
theorem e5_0 (c : Dev nD) : Gen.V7 m ρ c (Pipeline.arrRef spec5 0) = (Gen.dat4 (Gen.V6 m ρ) c).arrAt 5 cfg4.N :=
  Gen.W7_arr m ρ c 5
/-- Layer 1's features times layer 2's weights: region 4's third output. -/
theorem e5_1 (c : Dev nD) : Gen.V7 m ρ c (Pipeline.arrRef spec5 1) = (Gen.dat4 (Gen.V6 m ρ) c).arrAt 6 cfg4.N :=
  Gen.W7_arr m ρ c 6
/-- Layer 2's bias as one row. -/
theorem e5_2 (c : Dev nD) : Gen.V7 m ρ c (Pipeline.arrRef spec5 2)
    = shapeCast S1x128 (m ((c : Thread nD τ).loc main_arg5) : FVec F S128 .f32) Gen.shapeCasts_S128_S1x128 :=
  calc Gen.V7 m ρ c (Pipeline.arrRef spec5 2)
    _ = Gen.W6 m ρ c (Proc.devRef .tc main_v13) := Gen.W7_of_ne m ρ c main_v13 (by decide)
    _ = shapeCast S1x128 (Gen.W5 m ρ c (Proc.devRef .tc main_arg5) : FVec F S128 .f32) Gen.shapeCasts_S128_S1x128 := W6_v13B m ρ c
    _ = _ := by rw [W5_arg5B m ρ c]
/-- Layer 3's weights in the narrow format. -/
theorem e5_3 (c : Dev nD) : Gen.V7 m ρ c (Pipeline.arrRef spec5 3)
    = truncf .bf16 (m ((c : Thread nD τ).loc main_arg6) : FVec F S128x128 .f32) Gen.bitsLt_bf16_f32 :=
  calc Gen.V7 m ρ c (Pipeline.arrRef spec5 3)
    _ = Gen.W6 m ρ c (Proc.devRef .tc main_v17) := Gen.W7_of_ne m ρ c main_v17 (by decide)
    _ = truncf .bf16 (Gen.W5 m ρ c (Proc.devRef .tc main_arg6) : FVec F S128x128 .f32) Gen.bitsLt_bf16_f32 := W6_v17B m ρ c
    _ = _ := by rw [W5_arg6B m ρ c]

/-! ## Region 6's inputs at its entry -/

/-- The narrow copy of the adjacency: region 5 read it and left it as entered. -/
theorem e6_0 (c : Dev nD) : Gen.V8 m ρ c (Pipeline.arrRef spec6 0) = (Gen.dat4 (Gen.V6 m ρ) c).arrAt 5 cfg4.N :=
  calc Gen.V8 m ρ c (Pipeline.arrRef spec6 0)
    _ = (Gen.dat5 (Gen.V7 m ρ) c).arrAt 0 cfg5.N := Gen.W8_arr m ρ c 0
    _ = Gen.V7 m ρ c (Pipeline.arrRef spec5 0) := ((Gen.dat5 (Gen.V7 m ρ) c).arrAt_in 0 rfl _).trans (Gen.A_eq5 (Gen.V7 m ρ) c 0)
    _ = (Gen.dat4 (Gen.V6 m ρ) c).arrAt 5 cfg4.N := e5_0 m ρ c
/-- Layer 2's features times layer 3's weights: region 5's second output. -/
theorem e6_1 (c : Dev nD) : Gen.V8 m ρ c (Pipeline.arrRef spec6 1) = (Gen.dat5 (Gen.V7 m ρ) c).arrAt 5 cfg5.N :=
  Gen.W8_arr m ρ c 5
/-- Layer 3's bias as one row. -/
theorem e6_2 (c : Dev nD) : Gen.V8 m ρ c (Pipeline.arrRef spec6 2)
    = shapeCast S1x128 (m ((c : Thread nD τ).loc main_arg7) : FVec F S128 .f32) Gen.shapeCasts_S128_S1x128 :=
  calc Gen.V8 m ρ c (Pipeline.arrRef spec6 2)
    _ = Gen.W7 m ρ c (Proc.devRef .tc main_v14) := Gen.W8_of_ne m ρ c main_v14 (by decide)
    _ = Gen.W6 m ρ c (Proc.devRef .tc main_v14) := Gen.W7_of_ne m ρ c main_v14 (by decide)
    _ = shapeCast S1x128 (Gen.W5 m ρ c (Proc.devRef .tc main_arg7) : FVec F S128 .f32) Gen.shapeCasts_S128_S1x128 := W6_v14B m ρ c
    _ = _ := by rw [W5_arg7B m ρ c]
/-- Layer 4's weights in the narrow format. -/
theorem e6_3 (c : Dev nD) : Gen.V8 m ρ c (Pipeline.arrRef spec6 3)
    = truncf .bf16 (m ((c : Thread nD τ).loc main_arg8) : FVec F S128x128 .f32) Gen.bitsLt_bf16_f32 :=
  calc Gen.V8 m ρ c (Pipeline.arrRef spec6 3)
    _ = Gen.W7 m ρ c (Proc.devRef .tc main_v18) := Gen.W8_of_ne m ρ c main_v18 (by decide)
    _ = Gen.W6 m ρ c (Proc.devRef .tc main_v18) := Gen.W7_of_ne m ρ c main_v18 (by decide)
    _ = truncf .bf16 (Gen.W5 m ρ c (Proc.devRef .tc main_arg8) : FVec F S128x128 .f32) Gen.bitsLt_bf16_f32 := W6_v18B m ρ c
    _ = _ := by rw [W5_arg8B m ρ c]

/-! ## Region 7's inputs at its entry -/

/-- The narrow copy of the adjacency: region 6 read it and left it as entered. -/
theorem e7_0 (c : Dev nD) : Gen.V9 m ρ c (Pipeline.arrRef spec7 0) = (Gen.dat4 (Gen.V6 m ρ) c).arrAt 5 cfg4.N :=
  calc Gen.V9 m ρ c (Pipeline.arrRef spec7 0)
    _ = (Gen.dat6 (Gen.V8 m ρ) c).arrAt 0 cfg6.N := Gen.W9_arr m ρ c 0
    _ = Gen.V8 m ρ c (Pipeline.arrRef spec6 0) := ((Gen.dat6 (Gen.V8 m ρ) c).arrAt_in 0 rfl _).trans (Gen.A_eq6 (Gen.V8 m ρ) c 0)
    _ = (Gen.dat4 (Gen.V6 m ρ) c).arrAt 5 cfg4.N := e6_0 m ρ c
/-- Layer 3's features times layer 4's weights: region 6's second output. -/
theorem e7_1 (c : Dev nD) : Gen.V9 m ρ c (Pipeline.arrRef spec7 1) = (Gen.dat6 (Gen.V8 m ρ) c).arrAt 5 cfg6.N :=
  Gen.W9_arr m ρ c 5
/-- Layer 4's bias as one row. -/
theorem e7_2 (c : Dev nD) : Gen.V9 m ρ c (Pipeline.arrRef spec7 2)
    = shapeCast S1x128 (m ((c : Thread nD τ).loc main_arg9) : FVec F S128 .f32) Gen.shapeCasts_S128_S1x128 :=
  calc Gen.V9 m ρ c (Pipeline.arrRef spec7 2)
    _ = Gen.W8 m ρ c (Proc.devRef .tc main_v15) := Gen.W9_of_ne m ρ c main_v15 (by decide)
    _ = Gen.W7 m ρ c (Proc.devRef .tc main_v15) := Gen.W8_of_ne m ρ c main_v15 (by decide)
    _ = Gen.W6 m ρ c (Proc.devRef .tc main_v15) := Gen.W7_of_ne m ρ c main_v15 (by decide)
    _ = shapeCast S1x128 (Gen.W5 m ρ c (Proc.devRef .tc main_arg9) : FVec F S128 .f32) Gen.shapeCasts_S128_S1x128 := W6_v15B m ρ c
    _ = _ := by rw [W5_arg9B m ρ c]

/-! ## Region 8's inputs at its entry: the eight feature arrays are the eight layer regions' first outputs -/
/-- Branch 1, layer 1. -/
theorem e8_0 (c : Dev nD) : Gen.V11 m ρ c (Pipeline.arrRef spec8 0) = (Gen.dat0 (Gen.V1 m ρ) c).arrAt 4 cfg0.N :=
  calc Gen.V11 m ρ c (Pipeline.arrRef spec8 0)
    _ = Gen.W10 m ρ c (Proc.devRef .tc main_v8_0) := keep8B m ρ c main_v8_0 (by decide)
    _ = Gen.W6 m ρ c (Proc.devRef .tc main_v8_0) := skip47B m ρ c main_v8_0 (by decide) (by decide) (by decide) (by decide)
    _ = Gen.W5 m ρ c (Proc.devRef .tc main_v8_0) := keep4B m ρ c main_v8_0 (by decide)
    _ = Gen.W4 m ρ c (Proc.devRef .tc main_v8_0) := Gen.W5_of_ne m ρ c main_v8_0 (by decide)
    _ = Gen.W3 m ρ c (Proc.devRef .tc main_v8_0) := Gen.W4_of_ne m ρ c main_v8_0 (by decide)
    _ = Gen.W2 m ρ c (Proc.devRef .tc main_v8_0) := Gen.W3_of_ne m ρ c main_v8_0 (by decide)
    _ = (Gen.dat0 (Gen.V1 m ρ) c).arrAt 4 cfg0.N := Gen.W2_arr m ρ c 4
/-- Branch 1, layer 2. -/
theorem e8_1 (c : Dev nD) : Gen.V11 m ρ c (Pipeline.arrRef spec8 1) = (Gen.dat1 (Gen.V2 m ρ) c).arrAt 4 cfg1.N :=
  calc Gen.V11 m ρ c (Pipeline.arrRef spec8 1)
    _ = Gen.W10 m ρ c (Proc.devRef .tc main_v9_0) := keep8B m ρ c main_v9_0 (by decide)
    _ = Gen.W6 m ρ c (Proc.devRef .tc main_v9_0) := skip47B m ρ c main_v9_0 (by decide) (by decide) (by decide) (by decide)
    _ = Gen.W5 m ρ c (Proc.devRef .tc main_v9_0) := keep4B m ρ c main_v9_0 (by decide)
    _ = Gen.W4 m ρ c (Proc.devRef .tc main_v9_0) := Gen.W5_of_ne m ρ c main_v9_0 (by decide)
    _ = Gen.W3 m ρ c (Proc.devRef .tc main_v9_0) := Gen.W4_of_ne m ρ c main_v9_0 (by decide)
    _ = (Gen.dat1 (Gen.V2 m ρ) c).arrAt 4 cfg1.N := Gen.W3_arr m ρ c 4
/-- Branch 1, layer 3. -/
theorem e8_2 (c : Dev nD) : Gen.V11 m ρ c (Pipeline.arrRef spec8 2) = (Gen.dat2 (Gen.V3 m ρ) c).arrAt 4 cfg2.N :=
  calc Gen.V11 m ρ c (Pipeline.arrRef spec8 2)
    _ = Gen.W10 m ρ c (Proc.devRef .tc main_v10_0) := keep8B m ρ c main_v10_0 (by decide)
    _ = Gen.W6 m ρ c (Proc.devRef .tc main_v10_0) := skip47B m ρ c main_v10_0 (by decide) (by decide) (by decide) (by decide)
    _ = Gen.W5 m ρ c (Proc.devRef .tc main_v10_0) := keep4B m ρ c main_v10_0 (by decide)
    _ = Gen.W4 m ρ c (Proc.devRef .tc main_v10_0) := Gen.W5_of_ne m ρ c main_v10_0 (by decide)
    _ = (Gen.dat2 (Gen.V3 m ρ) c).arrAt 4 cfg2.N := Gen.W4_arr m ρ c 4
/-- Branch 1, layer 4. -/
theorem e8_3 (c : Dev nD) : Gen.V11 m ρ c (Pipeline.arrRef spec8 3) = (Gen.dat3 (Gen.V4 m ρ) c).arrAt 4 cfg3.N :=
  calc Gen.V11 m ρ c (Pipeline.arrRef spec8 3)
    _ = Gen.W10 m ρ c (Proc.devRef .tc main_v11) := keep8B m ρ c main_v11 (by decide)
    _ = Gen.W6 m ρ c (Proc.devRef .tc main_v11) := skip47B m ρ c main_v11 (by decide) (by decide) (by decide) (by decide)
    _ = Gen.W5 m ρ c (Proc.devRef .tc main_v11) := keep4B m ρ c main_v11 (by decide)
    _ = (Gen.dat3 (Gen.V4 m ρ) c).arrAt 4 cfg3.N := Gen.W5_arr m ρ c 4
/-- Branch 2, layer 1. -/
theorem e8_4 (c : Dev nD) : Gen.V11 m ρ c (Pipeline.arrRef spec8 4) = (Gen.dat4 (Gen.V6 m ρ) c).arrAt 4 cfg4.N :=
  calc Gen.V11 m ρ c (Pipeline.arrRef spec8 4)
    _ = Gen.W10 m ρ c (Proc.devRef .tc main_v20_0) := keep8B m ρ c main_v20_0 (by decide)
    _ = Gen.W9 m ρ c (Proc.devRef .tc main_v20_0) := Gen.W10_of_ne m ρ c main_v20_0 (by decide)
    _ = Gen.W8 m ρ c (Proc.devRef .tc main_v20_0) := Gen.W9_of_ne m ρ c main_v20_0 (by decide)
    _ = Gen.W7 m ρ c (Proc.devRef .tc main_v20_0) := Gen.W8_of_ne m ρ c main_v20_0 (by decide)
    _ = (Gen.dat4 (Gen.V6 m ρ) c).arrAt 4 cfg4.N := Gen.W7_arr m ρ c 4
/-- Branch 2, layer 2. -/
theorem e8_5 (c : Dev nD) : Gen.V11 m ρ c (Pipeline.arrRef spec8 5) = (Gen.dat5 (Gen.V7 m ρ) c).arrAt 4 cfg5.N :=
  calc Gen.V11 m ρ c (Pipeline.arrRef spec8 5)
    _ = Gen.W10 m ρ c (Proc.devRef .tc main_v21_0) := keep8B m ρ c main_v21_0 (by decide)
    _ = Gen.W9 m ρ c (Proc.devRef .tc main_v21_0) := Gen.W10_of_ne m ρ c main_v21_0 (by decide)
    _ = Gen.W8 m ρ c (Proc.devRef .tc main_v21_0) := Gen.W9_of_ne m ρ c main_v21_0 (by decide)
    _ = (Gen.dat5 (Gen.V7 m ρ) c).arrAt 4 cfg5.N := Gen.W8_arr m ρ c 4
/-- Branch 2, layer 3. -/
theorem e8_6 (c : Dev nD) : Gen.V11 m ρ c (Pipeline.arrRef spec8 6) = (Gen.dat6 (Gen.V8 m ρ) c).arrAt 4 cfg6.N :=
  calc Gen.V11 m ρ c (Pipeline.arrRef spec8 6)
    _ = Gen.W10 m ρ c (Proc.devRef .tc main_v22_0) := keep8B m ρ c main_v22_0 (by decide)
    _ = Gen.W9 m ρ c (Proc.devRef .tc main_v22_0) := Gen.W10_of_ne m ρ c main_v22_0 (by decide)
    _ = (Gen.dat6 (Gen.V8 m ρ) c).arrAt 4 cfg6.N := Gen.W9_arr m ρ c 4
/-- Branch 2, layer 4. -/
theorem e8_7 (c : Dev nD) : Gen.V11 m ρ c (Pipeline.arrRef spec8 7) = (Gen.dat7 (Gen.V9 m ρ) c).arrAt 4 cfg7.N :=
  calc Gen.V11 m ρ c (Pipeline.arrRef spec8 7)
    _ = Gen.W10 m ρ c (Proc.devRef .tc main_v23) := keep8B m ρ c main_v23 (by decide)
    _ = (Gen.dat7 (Gen.V9 m ρ) c).arrAt 4 cfg7.N := Gen.W10_arr m ρ c 4

/-! ## Region 8's scorer parameters at its entry -/

/-- The scorer's first weights in the narrow format. -/
theorem e8_8 (c : Dev nD) : Gen.V11 m ρ c (Pipeline.arrRef spec8 8)
    = truncf .bf16 (m ((c : Thread nD τ).loc main_arg10) : FVec F S128x256 .f32) Gen.bitsLt_bf16_f32 :=
  calc Gen.V11 m ρ c (Pipeline.arrRef spec8 8)
    _ = truncf .bf16 (Gen.W10 m ρ c (Proc.devRef .tc main_arg10) : FVec F S128x256 .f32) Gen.bitsLt_bf16_f32 := W11_v24B m ρ c
    _ = _ := by rw [W10_arg10B m ρ c]
/-- The scorer's first bias as one row. -/
theorem e8_9 (c : Dev nD) : Gen.V11 m ρ c (Pipeline.arrRef spec8 9)
    = shapeCast S1x256 (m ((c : Thread nD τ).loc main_arg11) : FVec F S256 .f32) Gen.shapeCasts_S256_S1x256 :=
  calc Gen.V11 m ρ c (Pipeline.arrRef spec8 9)
    _ = shapeCast S1x256 (Gen.W10 m ρ c (Proc.devRef .tc main_arg11) : FVec F S256 .f32) Gen.shapeCasts_S256_S1x256 := W11_v25B m ρ c
    _ = _ := by rw [W10_arg11B m ρ c]
/-- The scorer's second weights in the narrow format. -/
theorem e8_10 (c : Dev nD) : Gen.V11 m ρ c (Pipeline.arrRef spec8 10)
    = truncf .bf16 (m ((c : Thread nD τ).loc main_arg12) : FVec F S256x256 .f32) Gen.bitsLt_bf16_f32 :=
  calc Gen.V11 m ρ c (Pipeline.arrRef spec8 10)
    _ = truncf .bf16 (Gen.W10 m ρ c (Proc.devRef .tc main_arg12) : FVec F S256x256 .f32) Gen.bitsLt_bf16_f32 := W11_v26B m ρ c
    _ = _ := by rw [W10_arg12B m ρ c]
/-- The scorer's second bias as one row. -/
theorem e8_11 (c : Dev nD) : Gen.V11 m ρ c (Pipeline.arrRef spec8 11)
    = shapeCast S1x256 (m ((c : Thread nD τ).loc main_arg13) : FVec F S256 .f32) Gen.shapeCasts_S256_S1x256 :=
  calc Gen.V11 m ρ c (Pipeline.arrRef spec8 11)
    _ = shapeCast S1x256 (Gen.W10 m ρ c (Proc.devRef .tc main_arg13) : FVec F S256 .f32) Gen.shapeCasts_S256_S1x256 := W11_v27B m ρ c
    _ = _ := by rw [W10_arg13B m ρ c]
/-- The scorer's third weights in the narrow format. -/
theorem e8_12 (c : Dev nD) : Gen.V11 m ρ c (Pipeline.arrRef spec8 12)
    = truncf .bf16 (m ((c : Thread nD τ).loc main_arg14) : FVec F S256x1 .f32) Gen.bitsLt_bf16_f32 :=
  calc Gen.V11 m ρ c (Pipeline.arrRef spec8 12)
    _ = truncf .bf16 (Gen.W10 m ρ c (Proc.devRef .tc main_arg14) : FVec F S256x1 .f32) Gen.bitsLt_bf16_f32 := W11_v28B m ρ c
    _ = _ := by rw [W10_arg14B m ρ c]
/-- The scorer's third bias as one row of one entry. -/
theorem e8_13 (c : Dev nD) : Gen.V11 m ρ c (Pipeline.arrRef spec8 13)
    = shapeCast S1x1 (m ((c : Thread nD τ).loc main_arg15) : FVec F S1 .f32) Gen.shapeCasts_S1_S1x1 :=
  calc Gen.V11 m ρ c (Pipeline.arrRef spec8 13)
    _ = shapeCast S1x1 (Gen.W10 m ρ c (Proc.devRef .tc main_arg15) : FVec F S1 .f32) Gen.shapeCasts_S1_S1x1 := W11_v29B m ρ c
    _ = _ := by rw [W10_arg15B m ρ c]

/-! ## The result -/

/-- The result array at the end of the run: region 8's output with its write-backs folded. -/
theorem out8 (c : Dev nD) : Gen.W12 m ρ c (Proc.devRef .tc main_v30) = (Gen.dat8 (Gen.V11 m ρ) c).arrAt 14 cfg8.N :=
  Gen.W12_arr m ρ c 14

end Cert.KernelIdeal.Hand

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibGcnRows.lean ====
/-
  A graph-convolution layer on a block of rows, at the extended reals.

  One layer sends a feature matrix Y [K,N] to  relu(A·Y + b)  — A an [M,K] matrix, the bias b one row [1,N] added to
  every row — and may then divide every row by its Euclidean length, floored at a small positive constant:
      l2n H (r,q) = H(r,q) / max( sqrt( Σ_k H(r,k)² ), ε ).
  Row r of every stage depends on row r of the stage before alone (and on all of Y, b). So a tiled program that
  holds a block of rows of A — row a of the block being row `row a` of A — and computes the stages on the block, in
  its own spelling (the product accumulated into a zero block, the bias row passed through an identity cast and
  repeated down the block, the rectifier's zero a splat scalar, the row sum a lane reduction cast to a column and
  repeated along the row) gets that block of rows of the host's whole-array stage (a plain product of whole
  matrices, broadcasts of constants, a reduce over the second axis broadcast to a column). Each lemma's hypothesis
  has the form of its conclusion, so the stages chain. Only 0 + x = x and the definitions of the operations are
  used: everything holds at the infinities too.
-/
import proofs.«102964_g18485539242350_cont_8to1_1494_7_alg».proof.Proof.LibRowBlockDot
import proofs.«102964_g18485539242350_cont_8to1_1494_7_alg».proof.Proof.LibBiasRows
import proofs.«102964_g18485539242350_cont_8to1_1494_7_alg».proof.Proof.LibKeepdims
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibGcnRows

open Idealize.ShloMosaic Idealize.ShloMosaic.ValueIdx

variable {M m K N : Nat}

/-! ## The host's whole-array stages -/

/-- Rows plus a bias row, rectified: max (P + B broadcast down the rows) 0. -/
def biasRelu (P : FVec Ideal ⟨2, ![M, N]⟩ .f32) (B : FVec Ideal ⟨2, ![1, N]⟩ .f32)
    (hrow : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2)) : FVec Ideal ⟨2, ![M, N]⟩ .f32 :=
  maximumf (addf P (broadcastInDim ⟨2, ![M, N]⟩ ![0, 1] hrow B))
    (broadcastInDim ⟨2, ![M, N]⟩ ![] hz (constant (F := Ideal) ⟨0, ![]⟩ .f32 0x00000000#32))

/-- The Euclidean length of every row, as a column: sqrt of the row sums of squares. -/
def rowNorm (H : FVec Ideal ⟨2, ![M, N]⟩ .f32)
    (hred : (⟨2, ![M, N]⟩ : Shape).ReducesTo [(1 : Fin 2)] ⟨1, ![M]⟩) (hu : 0 < (⟨0, ![]⟩ : Shape).numel)
    (hcol : (⟨1, ![M]⟩ : Shape).BroadcastsInDim ⟨2, ![M, 1]⟩ (![0] : Fin 1 → Fin 2)) : FVec Ideal ⟨2, ![M, 1]⟩ .f32 :=
  Host.sqrt (broadcastInDim ⟨2, ![M, 1]⟩ ![0] hcol
    (Host.reduceAdd (mulf H H) (constant (F := Ideal) ⟨0, ![]⟩ .f32 0x00000000#32) hred hu))

/-- Every row divided by its length floored at the constant with the word `eps`. -/
def l2n (eps : BitVec 32) (H : FVec Ideal ⟨2, ![M, N]⟩ .f32)
    (hred : (⟨2, ![M, N]⟩ : Shape).ReducesTo [(1 : Fin 2)] ⟨1, ![M]⟩) (hu : 0 < (⟨0, ![]⟩ : Shape).numel)
    (hcol : (⟨1, ![M]⟩ : Shape).BroadcastsInDim ⟨2, ![M, 1]⟩ (![0] : Fin 1 → Fin 2))
    (hz1 : (⟨0, ![]⟩ : Shape).BroadcastsInDim ⟨2, ![M, 1]⟩ (![] : Fin 0 → Fin 2))
    (hcb : (⟨2, ![M, 1]⟩ : Shape).BroadcastsInDim ⟨2, ![M, N]⟩ (![0, 1] : Fin 2 → Fin 2)) : FVec Ideal ⟨2, ![M, N]⟩ .f32 :=
  Host.divf H (broadcastInDim ⟨2, ![M, N]⟩ ![0, 1] hcb
    (maximumf (rowNorm H hred hu hcol)
      (broadcastInDim ⟨2, ![M, 1]⟩ ![] hz1 (constant (F := Ideal) ⟨0, ![]⟩ .f32 eps))))

/-- Rows plus a bias row: P + B broadcast down the rows. -/
def biasAdd (P : FVec Ideal ⟨2, ![M, N]⟩ .f32) (B : FVec Ideal ⟨2, ![1, N]⟩ .f32)
    (hrow : (⟨2, ![1, N]⟩ : Shape).BroadcastsInDim ⟨2, ![M, N]⟩ (![0, 1] : Fin 2 → Fin 2)) : FVec Ideal ⟨2, ![M, N]⟩ .f32 :=
  addf P (broadcastInDim ⟨2, ![M, N]⟩ ![0, 1] hrow B)

/-- A three-layer scorer on whole arrays: two rectified dense layers and a last dense layer, each X·W plus a bias row. -/
def mlp {K1 N1 N2 N3 : Nat}
    (D1 : DotDims ⟨2, ![M, K1]⟩ ⟨2, ![K1, N1]⟩ ⟨2, ![M, N1]⟩) (D2 : DotDims ⟨2, ![M, N1]⟩ ⟨2, ![N1, N2]⟩ ⟨2, ![M, N2]⟩)
    (D3 : DotDims ⟨2, ![M, N2]⟩ ⟨2, ![N2, N3]⟩ ⟨2, ![M, N3]⟩)
    (X : FVec Ideal ⟨2, ![M, K1]⟩ .f32) (W1 : FVec Ideal ⟨2, ![K1, N1]⟩ .f32) (B1 : FVec Ideal ⟨2, ![1, N1]⟩ .f32)
    (W2 : FVec Ideal ⟨2, ![N1, N2]⟩ .f32) (B2 : FVec Ideal ⟨2, ![1, N2]⟩ .f32)
    (W3 : FVec Ideal ⟨2, ![N2, N3]⟩ .f32) (B3 : FVec Ideal ⟨2, ![1, N3]⟩ .f32)
    (hrow1 : (⟨2, ![1, N1]⟩ : Shape).BroadcastsInDim ⟨2, ![M, N1]⟩ (![0, 1] : Fin 2 → Fin 2))
    (hz1 : (⟨0, ![]⟩ : Shape).BroadcastsInDim ⟨2, ![M, N1]⟩ (![] : Fin 0 → Fin 2))
    (hrow2 : (⟨2, ![1, N2]⟩ : Shape).BroadcastsInDim ⟨2, ![M, N2]⟩ (![0, 1] : Fin 2 → Fin 2))
    (hz2 : (⟨0, ![]⟩ : Shape).BroadcastsInDim ⟨2, ![M, N2]⟩ (![] : Fin 0 → Fin 2))
    (hrow3 : (⟨2, ![1, N3]⟩ : Shape).BroadcastsInDim ⟨2, ![M, N3]⟩ (![0, 1] : Fin 2 → Fin 2)) : FVec Ideal ⟨2, ![M, N3]⟩ .f32 :=
  biasAdd (Host.dotGeneral D3 none
    (biasRelu (Host.dotGeneral D2 none (biasRelu (Host.dotGeneral D1 none X W1) B1 hrow1 hz1) W2) B2 hrow2 hz2) W3) B3 hrow3

/-! ## The host's stages read at an index -/

/-- The host's quotient at an index is the quotient of the entries. -/
theorem hostDivf_apply {s : Shape} (a b : FVec Ideal s .f32) (i : s.Idx) : Host.divf a b i = Ideal.div (a i) (b i) := rfl
/-- The host's square root at an index is the square root of the entry. -/
theorem hostSqrt_apply {s : Shape} (a : FVec Ideal s .f32) (i : s.Idx) : Host.sqrt a i = Ideal.sqrt (a i) := rfl
/-- A kernel's square root at an index is the square root of the entry. -/
theorem sqrt_apply {s : Shape} (a : FVec Ideal s .f32) (i : s.Idx) : sqrt a i = Ideal.sqrt (a i) := rfl

/-- A scalar constant splat to any shape reads the constant's value everywhere. -/
theorem splat_apply {s : Shape} (w : BitVec 32) (h : (⟨0, ![]⟩ : Shape).BroadcastsInDim s (![] : Fin 0 → Fin s.rank)) (i : s.Idx) :
    broadcastInDim s ![] h (constant (F := Ideal) ⟨0, ![]⟩ .f32 w) i = Ideal.ofBits .f32 w := by
  rw [broadcastInDim_apply (![] : Fin 0 → Fin s.rank) h _ i ix0 (fun a => a.elim0)]
  rfl

/-- A vector [M] made a column [M,1] reads, at (r, u), the vector at r. -/
theorem col_apply {α : Type} (v : (⟨1, ![M]⟩ : Shape).Idx → α)
    (h : (⟨1, ![M]⟩ : Shape).BroadcastsInDim ⟨2, ![M, 1]⟩ (![0] : Fin 1 → Fin 2)) (r : Fin M) (u : Fin 1) :
    broadcastInDim ⟨2, ![M, 1]⟩ ![0] h v (ix2 r u) = v (ix1 r) :=
  broadcastInDim_apply _ h v (ix2 r u) (ix1 r) (fun a => match a with
    | ⟨0, _⟩ => by
      show r.val = if M = 1 then 0 else r.val
      split
      · have := r.isLt; omega
      · rfl)

/-- A column [M,1] repeated along N columns reads, at (r, q), the column at r. -/
theorem colBcast_apply {α : Type} (Y : (⟨2, ![M, 1]⟩ : Shape).Idx → α)
    (h : (⟨2, ![M, 1]⟩ : Shape).BroadcastsInDim ⟨2, ![M, N]⟩ (![0, 1] : Fin 2 → Fin 2)) (r : Fin M) (q : Fin N) :
    broadcastInDim ⟨2, ![M, N]⟩ ![0, 1] h Y (ix2 r q) = Y (ix2 r (0 : Fin 1)) :=
  broadcastInDim_apply _ h Y (ix2 r q) (ix2 r (0 : Fin 1)) (fun a => match a with
    | ⟨0, _⟩ => by
      show r.val = if M = 1 then 0 else r.val
      split
      · have := r.isLt; omega
      · rfl
    | ⟨1, _⟩ => by show 0 = if (1 : Nat) = 1 then 0 else q.val; rw [if_pos rfl])

/-- The host's sum over the second axis from a zero initial value, at row r: the sum over the row. -/
theorem rowSum_apply (X : FVec Ideal ⟨2, ![M, N]⟩ .f32)
    (hred : (⟨2, ![M, N]⟩ : Shape).ReducesTo [(1 : Fin 2)] ⟨1, ![M]⟩) (hu : 0 < (⟨0, ![]⟩ : Shape).numel)
    (hr : (⟨2, ![M, N]⟩ : Shape).Reduces [(1 : Fin 2)] ⟨1, ![M]⟩) (r : Fin M) :
    Host.reduceAdd X (constant (F := Ideal) ⟨0, ![]⟩ .f32 0x00000000#32) hred hu (ix1 r) = ∑ k : Fin N, X (ix2 r k) := by
  simp only [Host.reduceAdd, Ideal.hostReduceAdd_def]
  rw [Ideal.hostReduceAdd_single hred hr, constant_apply, Ideal.ofBits_zero_f32, zero_add]
  exact Finset.sum_congr rfl fun k _ => congrArg X (lift_row hr r k)

/-- `biasRelu` at (r, q). -/
theorem biasRelu_apply (P : FVec Ideal ⟨2, ![M, N]⟩ .f32) (B : FVec Ideal ⟨2, ![1, N]⟩ .f32)
    (hrow : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2)) (r : Fin M) (q : Fin N) :
    biasRelu P B hrow hz (ix2 r q) = max (P (ix2 r q) + B (ix2 (0 : Fin 1) q)) (Ideal.ofBits .f32 0x00000000#32) := by
  unfold biasRelu
  rw [maximumf_apply, addf_apply, LibBiasRows.rowBcast_apply, splat_apply]

/-- `l2n` at (r, q). -/
theorem l2n_apply (eps : BitVec 32) (H : FVec Ideal ⟨2, ![M, N]⟩ .f32)
    (hred : (⟨2, ![M, N]⟩ : Shape).ReducesTo [(1 : Fin 2)] ⟨1, ![M]⟩) (hu : 0 < (⟨0, ![]⟩ : Shape).numel)
    (hcol : (⟨1, ![M]⟩ : Shape).BroadcastsInDim ⟨2, ![M, 1]⟩ (![0] : Fin 1 → Fin 2))
    (hz1 : (⟨0, ![]⟩ : Shape).BroadcastsInDim ⟨2, ![M, 1]⟩ (![] : Fin 0 → Fin 2))
    (hcb : (⟨2, ![M, 1]⟩ : Shape).BroadcastsInDim ⟨2, ![M, N]⟩ (![0, 1] : Fin 2 → Fin 2))
    (hr : (⟨2, ![M, N]⟩ : Shape).Reduces [(1 : Fin 2)] ⟨1, ![M]⟩) (r : Fin M) (q : Fin N) :
    l2n eps H hred hu hcol hz1 hcb (ix2 r q)
      = Ideal.div (H (ix2 r q)) (max (Ideal.sqrt (∑ k : Fin N, H (ix2 r k) * H (ix2 r k))) (Ideal.ofBits .f32 eps)) := by
  unfold l2n rowNorm
  rw [hostDivf_apply, colBcast_apply, maximumf_apply, splat_apply, hostSqrt_apply, col_apply, rowSum_apply _ hred hu hr]
  rfl

/-! ## A block of rows -/

/-- The product of a block of rows with the whole feature matrix, into a zero block: rows `row a` of the host's
    product, whatever names the two dimension records were printed under as long as they are the plain ones. -/
theorem dot_rows {φ₁ φ₂ ψ₁ ψ₂ : FTy} (row : Fin m → Fin M)
    (Dk : DotDims ⟨2, ![m, K]⟩ ⟨2, ![K, N]⟩ ⟨2, ![m, N]⟩) (hDk : Dk = DotDims.plain m K N)
    (Dh : DotDims ⟨2, ![M, K]⟩ ⟨2, ![K, N]⟩ ⟨2, ![M, N]⟩) (hDh : Dh = DotDims.plain M K N)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂)
    (hA : ∀ a c, A (ix2 a c) = X (ix2 (row a) c)) (hB : ∀ c b, B (ix2 c b) = W (ix2 c b)) (a : Fin m) (q : Fin N) :
    matmul Dk none A B (constant (F := Ideal) ⟨2, ![m, N]⟩ .f32 0x00000000#32) (ix2 a q)
      = Host.dotGeneral Dh none X W (ix2 (row a) q) := by
  subst hDk hDh
  exact LibRowBlockDot.matmul_rowBlock_apply none none X W A B row hA hB a q

/-- Bias and rectifier on a block of rows: the bias row through an identity cast and repeated down the block, the
    zero a splat scalar. -/
theorem biasRelu_rows (row : Fin m → Fin M) (P : FVec Ideal ⟨2, ![M, N]⟩ .f32) (Bw : FVec Ideal ⟨2, ![1, N]⟩ .f32)
    (p : FVec Ideal ⟨2, ![m, N]⟩ .f32) (b : FVec Ideal ⟨2, ![1, N]⟩ .f32)
    (hp : ∀ a q, p (ix2 a q) = P (ix2 (row a) q)) (hb : ∀ q, b (ix2 (0 : Fin 1) q) = Bw (ix2 (0 : Fin 1) q))
    (hs' : (⟨2, ![1, N]⟩ : Shape).ShapeCasts ⟨2, ![1, N]⟩) (hbc : (⟨2, ![1, N]⟩ : Shape).Broadcasts ⟨2, ![m, N]⟩)
    (hrow : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2)) (a : Fin m) (q : Fin N) :
    maximumf (addf p (broadcastTo ⟨2, ![m, N]⟩ (shapeCast ⟨2, ![1, N]⟩ b hs') hbc))
        (broadcast ⟨2, ![m, N]⟩ (Scalar.ofBits (F := Ideal) .f32 0x00000000#32)) (ix2 a q)
      = biasRelu P Bw hrow hz (ix2 (row a) q) := by
  rw [biasRelu_apply, maximumf_apply, addf_apply, broadcast_apply, broadcastTo_1b_ab_apply, shapeCast_self, hp, hb]
  rfl

/-- A bias on a block of rows: the bias row through an identity cast and repeated down the block. -/
theorem biasAdd_rows (row : Fin m → Fin M) (P : FVec Ideal ⟨2, ![M, N]⟩ .f32) (Bw : FVec Ideal ⟨2, ![1, N]⟩ .f32)
    (p : FVec Ideal ⟨2, ![m, N]⟩ .f32) (b : FVec Ideal ⟨2, ![1, N]⟩ .f32)
    (hp : ∀ a q, p (ix2 a q) = P (ix2 (row a) q)) (hb : ∀ q, b (ix2 (0 : Fin 1) q) = Bw (ix2 (0 : Fin 1) q))
    (hs' : (⟨2, ![1, N]⟩ : Shape).ShapeCasts ⟨2, ![1, N]⟩) (hbc : (⟨2, ![1, N]⟩ : Shape).Broadcasts ⟨2, ![m, N]⟩)
    (hrow : (⟨2, ![1, N]⟩ : Shape).BroadcastsInDim ⟨2, ![M, N]⟩ (![0, 1] : Fin 2 → Fin 2)) (a : Fin m) (q : Fin N) :
    addf p (broadcastTo ⟨2, ![m, N]⟩ (shapeCast ⟨2, ![1, N]⟩ b hs') hbc) (ix2 a q) = biasAdd P Bw hrow (ix2 (row a) q) := by
  unfold biasAdd
  rw [addf_apply, addf_apply, LibBiasRows.rowBcast_apply, broadcastTo_1b_ab_apply, shapeCast_self, hp, hb]

/-- The row normalisation on a block of rows: the lane sum of squares cast to a column, its square root floored at
    a splat constant, the column repeated along the row, the quotient. -/
theorem l2n_rows (eps : BitVec 32) (row : Fin m → Fin M) (H : FVec Ideal ⟨2, ![M, N]⟩ .f32) (h : FVec Ideal ⟨2, ![m, N]⟩ .f32)
    (hh : ∀ a q, h (ix2 a q) = H (ix2 (row a) q))
    (hredk : (⟨2, ![m, N]⟩ : Shape).Reduces [(1 : Fin 2)] ⟨1, ![m]⟩) (hφ : FKind.Formats .f32)
    (hacc : (0x00000000#32 : BitVec 32) = FKind.add.neutral .f32 hφ)
    (hsc : (⟨1, ![m]⟩ : Shape).ShapeCasts ⟨2, ![m, 1]⟩) (hbk : (⟨2, ![m, 1]⟩ : Shape).Broadcasts ⟨2, ![m, N]⟩)
    (hred : (⟨2, ![M, N]⟩ : Shape).ReducesTo [(1 : Fin 2)] ⟨1, ![M]⟩) (hu : 0 < (⟨0, ![]⟩ : Shape).numel)
    (hcol : (⟨1, ![M]⟩ : Shape).BroadcastsInDim ⟨2, ![M, 1]⟩ (![0] : Fin 1 → Fin 2))
    (hz1 : (⟨0, ![]⟩ : Shape).BroadcastsInDim ⟨2, ![M, 1]⟩ (![] : Fin 0 → Fin 2))
    (hcb : (⟨2, ![M, 1]⟩ : Shape).BroadcastsInDim ⟨2, ![M, N]⟩ (![0, 1] : Fin 2 → Fin 2))
    (hr : (⟨2, ![M, N]⟩ : Shape).Reduces [(1 : Fin 2)] ⟨1, ![M]⟩) (a : Fin m) (q : Fin N) :
    divf h (broadcastTo ⟨2, ![m, N]⟩
        (maximumf (sqrt (shapeCast ⟨2, ![m, 1]⟩ (multiReduction .add [(1 : Fin 2)] ⟨1, ![m]⟩ (mulf h h) 0x00000000#32 hredk hφ hacc) hsc))
          (broadcast ⟨2, ![m, 1]⟩ (Scalar.ofBits (F := Ideal) .f32 eps))) hbk) (ix2 a q)
      = l2n eps H hred hu hcol hz1 hcb (ix2 (row a) q) := by
  rw [l2n_apply eps H hred hu hcol hz1 hcb hr, divf_apply, broadcastTo_a1_ab_apply, maximumf_apply, broadcast_apply,
    sqrt_apply, shapeCast_a_a1_apply, multiReduction_add_row, hh]
  refine congrArg (fun s => Ideal.div _ (max (Ideal.sqrt s) _)) (Finset.sum_congr rfl fun k _ => ?_)
  rw [mulf_apply, hh]

end Cert.LibGcnRows

end
-- ==== Proof.R0.lean ====
/-
  Region 0: the first layer of the first branch, on the whole arrays.

  The region walks the adjacency in blocks of 200 rows (50 points). At a point it holds one block of rows of the
  adjacency, the whole feature array, the bias row and the next layer's weights, and writes back three blocks of rows:
  the normalised rectified layer, a copy of the adjacency block in the narrower format, and the layer times the next
  weights. Every stage treats rows independently, so the block of point `t` is rows `200·t … 200·t + 199` of the
  host's whole-array value of the arrays the region finds; the blocks of the 50 points cover the 10000 rows, so each
  output array ends at that whole-array value. On the extended reals a change of float format is the identity, so
  the stored copy is the adjacency itself.
-/
import proofs.«102964_g18485539242350_cont_8to1_1494_7_alg».proof.Proof.Gen.KernelIdeal.Frame
import proofs.«102964_g18485539242350_cont_8to1_1494_7_alg».proof.Proof.LibGcnRows

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.LibGcnRows

variable (V : (c : Dev nD) → (b : Ref sig .tc) → Buf (Elt Ideal) ((c : Thread nD τ).loc b))

/-! ## Where the blocks sit -/

theorem hz0 : (![0, 0] : Fin 2 → Nat) = fun _ => 0 := funext fun a => by fin_cases a <;> rfl

/-- The printed index maps over the grid: the row-tiled windows (the adjacency, the two feature outputs and the
    stored copy) are at block (t, 0) at point t, the whole-array windows (features, bias row, next weights) at (0, 0). -/
theorem idxFacts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem tlt0 (t : Fin cfg0.N) : t.val < 50 := lt_of_lt_of_eq t.isLt N_0

/-- Row `a` of the block of point `t` is row `200·t + a` of the array. -/
def row0 (t : Fin cfg0.N) (a : Fin 200) : Fin 10000 :=
  ⟨200 * t.val + a.val, by have := tlt0 t; have := a.isLt; omega⟩

/-- The adjacency's block at point `t`: rows `200·t … 200·t + 199` of the array the region finds. -/
theorem blk0_0 (c : Dev nD) (A : FVec Ideal ⟨2, ![10000, 10000]⟩ .f32)
    (hA : ∀ i, V c (Pipeline.arrRef spec0 0) i = A i) (t : Fin cfg0.N) (a : Fin 200) (k : Fin 10000) :
    (iblk0 V c 0 t : Vec Ideal S200x10000 .f32) (ix2 a k) = A (ix2 (row0 t a) k) := by
  obtain ⟨e0, e1, -⟩ := idxFacts0 t
  unfold iblk0
  rw [View.read_apply]
  show V c (Pipeline.arrRef spec0 0) (((cfg0.win 0).blk t).view.emb (ix2 a k)) = _
  rw [hA]
  refine congrArg A ?_
  funext d; apply Fin.ext
  match d with
  | ⟨0, _⟩ => show win0_0.index t (0 : Fin 2) * 200 + 1 * a.val = 200 * t.val + a.val; rw [e0]; omega
  | ⟨1, _⟩ => show win0_0.index t (1 : Fin 2) * 10000 + 1 * k.val = k.val; rw [e1]; omega

/-- The feature window's block is the whole feature array at every point. -/
theorem blk0_1 (c : Dev nD) (Y : FVec Ideal ⟨2, ![10000, 128]⟩ .f32)
    (hY : ∀ i, V c (Pipeline.arrRef spec0 1) i = Y i) (t : Fin cfg0.N) (k : Fin 10000) (q : Fin 128) :
    (iblk0 V c 1 t : Vec Ideal S10000x128 .bf16) (ix2 k q) = Y (ix2 k q) := by
  obtain ⟨-, -, e0, e1, -⟩ := idxFacts0 t
  unfold iblk0
  rw [View.read_apply]
  show V c (Pipeline.arrRef spec0 1) (((cfg0.win 1).blk t).view.emb (ix2 k q)) = _
  rw [hY]
  refine congrArg Y ?_
  funext d; apply Fin.ext
  match d with
  | ⟨0, _⟩ => show win0_1.index t (0 : Fin 2) * 10000 + 1 * k.val = k.val; rw [e0]; omega
  | ⟨1, _⟩ => show win0_1.index t (1 : Fin 2) * 128 + 1 * q.val = q.val; rw [e1]; omega

/-- The bias window's block is the whole bias row at every point. -/
theorem blk0_2 (c : Dev nD) (B : FVec Ideal ⟨2, ![1, 128]⟩ .f32)
    (hB : ∀ i, V c (Pipeline.arrRef spec0 2) i = B i) (t : Fin cfg0.N) (q : Fin 128) :
    (iblk0 V c 2 t : Vec Ideal S1x128 .f32) (ix2 (0 : Fin 1) q) = B (ix2 (0 : Fin 1) q) := by
  obtain ⟨-, -, -, -, e0, e1, -⟩ := idxFacts0 t
  unfold iblk0
  rw [View.read_apply]
  show V c (Pipeline.arrRef spec0 2) (((cfg0.win 2).blk t).view.emb (ix2 (0 : Fin 1) q)) = _
  rw [hB]
  refine congrArg B ?_
  funext d; apply Fin.ext
  match d with
  | ⟨0, _⟩ => show win0_2.index t (0 : Fin 2) * 1 + 1 * 0 = 0; rw [e0]
  | ⟨1, _⟩ => show win0_2.index t (1 : Fin 2) * 128 + 1 * q.val = q.val; rw [e1]; omega

/-- The next layer's weights: the whole array at every point. -/
theorem blk0_3 (c : Dev nD) (Wn : FVec Ideal ⟨2, ![128, 128]⟩ .f32)
    (hW : ∀ i, V c (Pipeline.arrRef spec0 3) i = Wn i) (t : Fin cfg0.N) (k : Fin 128) (q : Fin 128) :
    (iblk0 V c 3 t : Vec Ideal S128x128 .bf16) (ix2 k q) = Wn (ix2 k q) := by
  obtain ⟨-, -, -, -, -, -, e0, e1, -⟩ := idxFacts0 t
  unfold iblk0
  rw [View.read_apply]
  show V c (Pipeline.arrRef spec0 3) (((cfg0.win 3).blk t).view.emb (ix2 k q)) = _
  rw [hW]
  refine congrArg Wn ?_
  funext d; apply Fin.ext
  match d with
  | ⟨0, _⟩ => show win0_3.index t (0 : Fin 2) * 128 + 1 * k.val = k.val; rw [e0]; omega
  | ⟨1, _⟩ => show win0_3.index t (1 : Fin 2) * 128 + 1 * q.val = q.val; rw [e1]; omega

/-! ## The body's payloads on a block of rows

The body holds a block of rows of the adjacency (row `a` of the block is row `row a` of the array), the whole feature
array, the bias row and the next layer's weights. Its three stored values are, entry by entry: the block of the
adjacency itself (a change of float format is the identity on the extended reals); the same rows of the normalised
rectified layer; and those rows times the next weights. -/

theorem hreduces0 : (⟨2, ![10000, 128]⟩ : Shape).Reduces [(1 : Fin 2)] ⟨1, ![10000]⟩ := by decide

/-- The stored copy of the adjacency block is the adjacency block. -/
theorem pay0_1_rows (row : Fin 200 → Fin 10000) (x0 : Vec Ideal S200x10000 .f32)
    (A : FVec Ideal ⟨2, ![10000, 10000]⟩ .f32) (h0 : ∀ a k, x0 (ix2 a k) = A (ix2 (row a) k)) (a : Fin 200) (k : Fin 10000) :
    k0_pay1 (F := Ideal) x0 (ix2 a k) = A (ix2 (row a) k) := by
  unfold k0_pay1
  show x0 (ix2 a k) = _
  exact h0 a k

/-- The layer on a block of rows: rows `row a` of the host's normalised rectified layer. -/
theorem pay0_2_rows (row : Fin 200 → Fin 10000)
    (x0 : Vec Ideal S200x10000 .f32) (x1 : Vec Ideal S10000x128 .bf16) (x2 : Vec Ideal S1x128 .f32)
    (A : FVec Ideal ⟨2, ![10000, 10000]⟩ .f32) (Y : FVec Ideal ⟨2, ![10000, 128]⟩ .f32) (B : FVec Ideal ⟨2, ![1, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q))
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 200) (q : Fin 128) :
    k0_pay2 (F := Ideal) x0 x1 x2 (ix2 a q) = l2n 0x2B8CBCCC#32 (biasRelu (Host.dotGeneral Dh none A Y) B hrow hz) hred hu hcol hz1 hcb (ix2 (row a) q) := by
  unfold k0_pay2
  dsimp only
  refine l2n_rows 0x2B8CBCCC#32 row (biasRelu (Host.dotGeneral Dh none A Y) B hrow hz) _ (fun a' q' => ?_)
    reduces_S200x128_S200 (.inl rfl) rfl shapeCasts_S200_S200x1 broadcasts_S200x1_S200x128
    hred hu hcol hz1 hcb hreduces0 a q
  refine biasRelu_rows row (Host.dotGeneral Dh none A Y) B _ x2 (fun a'' q'' => ?_) h2
    shapeCasts_S1x128_S1x128 broadcasts_S1x128_S200x128 hrow hz a' q'
  refine dot_rows row dot_S200x10000_S10000x128_S200x128_1_0_0_1_n_n rfl Dh hDh A Y (k0_pay1 x0) _
    (fun r k => pay0_1_rows row x0 A h0 r k) (fun k' b => ?_) a'' q''
  rw [shapeCast_self]
  exact h1 k' b

/-- The projection on a block of rows: rows `row a` of the host's layer times the next weights. -/
theorem pay0_3_rows (row : Fin 200 → Fin 10000)
    (x0 : Vec Ideal S200x10000 .f32) (x1 : Vec Ideal S10000x128 .bf16) (x2 : Vec Ideal S1x128 .f32) (x3 : Vec Ideal S128x128 .bf16)
    (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q)) (h3 : ∀ k q, x3 (ix2 k q) = Wn (ix2 k q))
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 200) (q : Fin 128) :
    k0_pay3 (F := Ideal) x0 x1 x2 x3 (ix2 a q) = Host.dotGeneral Dp none (l2n 0x2B8CBCCC#32 (biasRelu (Host.dotGeneral Dh none A Y) B hrow hz) hred hu hcol hz1 hcb) Wn (ix2 (row a) q) := by
  unfold k0_pay3
  show matmul (F := Ideal) dot_S200x128_S128x128_S200x128_1_0_0_1_n_n none _ _ _ (ix2 a q) = _
  refine dot_rows row dot_S200x128_S128x128_S200x128_1_0_0_1_n_n rfl Dp hDp (l2n 0x2B8CBCCC#32 (biasRelu (Host.dotGeneral Dh none A Y) B hrow hz) hred hu hcol hz1 hcb) Wn _ _
    (fun r k => ?_) (fun k' b => ?_) a q
  · show k0_pay2 (F := Ideal) x0 x1 x2 (ix2 r k) = _
    exact pay0_2_rows row x0 x1 x2 A Y B h0 h1 h2 Dh hDh hrow hz hred hu hcol hz1 hcb r k
  · rw [shapeCast_self]
    exact h3 k' b

/-! ## From blocks to the arrays -/

/-- Point `t` writes back, into the stored copy, block `t` of the adjacency. -/
theorem flushed0_5 (c : Dev nD) (A : FVec Ideal ⟨2, ![10000, 10000]⟩ .f32)
    (hA : ∀ i, V c (Pipeline.arrRef spec0 0) i = A i) (t : Fin cfg0.N) :
    (dat0 (F := Ideal) V c).flushed 5 t = ((cfg0.win 5).blk t).view.read (Elt Ideal) A := by
  show (cfg0.win 5).cut (grid0.coords t) ((dat0 (F := Ideal) V c).after 5 t) = _
  rw [Gen.after0_5]
  unfold Gen.out0_5
  rw [View.canon_unit_zero hz0]
  simp only [View.ld_unit_zero (S := S200x10000) hz0]
  obtain ⟨-, -, -, -, -, -, -, -, -, -, e0, e1, -⟩ := idxFacts0 t
  funext j
  obtain ⟨a, k, rfl⟩ : ∃ (a : Fin 200) (k : Fin 10000), j = ix2 a k := ⟨j 0, j 1, eq_ix2 j⟩
  show k0_pay1 (F := Ideal) (iblk0 V c 0 t) (ix2 a k) = A (((cfg0.win 5).blk t).view.emb (ix2 a k))
  refine (pay0_1_rows (row0 t) (iblk0 V c 0 t) A (fun r k' => blk0_0 V c A hA t r k') a k).trans (congrArg A ?_)
  funext d; apply Fin.ext
  match d with
  | ⟨0, _⟩ => show 200 * t.val + a.val = win0_5.index t (0 : Fin 2) * 200 + 1 * a.val; rw [e0]; omega
  | ⟨1, _⟩ => show k.val = win0_5.index t (1 : Fin 2) * 10000 + 1 * k.val; rw [e1]; omega

/-- An index of the copy is in point `t`'s block iff each coordinate is in the block's range on its axis. -/
theorem mem_blk0_5 (t : Fin cfg0.N) (i : S10000x10000.Idx) :
    i ∈ ((cfg0.win 5).blk t).view.set ↔ ∀ a : Fin 2, win0_5.index t a * S200x10000.size a ≤ (i a).val
      ∧ (i a).val < win0_5.index t a * S200x10000.size a + S200x10000.size a := by
  show i ∈ ((View.whole main_v8_1).slice (win0_5.rect t)).set ↔ _
  rw [View.set_slice_whole, Rect.mem_set_unit]
  exact Iff.rfl

/-- Row `r` of the copy is in the block of point `r / 200`. -/
theorem cover0_5 (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  have hN : (i 0).val / 200 < cfg0.N := by rw [show cfg0.N = 50 from N_0]; omega
  refine ⟨⟨(i 0).val / 200, hN⟩, flush0_5 _, ?_⟩
  obtain ⟨-, -, -, -, -, -, -, -, -, -, e0, e1, -⟩ := idxFacts0 ⟨(i 0).val / 200, hN⟩
  rw [mem_blk0_5]
  intro a
  match a with
  | ⟨0, _⟩ =>
    show win0_5.index ⟨(i 0).val / 200, hN⟩ (0 : Fin 2) * 200 ≤ (i 0).val
      ∧ (i 0).val < win0_5.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_5.index ⟨(i 0).val / 200, hN⟩ (1 : Fin 2) * 10000 ≤ (i 1).val
      ∧ (i 1).val < win0_5.index ⟨(i 0).val / 200, hN⟩ (1 : Fin 2) * 10000 + 10000
    rw [e1]; omega

/-- THE STORED COPY after the region is the adjacency, entry by entry. -/
theorem final0_5 (c : Dev nD) (A : FVec Ideal ⟨2, ![10000, 10000]⟩ .f32)
    (hA : ∀ i, V c (Pipeline.arrRef spec0 0) i = A i) :
    ∀ i, (dat0 (F := Ideal) V c).arrAt 5 cfg0.N i = A i :=
  fun i => congrFun ((dat0 (F := Ideal) V c).arrAt_eq_of_cover 5 A (fun t _ => flushed0_5 V c A hA t) cover0_5) i

/-- Point `t` writes back, into the layer's features, block `t` of the host's whole-array value. -/
theorem flushed0_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec0 0) i = A i) (hY : ∀ i, V c (Pipeline.arrRef spec0 1) i = Y i)
    (hB : ∀ i, V c (Pipeline.arrRef spec0 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) (t : Fin cfg0.N) :
    (dat0 (F := Ideal) V c).flushed 4 t = ((cfg0.win 4).blk t).view.read (Elt Ideal) (l2n 0x2B8CBCCC#32 (biasRelu (Host.dotGeneral Dh none A Y) B hrow hz) hred hu hcol hz1 hcb) := by
  show (cfg0.win 4).cut (grid0.coords t) ((dat0 (F := Ideal) V c).after 4 t) = _
  rw [Gen.after0_4]
  unfold Gen.out0_4
  rw [View.canon_unit_zero hz0]
  simp only [View.ld_unit_zero (S := S200x10000) hz0, View.ld_unit_zero (S := S10000x128) hz0, View.ld_unit_zero (S := S1x128) hz0]
  obtain ⟨-, -, -, -, -, -, -, -, e0, e1, -⟩ := idxFacts0 t
  funext j
  obtain ⟨a, q, rfl⟩ : ∃ (a : Fin 200) (q : Fin 128), j = ix2 a q := ⟨j 0, j 1, eq_ix2 j⟩
  show k0_pay2 (F := Ideal) (iblk0 V c 0 t) (iblk0 V c 1 t) (iblk0 V c 2 t) (ix2 a q)
    = (l2n 0x2B8CBCCC#32 (biasRelu (Host.dotGeneral Dh none A Y) B hrow hz) hred hu hcol hz1 hcb) (((cfg0.win 4).blk t).view.emb (ix2 a q))
  refine (pay0_2_rows (row0 t) (iblk0 V c 0 t) (iblk0 V c 1 t) (iblk0 V c 2 t) A Y B
      (fun r k' => blk0_0 V c A hA t r k') (fun k' q' => blk0_1 V c Y hY t k' q') (fun q' => blk0_2 V c B hB t q')
      Dh hDh hrow hz hred hu hcol hz1 hcb a q).trans (congrArg (l2n 0x2B8CBCCC#32 (biasRelu (Host.dotGeneral Dh none A Y) B hrow hz) hred hu hcol hz1 hcb) ?_)
  funext d; apply Fin.ext
  match d with
  | ⟨0, _⟩ => show 200 * t.val + a.val = win0_4.index t (0 : Fin 2) * 200 + 1 * a.val; rw [e0]; omega
  | ⟨1, _⟩ => show q.val = win0_4.index t (1 : Fin 2) * 128 + 1 * q.val; rw [e1]; omega

/-- An index of the array is in point `t`'s block iff each coordinate is in the block's range on its axis. -/
theorem mem_blk0_4 (t : Fin cfg0.N) (i : S10000x128.Idx) :
    i ∈ ((cfg0.win 4).blk t).view.set ↔ ∀ a : Fin 2, win0_4.index t a * S200x128.size a ≤ (i a).val
      ∧ (i a).val < win0_4.index t a * S200x128.size a + S200x128.size a := by
  show i ∈ ((View.whole main_v8_0).slice (win0_4.rect t)).set ↔ _
  rw [View.set_slice_whole, Rect.mem_set_unit]
  exact Iff.rfl

/-- Row `r` of the array is in the block of point `r / 200`. -/
theorem cover0_4 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : (i 0).val / 200 < cfg0.N := by rw [show cfg0.N = 50 from N_0]; omega
  refine ⟨⟨(i 0).val / 200, hN⟩, flush0_4 _, ?_⟩
  obtain ⟨-, -, -, -, -, -, -, -, e0, e1, -⟩ := idxFacts0 ⟨(i 0).val / 200, hN⟩
  rw [mem_blk0_4]
  intro a
  match a with
  | ⟨0, _⟩ =>
    show win0_4.index ⟨(i 0).val / 200, hN⟩ (0 : Fin 2) * 200 ≤ (i 0).val
      ∧ (i 0).val < win0_4.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_4.index ⟨(i 0).val / 200, hN⟩ (1 : Fin 2) * 128 ≤ (i 1).val
      ∧ (i 1).val < win0_4.index ⟨(i 0).val / 200, hN⟩ (1 : Fin 2) * 128 + 128
    rw [e1]; omega

/-- THE LAYER'S FEATURES after the region: the host's normalised rectified layer of the arrays the region finds. -/
theorem final0_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec0 0) i = A i) (hY : ∀ i, V c (Pipeline.arrRef spec0 1) i = Y i)
    (hB : ∀ i, V c (Pipeline.arrRef spec0 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (dat0 (F := Ideal) V c).arrAt 4 cfg0.N i = l2n 0x2B8CBCCC#32 (biasRelu (Host.dotGeneral Dh none A Y) B hrow hz) hred hu hcol hz1 hcb i :=
  fun i => congrFun ((dat0 (F := Ideal) V c).arrAt_eq_of_cover 4 (l2n 0x2B8CBCCC#32 (biasRelu (Host.dotGeneral Dh none A Y) B hrow hz) hred hu hcol hz1 hcb)
    (fun t _ => flushed0_4 V c A Y B hA hY hB Dh hDh hrow hz hred hu hcol hz1 hcb t) cover0_4) i

/-- Point `t` writes back, into the projected features, block `t` of the host's whole-array value. -/
theorem flushed0_6 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec0 0) i = A i) (hY : ∀ i, V c (Pipeline.arrRef spec0 1) i = Y i)
    (hB : ∀ i, V c (Pipeline.arrRef spec0 2) i = B i)
    (hW : ∀ i, V c (Pipeline.arrRef spec0 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) (t : Fin cfg0.N) :
    (dat0 (F := Ideal) V c).flushed 6 t = ((cfg0.win 6).blk t).view.read (Elt Ideal) (Host.dotGeneral Dp none (l2n 0x2B8CBCCC#32 (biasRelu (Host.dotGeneral Dh none A Y) B hrow hz) hred hu hcol hz1 hcb) Wn) := by
  show (cfg0.win 6).cut (grid0.coords t) ((dat0 (F := Ideal) V c).after 6 t) = _
  rw [Gen.after0_6]
  unfold Gen.out0_6
  rw [View.canon_unit_zero hz0]
  simp only [View.ld_unit_zero (S := S200x10000) hz0, View.ld_unit_zero (S := S10000x128) hz0, View.ld_unit_zero (S := S1x128) hz0, View.ld_unit_zero (S := S128x128) hz0]
  obtain ⟨-, -, -, -, -, -, -, -, -, -, -, -, e0, e1⟩ := idxFacts0 t
  funext j
  obtain ⟨a, q, rfl⟩ : ∃ (a : Fin 200) (q : Fin 128), j = ix2 a q := ⟨j 0, j 1, eq_ix2 j⟩
  show k0_pay3 (F := Ideal) (iblk0 V c 0 t) (iblk0 V c 1 t) (iblk0 V c 2 t) (iblk0 V c 3 t) (ix2 a q)
    = (Host.dotGeneral Dp none (l2n 0x2B8CBCCC#32 (biasRelu (Host.dotGeneral Dh none A Y) B hrow hz) hred hu hcol hz1 hcb) Wn) (((cfg0.win 6).blk t).view.emb (ix2 a q))
  refine (pay0_3_rows (row0 t) (iblk0 V c 0 t) (iblk0 V c 1 t) (iblk0 V c 2 t) (iblk0 V c 3 t) A Y B Wn
      (fun r k' => blk0_0 V c A hA t r k') (fun k' q' => blk0_1 V c Y hY t k' q') (fun q' => blk0_2 V c B hB t q')
      (fun k' q' => blk0_3 V c Wn hW t k' q') Dh hDh Dp hDp hrow hz hred hu hcol hz1 hcb a q).trans (congrArg (Host.dotGeneral Dp none (l2n 0x2B8CBCCC#32 (biasRelu (Host.dotGeneral Dh none A Y) B hrow hz) hred hu hcol hz1 hcb) Wn) ?_)
  funext d; apply Fin.ext
  match d with
  | ⟨0, _⟩ => show 200 * t.val + a.val = win0_6.index t (0 : Fin 2) * 200 + 1 * a.val; rw [e0]; omega
  | ⟨1, _⟩ => show q.val = win0_6.index t (1 : Fin 2) * 128 + 1 * q.val; rw [e1]; omega

/-- An index of the array is in point `t`'s block iff each coordinate is in the block's range on its axis. -/
theorem mem_blk0_6 (t : Fin cfg0.N) (i : S10000x128.Idx) :
    i ∈ ((cfg0.win 6).blk t).view.set ↔ ∀ a : Fin 2, win0_6.index t a * S200x128.size a ≤ (i a).val
      ∧ (i a).val < win0_6.index t a * S200x128.size a + S200x128.size a := by
  show i ∈ ((View.whole main_v8_2).slice (win0_6.rect t)).set ↔ _
  rw [View.set_slice_whole, Rect.mem_set_unit]
  exact Iff.rfl

/-- Row `r` of the array is in the block of point `r / 200`. -/
theorem cover0_6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : (i 0).val / 200 < cfg0.N := by rw [show cfg0.N = 50 from N_0]; omega
  refine ⟨⟨(i 0).val / 200, hN⟩, flush0_6 _, ?_⟩
  obtain ⟨-, -, -, -, -, -, -, -, -, -, -, -, e0, e1⟩ := idxFacts0 ⟨(i 0).val / 200, hN⟩
  rw [mem_blk0_6]
  intro a
  match a with
  | ⟨0, _⟩ =>
    show win0_6.index ⟨(i 0).val / 200, hN⟩ (0 : Fin 2) * 200 ≤ (i 0).val
      ∧ (i 0).val < win0_6.index ⟨(i 0).val / 200, hN⟩ (0 : Fin 2) * 200 + 200
    rw [e0]; show (i 0).val / 200 * 200 ≤ (i 0).val ∧ (i 0).val < (i 0).val / 200 * 200 + 200; omega
  | ⟨1, _⟩ =>
    show win0_6.index ⟨(i 0).val / 200, hN⟩ (1 : Fin 2) * 128 ≤ (i 1).val
      ∧ (i 1).val < win0_6.index ⟨(i 0).val / 200, hN⟩ (1 : Fin 2) * 128 + 128
    rw [e1]; omega

/-- THE PROJECTED FEATURES after the region: the host's layer times the next weights. -/
theorem final0_6 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec0 0) i = A i) (hY : ∀ i, V c (Pipeline.arrRef spec0 1) i = Y i)
    (hB : ∀ i, V c (Pipeline.arrRef spec0 2) i = B i)
    (hW : ∀ i, V c (Pipeline.arrRef spec0 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (dat0 (F := Ideal) V c).arrAt 6 cfg0.N i = Host.dotGeneral Dp none (l2n 0x2B8CBCCC#32 (biasRelu (Host.dotGeneral Dh none A Y) B hrow hz) hred hu hcol hz1 hcb) Wn i :=
  fun i => congrFun ((dat0 (F := Ideal) V c).arrAt_eq_of_cover 6 (Host.dotGeneral Dp none (l2n 0x2B8CBCCC#32 (biasRelu (Host.dotGeneral Dh none A Y) B hrow hz) hred hu hcol hz1 hcb) Wn)
    (fun t _ => flushed0_6 V c A Y B Wn hA hY hB hW Dh hDh Dp hDp hrow hz hred hu hcol hz1 hcb t) cover0_6) i

end Cert.KernelIdeal.Hand

end
-- ==== Proof.R1.lean ====
/-
  Region 1 (a middle layer of a branch): what the two output arrays hold after the run.

  The region walks 25 grid points; point t holds rows 400·t … 400·t+399 of the adjacency copy, and the whole of the
  feature matrix, the bias row and the next layer's weights. On its block of rows it forms the product with the
  features, adds the bias row, rectifies, divides every row by its Euclidean length (floored at a small constant),
  and — for the second output — multiplies the normalised rows by the next weights. Every one of these stages
  treats rows independently, so the block written at point t is rows 400·t … 400·t+399 of the whole-array stage
  applied to the whole input arrays; the 25 blocks tile the 10000 rows, so each output array ends holding the
  whole-array function of the input arrays.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Idealize.ShloMosaic Idealize.ShloMosaic.ValueIdx Idealize.ShloMosaic.TcCoe Idealize.SL.Sem
open Idealize.ShloMosaic.Pipeline (Dat Cfg Window)
open Cert.LibGcnRows

/-! ## The payloads at an index, on a block of rows -/

/-- The host's sum over the second axis of a [10000,128] array keeps the first axis. -/
theorem hr1 : (⟨2, ![10000, 128]⟩ : Shape).Reduces [(1 : Fin 2)] ⟨1, ![10000]⟩ := by decide

/-- The first payload on a block whose row a is row `row a` of the adjacency, with the whole features and bias:
    rows `row a` of the normalised, rectified, biased product of the whole arrays. The two casts of the operands
    are identities; the four stages chain row by row. -/
theorem pay1_1_rows (row : Fin 400 → Fin 10000)
    (x0 : Vec Ideal S400x10000 .bf16) (x1 : Vec Ideal S10000x128 .bf16) (x2 : Vec Ideal S1x128 .f32)
    (A : FVec Ideal ⟨2, ![10000, 10000]⟩ .f32) (Y : FVec Ideal ⟨2, ![10000, 128]⟩ .f32) (B : FVec Ideal ⟨2, ![1, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q))
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k1_pay1 x0 x1 x2 (ix2 a q) = l2n 0x2B8CBCCC#32 (biasRelu (Host.dotGeneral Dh none A Y) B hrow hz) hred hu hcol hz1 hcb (ix2 (row a) q) := by
  unfold Gen.k1_pay1
  refine l2n_rows 0x2B8CBCCC#32 row (biasRelu (Host.dotGeneral Dh none A Y) B hrow hz) _ (fun a q => ?_)
    Gen.reduces_S400x128_S400 (.inl rfl) rfl Gen.shapeCasts_S400_S400x1 Gen.broadcasts_S400x1_S400x128
    hred hu hcol hz1 hcb hr1 a q
  refine biasRelu_rows row (Host.dotGeneral Dh none A Y) B _ x2 (fun a q => ?_) h2
    Gen.shapeCasts_S1x128_S1x128 Gen.broadcasts_S1x128_S400x128 hrow hz a q
  refine dot_rows row dot_S400x10000_S10000x128_S400x128_1_0_0_1_n_n rfl Dh hDh A Y _ _ (fun a k => ?_) (fun k q => ?_) a q
  · rw [shapeCast_self]; exact h0 a k
  · rw [shapeCast_self]; exact h1 k q

/-- The second payload on such a block, with the whole next weights: rows `row a` of the product of the whole
    normalised array with the weights. The two format changes are identities at the extended reals. -/
theorem pay1_2_rows (row : Fin 400 → Fin 10000)
    (x0 : Vec Ideal S400x10000 .bf16) (x1 : Vec Ideal S10000x128 .bf16) (x2 : Vec Ideal S1x128 .f32)
    (x3 : Vec Ideal S128x128 .bf16)
    (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q)) (h3 : ∀ k q, x3 (ix2 k q) = Wn (ix2 k q))
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k1_pay2 x0 x1 x2 x3 (ix2 a q) = Host.dotGeneral Dp none (l2n 0x2B8CBCCC#32 (biasRelu (Host.dotGeneral Dh none A Y) B hrow hz) hred hu hcol hz1 hcb) Wn (ix2 (row a) q) := by
  unfold Gen.k1_pay2
  refine (truncf_apply (matmul dot_S400x128_S128x128_S400x128_1_0_0_1_n_n none
    (truncf .bf16 (Gen.k1_pay1 x0 x1 x2) Gen.bitsLt_bf16_f32) (shapeCast S128x128 x3 Gen.shapeCasts_S128x128_S128x128)
    (constant (F := Ideal) S400x128 .f32 0x00000000#32)) Gen.bitsLt_bf16_f32 (ix2 a q)).trans ?_
  refine dot_rows row dot_S400x128_S128x128_S400x128_1_0_0_1_n_n rfl Dp hDp (l2n 0x2B8CBCCC#32 (biasRelu (Host.dotGeneral Dh none A Y) B hrow hz) hred hu hcol hz1 hcb) Wn _ _
    (fun a k => ?_) (fun k q => ?_) a q
  · exact (truncf_apply (Gen.k1_pay1 x0 x1 x2) Gen.bitsLt_bf16_f32 (ix2 a k)).trans
      (pay1_1_rows row x0 x1 x2 A Y B h0 h1 h2 Dh hDh hrow hz hred hu hcol hz1 hcb a k)
  · rw [shapeCast_self]; exact h3 k q

/-! ## The index maps, and the blocks the region reads -/

/-- The loads and the store of the body sit at offset zero of their buffers. -/
theorem zoff1 : (![0, 0] : Fin 2 → Nat) = fun _ => 0 := funext fun a => by fin_cases a <;> rfl

/-- The printed index maps, decided once over the 25 points: the row-tiled windows (the adjacency copy and the two
    outputs) are at block (t, 0), the whole-array windows at block (0, 0). -/
theorem idxFacts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- A grid point is one of 25. -/
theorem pt_lt1 (t : Fin cfg1.N) : t.val < 25 := lt_of_lt_of_eq t.isLt Gen.N_1

/-- Row a of the block of point t is row 400·t + a of the array. -/
def row1 (t : Fin cfg1.N) (a : Fin 400) : Fin 10000 :=
  ⟨400 * t.val + a.val, by have ht := pt_lt1 t; have ha := a.isLt; omega⟩

variable (V : (c : Dev nD) → (b : Ref sig .tc) → Buf (Elt Ideal) ((c : Thread nD τ).loc b))

/-- The adjacency window's block at point t is rows 400·t … 400·t+399 of its array (a block's coordinate is block
    index × block size + the coordinate inside the block). -/
theorem blk1_0 (c : Dev nD) (t : Fin cfg1.N) (A : FVec Ideal ⟨2, ![10000, 10000]⟩ .f32)
    (hA : ∀ i, V c (Pipeline.arrRef spec1 0) i = A i) (a : Fin 400) (k : Fin 10000) :
    (Gen.iblk1 V c 0 t : Vec Ideal S400x10000 .bf16) (ix2 a k) = A (ix2 (row1 t a) k) := by
  obtain ⟨e0, e1, -⟩ := idxFacts1 t
  unfold Gen.iblk1
  rw [View.read_apply]
  show V c (Pipeline.arrRef spec1 0) _ = _
  refine (hA _).trans (congrArg A ?_)
  funext d; apply Fin.ext
  match d with
  | ⟨0, _⟩ => show win1_0.index t (0 : Fin 2) * 400 + 1 * a.val = 400 * t.val + a.val; rw [e0]; omega
  | ⟨1, _⟩ => show win1_0.index t (1 : Fin 2) * 10000 + 1 * k.val = k.val; rw [e1]; omega

/-- The features window's block at every point is the whole array. -/
theorem blk1_1 (c : Dev nD) (t : Fin cfg1.N) (Y : FVec Ideal ⟨2, ![10000, 128]⟩ .f32)
    (hY : ∀ i, V c (Pipeline.arrRef spec1 1) i = Y i) (k : Fin 10000) (q : Fin 128) :
    (Gen.iblk1 V c 1 t : Vec Ideal S10000x128 .bf16) (ix2 k q) = Y (ix2 k q) := by
  obtain ⟨-, -, e0, e1, -⟩ := idxFacts1 t
  unfold Gen.iblk1
  rw [View.read_apply]
  show V c (Pipeline.arrRef spec1 1) _ = _
  refine (hY _).trans (congrArg Y ?_)
  funext d; apply Fin.ext
  match d with
  | ⟨0, _⟩ => show win1_1.index t (0 : Fin 2) * 10000 + 1 * k.val = k.val; rw [e0]; omega
  | ⟨1, _⟩ => show win1_1.index t (1 : Fin 2) * 128 + 1 * q.val = q.val; rw [e1]; omega

/-- The bias window's block at every point is the whole row. -/
theorem blk1_2 (c : Dev nD) (t : Fin cfg1.N) (B : FVec Ideal ⟨2, ![1, 128]⟩ .f32)
    (hB : ∀ i, V c (Pipeline.arrRef spec1 2) i = B i) (q : Fin 128) :
    (Gen.iblk1 V c 2 t : Vec Ideal S1x128 .f32) (ix2 (0 : Fin 1) q) = B (ix2 (0 : Fin 1) q) := by
  obtain ⟨-, -, -, -, e0, e1, -⟩ := idxFacts1 t
  unfold Gen.iblk1
  rw [View.read_apply]
  show V c (Pipeline.arrRef spec1 2) _ = _
  refine (hB _).trans (congrArg B ?_)
  funext d; apply Fin.ext
  match d with
  | ⟨0, _⟩ => show win1_2.index t (0 : Fin 2) * 1 + 1 * 0 = 0; rw [e0]
  | ⟨1, _⟩ => show win1_2.index t (1 : Fin 2) * 128 + 1 * q.val = q.val; rw [e1]; omega

/-- The weights window's block at every point is the whole array. -/
theorem blk1_3 (c : Dev nD) (t : Fin cfg1.N) (Wn : FVec Ideal ⟨2, ![128, 128]⟩ .f32)
    (hW : ∀ i, V c (Pipeline.arrRef spec1 3) i = Wn i) (k : Fin 128) (q : Fin 128) :
    (Gen.iblk1 V c 3 t : Vec Ideal S128x128 .bf16) (ix2 k q) = Wn (ix2 k q) := by
  obtain ⟨-, -, -, -, -, -, e0, e1, -⟩ := idxFacts1 t
  unfold Gen.iblk1
  rw [View.read_apply]
  show V c (Pipeline.arrRef spec1 3) _ = _
  refine (hW _).trans (congrArg Wn ?_)
  funext d; apply Fin.ext
  match d with
  | ⟨0, _⟩ => show win1_3.index t (0 : Fin 2) * 128 + 1 * k.val = k.val; rw [e0]; omega
  | ⟨1, _⟩ => show win1_3.index t (1 : Fin 2) * 128 + 1 * q.val = q.val; rw [e1]; omega

/-! ## What each point writes back -/

/-- Point t writes to the first output rows 400·t … 400·t+399 of the whole-array function. -/
theorem flushed1_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec1 0) i = A i) (hY : ∀ i, V c (Pipeline.arrRef spec1 1) i = Y i)
    (hB : ∀ i, V c (Pipeline.arrRef spec1 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg1.N) :
    (Gen.dat1 (F := Ideal) V c).flushed 4 t
      = ((cfg1.win 4).blk t).view.read (Elt Ideal) (l2n 0x2B8CBCCC#32 (biasRelu (Host.dotGeneral Dh none A Y) B hrow hz) hred hu hcol hz1 hcb) := by
  show (cfg1.win 4).cut (grid1.coords t) ((Gen.dat1 V c).after 4 t) = _
  rw [Gen.after1_4]
  unfold Gen.out1_4
  rw [View.canon_unit_zero zoff1]
  simp only [View.ld_unit_zero (S := S400x10000) zoff1, View.ld_unit_zero (S := S10000x128) zoff1,
    View.ld_unit_zero (S := S1x128) zoff1]
  funext j
  obtain ⟨a, q, rfl⟩ : ∃ (a : Fin 400) (q : Fin 128), j = ix2 a q := ⟨j 0, j 1, eq_ix2 j⟩
  refine (pay1_1_rows (row1 t) (Gen.iblk1 V c 0 t) (Gen.iblk1 V c 1 t) (Gen.iblk1 V c 2 t) A Y B
    (fun a k => blk1_0 V c t A hA a k) (fun k q => blk1_1 V c t Y hY k q) (fun q => blk1_2 V c t B hB q)
    Dh hDh hrow hz hred hu hcol hz1 hcb a q).trans ?_
  rw [View.read_apply]
  show (l2n 0x2B8CBCCC#32 (biasRelu (Host.dotGeneral Dh none A Y) B hrow hz) hred hu hcol hz1 hcb) _ = (l2n 0x2B8CBCCC#32 (biasRelu (Host.dotGeneral Dh none A Y) B hrow hz) hred hu hcol hz1 hcb) _
  refine congrArg (l2n 0x2B8CBCCC#32 (biasRelu (Host.dotGeneral Dh none A Y) B hrow hz) hred hu hcol hz1 hcb) ?_
  obtain ⟨-, -, -, -, -, -, -, -, e0, e1, -⟩ := idxFacts1 t
  funext d; apply Fin.ext
  match d with
  | ⟨0, _⟩ => show 400 * t.val + a.val = win1_4.index t (0 : Fin 2) * 400 + 1 * a.val; rw [e0]; omega
  | ⟨1, _⟩ => show q.val = win1_4.index t (1 : Fin 2) * 128 + 1 * q.val; rw [e1]; omega

/-- Point t writes to the second output rows 400·t … 400·t+399 of the whole-array function. -/
theorem flushed1_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec1 0) i = A i) (hY : ∀ i, V c (Pipeline.arrRef spec1 1) i = Y i)
    (hB : ∀ i, V c (Pipeline.arrRef spec1 2) i = B i) (hW : ∀ i, V c (Pipeline.arrRef spec1 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg1.N) :
    (Gen.dat1 (F := Ideal) V c).flushed 5 t
      = ((cfg1.win 5).blk t).view.read (Elt Ideal) (Host.dotGeneral Dp none (l2n 0x2B8CBCCC#32 (biasRelu (Host.dotGeneral Dh none A Y) B hrow hz) hred hu hcol hz1 hcb) Wn) := by
  show (cfg1.win 5).cut (grid1.coords t) ((Gen.dat1 V c).after 5 t) = _
  rw [Gen.after1_5]
  unfold Gen.out1_5
  rw [View.canon_unit_zero zoff1]
  simp only [View.ld_unit_zero (S := S400x10000) zoff1, View.ld_unit_zero (S := S10000x128) zoff1,
    View.ld_unit_zero (S := S1x128) zoff1, View.ld_unit_zero (S := S128x128) zoff1]
  funext j
  obtain ⟨a, q, rfl⟩ : ∃ (a : Fin 400) (q : Fin 128), j = ix2 a q := ⟨j 0, j 1, eq_ix2 j⟩
  refine (pay1_2_rows (row1 t) (Gen.iblk1 V c 0 t) (Gen.iblk1 V c 1 t) (Gen.iblk1 V c 2 t)
    (Gen.iblk1 V c 3 t) A Y B Wn
    (fun a k => blk1_0 V c t A hA a k) (fun k q => blk1_1 V c t Y hY k q) (fun q => blk1_2 V c t B hB q)
    (fun k q => blk1_3 V c t Wn hW k q)
    Dh hDh Dp hDp hrow hz hred hu hcol hz1 hcb a q).trans ?_
  rw [View.read_apply]
  show (Host.dotGeneral Dp none (l2n 0x2B8CBCCC#32 (biasRelu (Host.dotGeneral Dh none A Y) B hrow hz) hred hu hcol hz1 hcb) Wn) _ = (Host.dotGeneral Dp none (l2n 0x2B8CBCCC#32 (biasRelu (Host.dotGeneral Dh none A Y) B hrow hz) hred hu hcol hz1 hcb) Wn) _
  refine congrArg (Host.dotGeneral Dp none (l2n 0x2B8CBCCC#32 (biasRelu (Host.dotGeneral Dh none A Y) B hrow hz) hred hu hcol hz1 hcb) Wn) ?_
  obtain ⟨-, -, -, -, -, -, -, -, -, -, e0, e1⟩ := idxFacts1 t
  funext d; apply Fin.ext
  match d with
  | ⟨0, _⟩ => show 400 * t.val + a.val = win1_5.index t (0 : Fin 2) * 400 + 1 * a.val; rw [e0]; omega
  | ⟨1, _⟩ => show q.val = win1_5.index t (1 : Fin 2) * 128 + 1 * q.val; rw [e1]; omega

/-! ## The blocks tile the rows -/

/-- An index of the first output array is in point t's block iff each coordinate is in the block's range. -/
theorem mem_blk1_4 (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v9_0).slice (win1_4.rect t)).set ↔ _
  rw [View.set_slice_whole, Rect.mem_set_unit]
  exact Iff.rfl

/-- The same for the second output array. -/
theorem mem_blk1_5 (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_v9_1).slice (win1_5.rect t)).set ↔ _
  rw [View.set_slice_whole, Rect.mem_set_unit]
  exact Iff.rfl

/-- Row r of the first output is in the block of point r / 400, and every point writes back. -/
theorem covered1_4 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from Gen.N_1]; omega⟩, rfl⟩
  obtain ⟨-, -, -, -, -, -, -, -, e0, e1, -⟩ := idxFacts1 t
  refine ⟨t, Gen.flush1_4 t, ?_⟩
  rw [mem_blk1_4]
  intro a
  match a with
  | ⟨0, _⟩ =>
    show win1_4.index t (0 : Fin 2) * 400 ≤ (i 0).val ∧ (i 0).val < win1_4.index t (0 : Fin 2) * 400 + 400
    rw [e0, ht]; omega
  | ⟨1, _⟩ =>
    show win1_4.index t (1 : Fin 2) * 128 ≤ (i 1).val ∧ (i 1).val < win1_4.index t (1 : Fin 2) * 128 + 128
    rw [e1]; omega

/-- The same for the second output. -/
theorem covered1_5 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from Gen.N_1]; omega⟩, rfl⟩
  obtain ⟨-, -, -, -, -, -, -, -, -, -, e0, e1⟩ := idxFacts1 t
  refine ⟨t, Gen.flush1_5 t, ?_⟩
  rw [mem_blk1_5]
  intro a
  match a with
  | ⟨0, _⟩ =>
    show win1_5.index t (0 : Fin 2) * 400 ≤ (i 0).val ∧ (i 0).val < win1_5.index t (0 : Fin 2) * 400 + 400
    rw [e0, ht]; omega
  | ⟨1, _⟩ =>
    show win1_5.index t (1 : Fin 2) * 128 ≤ (i 1).val ∧ (i 1).val < win1_5.index t (1 : Fin 2) * 128 + 128
    rw [e1]; omega

/-! ## The arrays after the run -/

/-- The first output array ends holding the normalised, rectified, biased product of the whole input arrays. -/
theorem final1_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec1 0) i = A i) (hY : ∀ i, V c (Pipeline.arrRef spec1 1) i = Y i)
    (hB : ∀ i, V c (Pipeline.arrRef spec1 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat1 (F := Ideal) V c).arrAt 4 cfg1.N i = l2n 0x2B8CBCCC#32 (biasRelu (Host.dotGeneral Dh none A Y) B hrow hz) hred hu hcol hz1 hcb i :=
  fun i => congrFun ((Gen.dat1 (F := Ideal) V c).arrAt_eq_of_cover 4 (l2n 0x2B8CBCCC#32 (biasRelu (Host.dotGeneral Dh none A Y) B hrow hz) hred hu hcol hz1 hcb)
    (fun t _ => flushed1_4 V c A Y B hA hY hB Dh hDh hrow hz hred hu hcol hz1 hcb t) covered1_4) i

/-- The second output array ends holding that array multiplied by the next layer's weights. -/
theorem final1_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec1 0) i = A i) (hY : ∀ i, V c (Pipeline.arrRef spec1 1) i = Y i)
    (hB : ∀ i, V c (Pipeline.arrRef spec1 2) i = B i) (hW : ∀ i, V c (Pipeline.arrRef spec1 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat1 (F := Ideal) V c).arrAt 5 cfg1.N i = Host.dotGeneral Dp none (l2n 0x2B8CBCCC#32 (biasRelu (Host.dotGeneral Dh none A Y) B hrow hz) hred hu hcol hz1 hcb) Wn i :=
  fun i => congrFun ((Gen.dat1 (F := Ideal) V c).arrAt_eq_of_cover 5 (Host.dotGeneral Dp none (l2n 0x2B8CBCCC#32 (biasRelu (Host.dotGeneral Dh none A Y) B hrow hz) hred hu hcol hz1 hcb) Wn)
    (fun t _ => flushed1_5 V c A Y B Wn hA hY hB hW Dh hDh Dp hDp hrow hz hred hu hcol hz1 hcb t) covered1_5) i

end Cert.KernelIdeal.Hand

end
-- ==== Proof.R2.lean ====
/-
  Region 2 (a middle layer of a branch): what the two output arrays hold after the run.

  The region walks 25 grid points; point t holds rows 400·t … 400·t+399 of the adjacency copy, and the whole of the
  feature matrix, the bias row and the next layer's weights. On its block of rows it forms the product with the
  features, adds the bias row, rectifies, divides every row by its Euclidean length (floored at a small constant),
  and — for the second output — multiplies the normalised rows by the next weights. Every one of these stages
  treats rows independently, so the block written at point t is rows 400·t … 400·t+399 of the whole-array stage
  applied to the whole input arrays; the 25 blocks tile the 10000 rows, so each output array ends holding the
  whole-array function of the input arrays.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Idealize.ShloMosaic Idealize.ShloMosaic.ValueIdx Idealize.ShloMosaic.TcCoe Idealize.SL.Sem
open Idealize.ShloMosaic.Pipeline (Dat Cfg Window)
open Cert.LibGcnRows

/-! ## The payloads at an index, on a block of rows -/

/-- The host's sum over the second axis of a [10000,128] array keeps the first axis. -/
theorem hr2 : (⟨2, ![10000, 128]⟩ : Shape).Reduces [(1 : Fin 2)] ⟨1, ![10000]⟩ := by decide

/-- The first payload on a block whose row a is row `row a` of the adjacency, with the whole features and bias:
    rows `row a` of the normalised, rectified, biased product of the whole arrays. The two casts of the operands
    are identities; the four stages chain row by row. -/
theorem pay2_1_rows (row : Fin 400 → Fin 10000)
    (x0 : Vec Ideal S400x10000 .bf16) (x1 : Vec Ideal S10000x128 .bf16) (x2 : Vec Ideal S1x128 .f32)
    (A : FVec Ideal ⟨2, ![10000, 10000]⟩ .f32) (Y : FVec Ideal ⟨2, ![10000, 128]⟩ .f32) (B : FVec Ideal ⟨2, ![1, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q))
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k2_pay1 x0 x1 x2 (ix2 a q) = l2n 0x2B8CBCCC#32 (biasRelu (Host.dotGeneral Dh none A Y) B hrow hz) hred hu hcol hz1 hcb (ix2 (row a) q) := by
  unfold Gen.k2_pay1
  refine l2n_rows 0x2B8CBCCC#32 row (biasRelu (Host.dotGeneral Dh none A Y) B hrow hz) _ (fun a q => ?_)
    Gen.reduces_S400x128_S400 (.inl rfl) rfl Gen.shapeCasts_S400_S400x1 Gen.broadcasts_S400x1_S400x128
    hred hu hcol hz1 hcb hr2 a q
  refine biasRelu_rows row (Host.dotGeneral Dh none A Y) B _ x2 (fun a q => ?_) h2
    Gen.shapeCasts_S1x128_S1x128 Gen.broadcasts_S1x128_S400x128 hrow hz a q
  refine dot_rows row dot_S400x10000_S10000x128_S400x128_1_0_0_1_n_n rfl Dh hDh A Y _ _ (fun a k => ?_) (fun k q => ?_) a q
  · rw [shapeCast_self]; exact h0 a k
  · rw [shapeCast_self]; exact h1 k q

/-- The second payload on such a block, with the whole next weights: rows `row a` of the product of the whole
    normalised array with the weights. The two format changes are identities at the extended reals. -/
theorem pay2_2_rows (row : Fin 400 → Fin 10000)
    (x0 : Vec Ideal S400x10000 .bf16) (x1 : Vec Ideal S10000x128 .bf16) (x2 : Vec Ideal S1x128 .f32)
    (x3 : Vec Ideal S128x128 .bf16)
    (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q)) (h3 : ∀ k q, x3 (ix2 k q) = Wn (ix2 k q))
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k2_pay2 x0 x1 x2 x3 (ix2 a q) = Host.dotGeneral Dp none (l2n 0x2B8CBCCC#32 (biasRelu (Host.dotGeneral Dh none A Y) B hrow hz) hred hu hcol hz1 hcb) Wn (ix2 (row a) q) := by
  unfold Gen.k2_pay2
  refine (truncf_apply (matmul dot_S400x128_S128x128_S400x128_1_0_0_1_n_n none
    (truncf .bf16 (Gen.k2_pay1 x0 x1 x2) Gen.bitsLt_bf16_f32) (shapeCast S128x128 x3 Gen.shapeCasts_S128x128_S128x128)
    (constant (F := Ideal) S400x128 .f32 0x00000000#32)) Gen.bitsLt_bf16_f32 (ix2 a q)).trans ?_
  refine dot_rows row dot_S400x128_S128x128_S400x128_1_0_0_1_n_n rfl Dp hDp (l2n 0x2B8CBCCC#32 (biasRelu (Host.dotGeneral Dh none A Y) B hrow hz) hred hu hcol hz1 hcb) Wn _ _
    (fun a k => ?_) (fun k q => ?_) a q
  · exact (truncf_apply (Gen.k2_pay1 x0 x1 x2) Gen.bitsLt_bf16_f32 (ix2 a k)).trans
      (pay2_1_rows row x0 x1 x2 A Y B h0 h1 h2 Dh hDh hrow hz hred hu hcol hz1 hcb a k)
  · rw [shapeCast_self]; exact h3 k q

/-! ## The index maps, and the blocks the region reads -/

/-- The loads and the store of the body sit at offset zero of their buffers. -/
theorem zoff2 : (![0, 0] : Fin 2 → Nat) = fun _ => 0 := funext fun a => by fin_cases a <;> rfl

/-- The printed index maps, decided once over the 25 points: the row-tiled windows (the adjacency copy and the two
    outputs) are at block (t, 0), the whole-array windows at block (0, 0). -/
theorem idxFacts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- A grid point is one of 25. -/
theorem pt_lt2 (t : Fin cfg2.N) : t.val < 25 := lt_of_lt_of_eq t.isLt Gen.N_2

/-- Row a of the block of point t is row 400·t + a of the array. -/
def row2 (t : Fin cfg2.N) (a : Fin 400) : Fin 10000 :=
  ⟨400 * t.val + a.val, by have ht := pt_lt2 t; have ha := a.isLt; omega⟩

variable (V : (c : Dev nD) → (b : Ref sig .tc) → Buf (Elt Ideal) ((c : Thread nD τ).loc b))

/-- The adjacency window's block at point t is rows 400·t … 400·t+399 of its array (a block's coordinate is block
    index × block size + the coordinate inside the block). -/
theorem blk2_0 (c : Dev nD) (t : Fin cfg2.N) (A : FVec Ideal ⟨2, ![10000, 10000]⟩ .f32)
    (hA : ∀ i, V c (Pipeline.arrRef spec2 0) i = A i) (a : Fin 400) (k : Fin 10000) :
    (Gen.iblk2 V c 0 t : Vec Ideal S400x10000 .bf16) (ix2 a k) = A (ix2 (row2 t a) k) := by
  obtain ⟨e0, e1, -⟩ := idxFacts2 t
  unfold Gen.iblk2
  rw [View.read_apply]
  show V c (Pipeline.arrRef spec2 0) _ = _
  refine (hA _).trans (congrArg A ?_)
  funext d; apply Fin.ext
  match d with
  | ⟨0, _⟩ => show win2_0.index t (0 : Fin 2) * 400 + 1 * a.val = 400 * t.val + a.val; rw [e0]; omega
  | ⟨1, _⟩ => show win2_0.index t (1 : Fin 2) * 10000 + 1 * k.val = k.val; rw [e1]; omega

/-- The features window's block at every point is the whole array. -/
theorem blk2_1 (c : Dev nD) (t : Fin cfg2.N) (Y : FVec Ideal ⟨2, ![10000, 128]⟩ .f32)
    (hY : ∀ i, V c (Pipeline.arrRef spec2 1) i = Y i) (k : Fin 10000) (q : Fin 128) :
    (Gen.iblk2 V c 1 t : Vec Ideal S10000x128 .bf16) (ix2 k q) = Y (ix2 k q) := by
  obtain ⟨-, -, e0, e1, -⟩ := idxFacts2 t
  unfold Gen.iblk2
  rw [View.read_apply]
  show V c (Pipeline.arrRef spec2 1) _ = _
  refine (hY _).trans (congrArg Y ?_)
  funext d; apply Fin.ext
  match d with
  | ⟨0, _⟩ => show win2_1.index t (0 : Fin 2) * 10000 + 1 * k.val = k.val; rw [e0]; omega
  | ⟨1, _⟩ => show win2_1.index t (1 : Fin 2) * 128 + 1 * q.val = q.val; rw [e1]; omega

/-- The bias window's block at every point is the whole row. -/
theorem blk2_2 (c : Dev nD) (t : Fin cfg2.N) (B : FVec Ideal ⟨2, ![1, 128]⟩ .f32)
    (hB : ∀ i, V c (Pipeline.arrRef spec2 2) i = B i) (q : Fin 128) :
    (Gen.iblk2 V c 2 t : Vec Ideal S1x128 .f32) (ix2 (0 : Fin 1) q) = B (ix2 (0 : Fin 1) q) := by
  obtain ⟨-, -, -, -, e0, e1, -⟩ := idxFacts2 t
  unfold Gen.iblk2
  rw [View.read_apply]
  show V c (Pipeline.arrRef spec2 2) _ = _
  refine (hB _).trans (congrArg B ?_)
  funext d; apply Fin.ext
  match d with
  | ⟨0, _⟩ => show win2_2.index t (0 : Fin 2) * 1 + 1 * 0 = 0; rw [e0]
  | ⟨1, _⟩ => show win2_2.index t (1 : Fin 2) * 128 + 1 * q.val = q.val; rw [e1]; omega

/-- The weights window's block at every point is the whole array. -/
theorem blk2_3 (c : Dev nD) (t : Fin cfg2.N) (Wn : FVec Ideal ⟨2, ![128, 128]⟩ .f32)
    (hW : ∀ i, V c (Pipeline.arrRef spec2 3) i = Wn i) (k : Fin 128) (q : Fin 128) :
    (Gen.iblk2 V c 3 t : Vec Ideal S128x128 .bf16) (ix2 k q) = Wn (ix2 k q) := by
  obtain ⟨-, -, -, -, -, -, e0, e1, -⟩ := idxFacts2 t
  unfold Gen.iblk2
  rw [View.read_apply]
  show V c (Pipeline.arrRef spec2 3) _ = _
  refine (hW _).trans (congrArg Wn ?_)
  funext d; apply Fin.ext
  match d with
  | ⟨0, _⟩ => show win2_3.index t (0 : Fin 2) * 128 + 1 * k.val = k.val; rw [e0]; omega
  | ⟨1, _⟩ => show win2_3.index t (1 : Fin 2) * 128 + 1 * q.val = q.val; rw [e1]; omega

/-! ## What each point writes back -/

/-- Point t writes to the first output rows 400·t … 400·t+399 of the whole-array function. -/
theorem flushed2_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec2 0) i = A i) (hY : ∀ i, V c (Pipeline.arrRef spec2 1) i = Y i)
    (hB : ∀ i, V c (Pipeline.arrRef spec2 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg2.N) :
    (Gen.dat2 (F := Ideal) V c).flushed 4 t
      = ((cfg2.win 4).blk t).view.read (Elt Ideal) (l2n 0x2B8CBCCC#32 (biasRelu (Host.dotGeneral Dh none A Y) B hrow hz) hred hu hcol hz1 hcb) := by
  show (cfg2.win 4).cut (grid2.coords t) ((Gen.dat2 V c).after 4 t) = _
  rw [Gen.after2_4]
  unfold Gen.out2_4
  rw [View.canon_unit_zero zoff2]
  simp only [View.ld_unit_zero (S := S400x10000) zoff2, View.ld_unit_zero (S := S10000x128) zoff2,
    View.ld_unit_zero (S := S1x128) zoff2]
  funext j
  obtain ⟨a, q, rfl⟩ : ∃ (a : Fin 400) (q : Fin 128), j = ix2 a q := ⟨j 0, j 1, eq_ix2 j⟩
  refine (pay2_1_rows (row2 t) (Gen.iblk2 V c 0 t) (Gen.iblk2 V c 1 t) (Gen.iblk2 V c 2 t) A Y B
    (fun a k => blk2_0 V c t A hA a k) (fun k q => blk2_1 V c t Y hY k q) (fun q => blk2_2 V c t B hB q)
    Dh hDh hrow hz hred hu hcol hz1 hcb a q).trans ?_
  rw [View.read_apply]
  show (l2n 0x2B8CBCCC#32 (biasRelu (Host.dotGeneral Dh none A Y) B hrow hz) hred hu hcol hz1 hcb) _ = (l2n 0x2B8CBCCC#32 (biasRelu (Host.dotGeneral Dh none A Y) B hrow hz) hred hu hcol hz1 hcb) _
  refine congrArg (l2n 0x2B8CBCCC#32 (biasRelu (Host.dotGeneral Dh none A Y) B hrow hz) hred hu hcol hz1 hcb) ?_
  obtain ⟨-, -, -, -, -, -, -, -, e0, e1, -⟩ := idxFacts2 t
  funext d; apply Fin.ext
  match d with
  | ⟨0, _⟩ => show 400 * t.val + a.val = win2_4.index t (0 : Fin 2) * 400 + 1 * a.val; rw [e0]; omega
  | ⟨1, _⟩ => show q.val = win2_4.index t (1 : Fin 2) * 128 + 1 * q.val; rw [e1]; omega

/-- Point t writes to the second output rows 400·t … 400·t+399 of the whole-array function. -/
theorem flushed2_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec2 0) i = A i) (hY : ∀ i, V c (Pipeline.arrRef spec2 1) i = Y i)
    (hB : ∀ i, V c (Pipeline.arrRef spec2 2) i = B i) (hW : ∀ i, V c (Pipeline.arrRef spec2 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg2.N) :
    (Gen.dat2 (F := Ideal) V c).flushed 5 t
      = ((cfg2.win 5).blk t).view.read (Elt Ideal) (Host.dotGeneral Dp none (l2n 0x2B8CBCCC#32 (biasRelu (Host.dotGeneral Dh none A Y) B hrow hz) hred hu hcol hz1 hcb) Wn) := by
  show (cfg2.win 5).cut (grid2.coords t) ((Gen.dat2 V c).after 5 t) = _
  rw [Gen.after2_5]
  unfold Gen.out2_5
  rw [View.canon_unit_zero zoff2]
  simp only [View.ld_unit_zero (S := S400x10000) zoff2, View.ld_unit_zero (S := S10000x128) zoff2,
    View.ld_unit_zero (S := S1x128) zoff2, View.ld_unit_zero (S := S128x128) zoff2]
  funext j
  obtain ⟨a, q, rfl⟩ : ∃ (a : Fin 400) (q : Fin 128), j = ix2 a q := ⟨j 0, j 1, eq_ix2 j⟩
  refine (pay2_2_rows (row2 t) (Gen.iblk2 V c 0 t) (Gen.iblk2 V c 1 t) (Gen.iblk2 V c 2 t)
    (Gen.iblk2 V c 3 t) A Y B Wn
    (fun a k => blk2_0 V c t A hA a k) (fun k q => blk2_1 V c t Y hY k q) (fun q => blk2_2 V c t B hB q)
    (fun k q => blk2_3 V c t Wn hW k q)
    Dh hDh Dp hDp hrow hz hred hu hcol hz1 hcb a q).trans ?_
  rw [View.read_apply]
  show (Host.dotGeneral Dp none (l2n 0x2B8CBCCC#32 (biasRelu (Host.dotGeneral Dh none A Y) B hrow hz) hred hu hcol hz1 hcb) Wn) _ = (Host.dotGeneral Dp none (l2n 0x2B8CBCCC#32 (biasRelu (Host.dotGeneral Dh none A Y) B hrow hz) hred hu hcol hz1 hcb) Wn) _
  refine congrArg (Host.dotGeneral Dp none (l2n 0x2B8CBCCC#32 (biasRelu (Host.dotGeneral Dh none A Y) B hrow hz) hred hu hcol hz1 hcb) Wn) ?_
  obtain ⟨-, -, -, -, -, -, -, -, -, -, e0, e1⟩ := idxFacts2 t
  funext d; apply Fin.ext
  match d with
  | ⟨0, _⟩ => show 400 * t.val + a.val = win2_5.index t (0 : Fin 2) * 400 + 1 * a.val; rw [e0]; omega
  | ⟨1, _⟩ => show q.val = win2_5.index t (1 : Fin 2) * 128 + 1 * q.val; rw [e1]; omega

/-! ## The blocks tile the rows -/

/-- An index of the first output array is in point t's block iff each coordinate is in the block's range. -/
theorem mem_blk2_4 (t : Fin cfg2.N) (i : S10000x128.Idx) :
    i ∈ ((cfg2.win 4).blk t).view.set ↔ ∀ a : Fin 2, win2_4.index t a * S400x128.size a ≤ (i a).val
      ∧ (i a).val < win2_4.index t a * S400x128.size a + S400x128.size a := by
  show i ∈ ((View.whole main_v10_0).slice (win2_4.rect t)).set ↔ _
  rw [View.set_slice_whole, Rect.mem_set_unit]
  exact Iff.rfl

/-- The same for the second output array. -/
theorem mem_blk2_5 (t : Fin cfg2.N) (i : S10000x128.Idx) :
    i ∈ ((cfg2.win 5).blk t).view.set ↔ ∀ a : Fin 2, win2_5.index t a * S400x128.size a ≤ (i a).val
      ∧ (i a).val < win2_5.index t a * S400x128.size a + S400x128.size a := by
  show i ∈ ((View.whole main_v10_1).slice (win2_5.rect t)).set ↔ _
  rw [View.set_slice_whole, Rect.mem_set_unit]
  exact Iff.rfl

/-- Row r of the first output is in the block of point r / 400, and every point writes back. -/
theorem covered2_4 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, by rw [show cfg2.N = 25 from Gen.N_2]; omega⟩, rfl⟩
  obtain ⟨-, -, -, -, -, -, -, -, e0, e1, -⟩ := idxFacts2 t
  refine ⟨t, Gen.flush2_4 t, ?_⟩
  rw [mem_blk2_4]
  intro a
  match a with
  | ⟨0, _⟩ =>
    show win2_4.index t (0 : Fin 2) * 400 ≤ (i 0).val ∧ (i 0).val < win2_4.index t (0 : Fin 2) * 400 + 400
    rw [e0, ht]; omega
  | ⟨1, _⟩ =>
    show win2_4.index t (1 : Fin 2) * 128 ≤ (i 1).val ∧ (i 1).val < win2_4.index t (1 : Fin 2) * 128 + 128
    rw [e1]; omega

/-- The same for the second output. -/
theorem covered2_5 (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, by rw [show cfg2.N = 25 from Gen.N_2]; omega⟩, rfl⟩
  obtain ⟨-, -, -, -, -, -, -, -, -, -, e0, e1⟩ := idxFacts2 t
  refine ⟨t, Gen.flush2_5 t, ?_⟩
  rw [mem_blk2_5]
  intro a
  match a with
  | ⟨0, _⟩ =>
    show win2_5.index t (0 : Fin 2) * 400 ≤ (i 0).val ∧ (i 0).val < win2_5.index t (0 : Fin 2) * 400 + 400
    rw [e0, ht]; omega
  | ⟨1, _⟩ =>
    show win2_5.index t (1 : Fin 2) * 128 ≤ (i 1).val ∧ (i 1).val < win2_5.index t (1 : Fin 2) * 128 + 128
    rw [e1]; omega

/-! ## The arrays after the run -/

/-- The first output array ends holding the normalised, rectified, biased product of the whole input arrays. -/
theorem final2_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec2 0) i = A i) (hY : ∀ i, V c (Pipeline.arrRef spec2 1) i = Y i)
    (hB : ∀ i, V c (Pipeline.arrRef spec2 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat2 (F := Ideal) V c).arrAt 4 cfg2.N i = l2n 0x2B8CBCCC#32 (biasRelu (Host.dotGeneral Dh none A Y) B hrow hz) hred hu hcol hz1 hcb i :=
  fun i => congrFun ((Gen.dat2 (F := Ideal) V c).arrAt_eq_of_cover 4 (l2n 0x2B8CBCCC#32 (biasRelu (Host.dotGeneral Dh none A Y) B hrow hz) hred hu hcol hz1 hcb)
    (fun t _ => flushed2_4 V c A Y B hA hY hB Dh hDh hrow hz hred hu hcol hz1 hcb t) covered2_4) i

/-- The second output array ends holding that array multiplied by the next layer's weights. -/
theorem final2_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec2 0) i = A i) (hY : ∀ i, V c (Pipeline.arrRef spec2 1) i = Y i)
    (hB : ∀ i, V c (Pipeline.arrRef spec2 2) i = B i) (hW : ∀ i, V c (Pipeline.arrRef spec2 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat2 (F := Ideal) V c).arrAt 5 cfg2.N i = Host.dotGeneral Dp none (l2n 0x2B8CBCCC#32 (biasRelu (Host.dotGeneral Dh none A Y) B hrow hz) hred hu hcol hz1 hcb) Wn i :=
  fun i => congrFun ((Gen.dat2 (F := Ideal) V c).arrAt_eq_of_cover 5 (Host.dotGeneral Dp none (l2n 0x2B8CBCCC#32 (biasRelu (Host.dotGeneral Dh none A Y) B hrow hz) hred hu hcol hz1 hcb) Wn)
    (fun t _ => flushed2_5 V c A Y B Wn hA hY hB hW Dh hDh Dp hDp hrow hz hred hu hcol hz1 hcb t) covered2_5) i

end Cert.KernelIdeal.Hand

end
-- ==== Proof.R3.lean ====
/-
  The last layer of the first branch: the output array as one function of the region's input arrays.

  The region walks 25 blocks of 400 rows. At point t it holds rows [400 t, 400 t + 400) of the adjacency matrix A, the
  whole feature matrix Y [10000,128] and the bias row b [1,128], and leaves  max(A_block · Y + b, 0)  in the same rows of
  the output. Row r of  max(A · Y + b, 0)  depends on row r of A alone (and on all of Y and b), so what point t writes
  back is rows [400 t, 400 t + 400) of that whole-array function; the 25 blocks tile the 10000 rows (row r lies in
  block r / 400), so the output array ends holding  max(A · Y + b, 0).  The format changes of the operands are the
  identity at the extended reals, so A, Y, b are read here at the values the input arrays hold.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Cert.KernelIdeal Cert.KernelIdeal.Gen Cert.LibGcnRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem hz3 : (![0, 0] : Fin 2 → Nat) = fun _ => 0 := funext fun a => by fin_cases a <;> rfl

/-! ## The body's result on a block of rows -/

/-- The body's result at (a, q), when row a of its first operand is row `row a` of A and the other two operands are Y
    and b: the product accumulated into a zero block is rows `row` of A · Y, and the bias and the rectifier act row by
    row, so the result is  max(A · Y + b, 0)  at (row a, q). -/
theorem pay3_rows (row : Fin 400 → Fin 10000)
    (A : FVec Ideal ⟨2, ![10000, 10000]⟩ .f32) (Y : FVec Ideal ⟨2, ![10000, 128]⟩ .f32) (B : FVec Ideal ⟨2, ![1, 128]⟩ .f32)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (x0 : FVec Ideal S400x10000 .bf16) (x1 : FVec Ideal S10000x128 .bf16) (x2 : FVec Ideal S1x128 .f32)
    (h0 : ∀ (a : Fin 400) (k : Fin 10000), x0 (ix2 a k) = A (ix2 (row a) k))
    (h1 : ∀ (k : Fin 10000) (q : Fin 128), x1 (ix2 k q) = Y (ix2 k q))
    (h2 : ∀ q : Fin 128, x2 (ix2 (0 : Fin 1) q) = B (ix2 (0 : Fin 1) q)) (a : Fin 400) (q : Fin 128) :
    k3_pay1 x0 x1 x2 (ix2 a q) = biasRelu (Host.dotGeneral Dh none A Y) B hrow hz (ix2 (row a) q) := by
  unfold k3_pay1
  refine biasRelu_rows row (Host.dotGeneral Dh none A Y) B _ x2 ?_ h2 _ _ hrow hz a q
  intro a q
  refine dot_rows row dot_S400x10000_S10000x128_S400x128_1_0_0_1_n_n
    (show dot_S400x10000_S10000x128_S400x128_1_0_0_1_n_n = DotDims.plain 400 10000 128 from rfl) Dh hDh A Y _ _ ?_ ?_ a q
  · intro a k
    exact (congrFun (shapeCast_self x0 _) (ix2 a k)).trans (h0 a k)
  · intro k q
    exact (congrFun (shapeCast_self x1 _) (ix2 k q)).trans (h1 k q)

/-! ## The windows' blocks -/

/-- The printed index maps over the 25 points: the adjacency window and the output window sit at block (t, 0), the
    feature window and the bias window at block (0, 0). -/
theorem idxFacts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_4.index t (0 : Fin 2) = t.val ∧ win3_4.index t (1 : Fin 2) = 0 :=
  (by decide +kernel : ∀ t : Fin grid3.N, _)

/-- A point's number is below 25. -/
theorem lt3 (t : Fin cfg3.N) : t.val < 25 := lt_of_lt_of_eq t.isLt N_3

/-- Row a of block t is row 400 t + a of the array. -/
def row3 (t : Fin cfg3.N) (a : Fin 400) : Fin 10000 :=
  ⟨400 * t.val + a.val, by have := lt3 t; have := a.isLt; omega⟩

/-- The adjacency window's block at point t is rows 400 t … 400 t + 399 of its array (a block's coordinate in the
    array is the block index times the block size plus the coordinate inside the block). -/
theorem blk3_0 (c : Dev nD) (t : Fin cfg3.N) (A : FVec Ideal ⟨2, ![10000, 10000]⟩ .f32)
    (hA : ∀ i, V c (Pipeline.arrRef spec3 0) i = A i) (a : Fin 400) (k : Fin 10000) :
    (iblk3 V c 0 t : Vec Ideal S400x10000 .bf16) (ix2 a k) = A (ix2 (row3 t a) k) := by
  obtain ⟨e0, e1, -⟩ := idxFacts3 t
  unfold iblk3
  rw [View.read_apply]
  show V c (Pipeline.arrRef spec3 0) _ = _
  rw [hA]
  refine congrArg A (funext fun d => Fin.ext ?_)
  match d with
  | ⟨0, _⟩ => show win3_0.index t (0 : Fin 2) * 400 + 1 * a.val = 400 * t.val + a.val; omega
  | ⟨1, _⟩ => show win3_0.index t (1 : Fin 2) * 10000 + 1 * k.val = k.val; omega

/-- The feature window's block at every point is its whole array. -/
theorem blk3_1 (c : Dev nD) (t : Fin cfg3.N) (Y : FVec Ideal ⟨2, ![10000, 128]⟩ .f32)
    (hY : ∀ i, V c (Pipeline.arrRef spec3 1) i = Y i) (k : Fin 10000) (q : Fin 128) :
    (iblk3 V c 1 t : Vec Ideal S10000x128 .bf16) (ix2 k q) = Y (ix2 k q) := by
  obtain ⟨-, -, e0, e1, -⟩ := idxFacts3 t
  unfold iblk3
  rw [View.read_apply]
  show V c (Pipeline.arrRef spec3 1) _ = _
  rw [hY]
  refine congrArg Y (funext fun d => Fin.ext ?_)
  match d with
  | ⟨0, _⟩ => show win3_1.index t (0 : Fin 2) * 10000 + 1 * k.val = k.val; omega
  | ⟨1, _⟩ => show win3_1.index t (1 : Fin 2) * 128 + 1 * q.val = q.val; omega

/-- The bias window's block at every point is its whole array, one row. -/
theorem blk3_2 (c : Dev nD) (t : Fin cfg3.N) (B : FVec Ideal ⟨2, ![1, 128]⟩ .f32)
    (hB : ∀ i, V c (Pipeline.arrRef spec3 2) i = B i) (q : Fin 128) :
    (iblk3 V c 2 t : Vec Ideal S1x128 .f32) (ix2 (0 : Fin 1) q) = B (ix2 (0 : Fin 1) q) := by
  obtain ⟨-, -, -, -, e0, e1, -⟩ := idxFacts3 t
  unfold iblk3
  rw [View.read_apply]
  show V c (Pipeline.arrRef spec3 2) _ = _
  rw [hB]
  refine congrArg B (funext fun d => Fin.ext ?_)
  match d with
  | ⟨0, _⟩ => show win3_2.index t (0 : Fin 2) * 1 + 1 * 0 = 0; omega
  | ⟨1, _⟩ => show win3_2.index t (1 : Fin 2) * 128 + 1 * q.val = q.val; omega

/-- Element (a, q) of the output window's block at point t sits at (400 t + a, q) of the output array. -/
theorem emb3_4 (t : Fin cfg3.N) (a : Fin 400) (q : Fin 128) :
    (((cfg3.win 4).blk t).view.emb (ix2 a q) : S10000x128.Idx) = ix2 (row3 t a) q := by
  obtain ⟨-, -, -, -, -, -, e0, e1⟩ := idxFacts3 t
  refine funext fun d => Fin.ext ?_
  match d with
  | ⟨0, _⟩ => show win3_4.index t (0 : Fin 2) * 400 + 1 * a.val = 400 * t.val + a.val; omega
  | ⟨1, _⟩ => show win3_4.index t (1 : Fin 2) * 128 + 1 * q.val = q.val; omega

/-! ## What a point writes back, and the array after the run -/

/-- What point t writes back is block t of  max(A · Y + b, 0). -/
theorem flushed3_4 (c : Dev nD)
    (A : FVec Ideal ⟨2, ![10000, 10000]⟩ .f32) (Y : FVec Ideal ⟨2, ![10000, 128]⟩ .f32) (B : FVec Ideal ⟨2, ![1, 128]⟩ .f32)
    (hA : ∀ i, V c (Pipeline.arrRef spec3 0) i = A i) (hY : ∀ i, V c (Pipeline.arrRef spec3 1) i = Y i)
    (hB : ∀ i, V c (Pipeline.arrRef spec3 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (t : Fin cfg3.N) :
    (dat3 V c).flushed 4 t
      = ((cfg3.win 4).blk t).view.read (Elt Ideal) (biasRelu (Host.dotGeneral Dh none A Y) B hrow hz) := by
  show (cfg3.win 4).cut (grid3.coords t) ((dat3 V c).after 4 t) = _
  rw [after3_4]
  unfold out3_4
  rw [View.canon_unit_zero hz3]
  simp only [View.ld_unit_zero (S := S400x10000) hz3, View.ld_unit_zero (S := S10000x128) hz3,
    View.ld_unit_zero (S := S1x128) hz3]
  have key : ∀ j : S400x128.Idx, k3_pay1 (iblk3 V c 0 t) (iblk3 V c 1 t) (iblk3 V c 2 t) j
      = biasRelu (Host.dotGeneral Dh none A Y) B hrow hz (((cfg3.win 4).blk t).view.emb j) := by
    intro j
    obtain ⟨a, q, rfl⟩ : ∃ (a : Fin 400) (q : Fin 128), j = ix2 a q := ⟨j 0, j 1, eq_ix2 j⟩
    rw [emb3_4]
    exact pay3_rows (row3 t) A Y B Dh hDh hrow hz (iblk3 V c 0 t) (iblk3 V c 1 t) (iblk3 V c 2 t)
      (blk3_0 V c t A hA) (blk3_1 V c t Y hY) (blk3_2 V c t B hB) a q
  exact funext key

/-- An index of the output array is in point t's block iff each coordinate is in the block's range on its axis. -/
theorem mem_blk3 (t : Fin cfg3.N) (i : S10000x128.Idx) :
    i ∈ ((cfg3.win 4).blk t).view.set ↔ ∀ a : Fin 2, win3_4.index t a * S400x128.size a ≤ (i a).val
      ∧ (i a).val < win3_4.index t a * S400x128.size a + S400x128.size a := by
  show i ∈ ((View.whole main_v11).slice (win3_4.rect t)).set ↔ _
  rw [View.set_slice_whole, Rect.mem_set_unit]
  exact Iff.rfl

/-- The blocks cover the array: row r lies in block r / 400. -/
theorem covered3_4 (i : S10000x128.Idx) :
    ∃ t : Fin cfg3.N, (cfg3.win 4).flush t = true ∧ i ∈ ((cfg3.win 4).blk t).view.set := by
  have hi0 : (i 0).val < 10000 := (i 0).isLt
  have hi1 : (i 1).val < 128 := (i 1).isLt
  have hN : cfg3.N = 25 := N_3
  let t : Fin cfg3.N := ⟨(i 0).val / 400, by rw [hN]; omega⟩
  obtain ⟨-, -, -, -, -, -, e0, e1⟩ := idxFacts3 t
  have ht : t.val = (i 0).val / 400 := rfl
  refine ⟨t, flush3_4 t, ?_⟩
  rw [mem_blk3]
  intro a
  match a with
  | ⟨0, _⟩ => show win3_4.index t (0 : Fin 2) * 400 ≤ (i 0).val ∧ (i 0).val < win3_4.index t (0 : Fin 2) * 400 + 400; omega
  | ⟨1, _⟩ => show win3_4.index t (1 : Fin 2) * 128 ≤ (i 1).val ∧ (i 1).val < win3_4.index t (1 : Fin 2) * 128 + 128; omega

/-- The output array after the run is  max(A · Y + b, 0)  of the region's input arrays. -/
theorem final3_4 (c : Dev nD)
    (A : FVec Ideal ⟨2, ![10000, 10000]⟩ .f32) (Y : FVec Ideal ⟨2, ![10000, 128]⟩ .f32) (B : FVec Ideal ⟨2, ![1, 128]⟩ .f32)
    (hA : ∀ i, V c (Pipeline.arrRef spec3 0) i = A i) (hY : ∀ i, V c (Pipeline.arrRef spec3 1) i = Y i)
    (hB : ∀ i, V c (Pipeline.arrRef spec3 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2)) :
    ∀ i, (dat3 (F := Ideal) V c).arrAt 4 cfg3.N i = biasRelu (Host.dotGeneral Dh none A Y) B hrow hz i :=
  fun i => congrFun ((dat3 V c).arrAt_eq_of_cover 4 (biasRelu (Host.dotGeneral Dh none A Y) B hrow hz)
    (fun t _ => flushed3_4 V c A Y B hA hY hB Dh hDh hrow hz t) covered3_4) i

end Cert.KernelIdeal.Hand

end
-- ==== Proof.R4.lean ====
/-
  Region 4: the first layer of the second branch, on the whole arrays.

  The region walks the adjacency in blocks of 200 rows (50 points). At a point it holds one block of rows of the
  adjacency, the whole feature array, the bias row and the next layer's weights, and writes back three blocks of rows:
  the normalised rectified layer, a copy of the adjacency block in the narrower format, and the layer times the next
  weights. Every stage treats rows independently, so the block of point `t` is rows `200·t … 200·t + 199` of the
  host's whole-array value of the arrays the region finds; the blocks of the 50 points cover the 10000 rows, so each
  output array ends at that whole-array value. On the extended reals a change of float format is the identity, so
  the stored copy is the adjacency itself.
-/
import proofs.«102964_g18485539242350_cont_8to1_1494_7_alg».proof.Proof.Gen.KernelIdeal.Frame
import proofs.«102964_g18485539242350_cont_8to1_1494_7_alg».proof.Proof.LibGcnRows

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.LibGcnRows

variable (V : (c : Dev nD) → (b : Ref sig .tc) → Buf (Elt Ideal) ((c : Thread nD τ).loc b))

/-! ## Where the blocks sit -/

theorem hz4 : (![0, 0] : Fin 2 → Nat) = fun _ => 0 := funext fun a => by fin_cases a <;> rfl

/-- The printed index maps over the grid: the row-tiled windows (the adjacency, the two feature outputs and the
    stored copy) are at block (t, 0) at point t, the whole-array windows (features, bias row, next weights) at (0, 0). -/
theorem idxFacts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

theorem tlt4 (t : Fin cfg4.N) : t.val < 50 := lt_of_lt_of_eq t.isLt N_4

/-- Row `a` of the block of point `t` is row `200·t + a` of the array. -/
def row4 (t : Fin cfg4.N) (a : Fin 200) : Fin 10000 :=
  ⟨200 * t.val + a.val, by have := tlt4 t; have := a.isLt; omega⟩

/-- The adjacency's block at point `t`: rows `200·t … 200·t + 199` of the array the region finds. -/
theorem blk4_0 (c : Dev nD) (A : FVec Ideal ⟨2, ![10000, 10000]⟩ .f32)
    (hA : ∀ i, V c (Pipeline.arrRef spec4 0) i = A i) (t : Fin cfg4.N) (a : Fin 200) (k : Fin 10000) :
    (iblk4 V c 0 t : Vec Ideal S200x10000 .f32) (ix2 a k) = A (ix2 (row4 t a) k) := by
  obtain ⟨e0, e1, -⟩ := idxFacts4 t
  unfold iblk4
  rw [View.read_apply]
  show V c (Pipeline.arrRef spec4 0) (((cfg4.win 0).blk t).view.emb (ix2 a k)) = _
  rw [hA]
  refine congrArg A ?_
  funext d; apply Fin.ext
  match d with
  | ⟨0, _⟩ => show win4_0.index t (0 : Fin 2) * 200 + 1 * a.val = 200 * t.val + a.val; rw [e0]; omega
  | ⟨1, _⟩ => show win4_0.index t (1 : Fin 2) * 10000 + 1 * k.val = k.val; rw [e1]; omega

/-- The feature window's block is the whole feature array at every point. -/
theorem blk4_1 (c : Dev nD) (Y : FVec Ideal ⟨2, ![10000, 128]⟩ .f32)
    (hY : ∀ i, V c (Pipeline.arrRef spec4 1) i = Y i) (t : Fin cfg4.N) (k : Fin 10000) (q : Fin 128) :
    (iblk4 V c 1 t : Vec Ideal S10000x128 .bf16) (ix2 k q) = Y (ix2 k q) := by
  obtain ⟨-, -, e0, e1, -⟩ := idxFacts4 t
  unfold iblk4
  rw [View.read_apply]
  show V c (Pipeline.arrRef spec4 1) (((cfg4.win 1).blk t).view.emb (ix2 k q)) = _
  rw [hY]
  refine congrArg Y ?_
  funext d; apply Fin.ext
  match d with
  | ⟨0, _⟩ => show win4_1.index t (0 : Fin 2) * 10000 + 1 * k.val = k.val; rw [e0]; omega
  | ⟨1, _⟩ => show win4_1.index t (1 : Fin 2) * 128 + 1 * q.val = q.val; rw [e1]; omega

/-- The bias window's block is the whole bias row at every point. -/
theorem blk4_2 (c : Dev nD) (B : FVec Ideal ⟨2, ![1, 128]⟩ .f32)
    (hB : ∀ i, V c (Pipeline.arrRef spec4 2) i = B i) (t : Fin cfg4.N) (q : Fin 128) :
    (iblk4 V c 2 t : Vec Ideal S1x128 .f32) (ix2 (0 : Fin 1) q) = B (ix2 (0 : Fin 1) q) := by
  obtain ⟨-, -, -, -, e0, e1, -⟩ := idxFacts4 t
  unfold iblk4
  rw [View.read_apply]
  show V c (Pipeline.arrRef spec4 2) (((cfg4.win 2).blk t).view.emb (ix2 (0 : Fin 1) q)) = _
  rw [hB]
  refine congrArg B ?_
  funext d; apply Fin.ext
  match d with
  | ⟨0, _⟩ => show win4_2.index t (0 : Fin 2) * 1 + 1 * 0 = 0; rw [e0]
  | ⟨1, _⟩ => show win4_2.index t (1 : Fin 2) * 128 + 1 * q.val = q.val; rw [e1]; omega

/-- The next layer's weights: the whole array at every point. -/
theorem blk4_3 (c : Dev nD) (Wn : FVec Ideal ⟨2, ![128, 128]⟩ .f32)
    (hW : ∀ i, V c (Pipeline.arrRef spec4 3) i = Wn i) (t : Fin cfg4.N) (k : Fin 128) (q : Fin 128) :
    (iblk4 V c 3 t : Vec Ideal S128x128 .bf16) (ix2 k q) = Wn (ix2 k q) := by
  obtain ⟨-, -, -, -, -, -, e0, e1, -⟩ := idxFacts4 t
  unfold iblk4
  rw [View.read_apply]
  show V c (Pipeline.arrRef spec4 3) (((cfg4.win 3).blk t).view.emb (ix2 k q)) = _
  rw [hW]
  refine congrArg Wn ?_
  funext d; apply Fin.ext
  match d with
  | ⟨0, _⟩ => show win4_3.index t (0 : Fin 2) * 128 + 1 * k.val = k.val; rw [e0]; omega
  | ⟨1, _⟩ => show win4_3.index t (1 : Fin 2) * 128 + 1 * q.val = q.val; rw [e1]; omega

/-! ## The body's payloads on a block of rows

The body holds a block of rows of the adjacency (row `a` of the block is row `row a` of the array), the whole feature
array, the bias row and the next layer's weights. Its three stored values are, entry by entry: the block of the
adjacency itself (a change of float format is the identity on the extended reals); the same rows of the normalised
rectified layer; and those rows times the next weights. -/

theorem hreduces4 : (⟨2, ![10000, 128]⟩ : Shape).Reduces [(1 : Fin 2)] ⟨1, ![10000]⟩ := by decide

/-- The stored copy of the adjacency block is the adjacency block. -/
theorem pay4_1_rows (row : Fin 200 → Fin 10000) (x0 : Vec Ideal S200x10000 .f32)
    (A : FVec Ideal ⟨2, ![10000, 10000]⟩ .f32) (h0 : ∀ a k, x0 (ix2 a k) = A (ix2 (row a) k)) (a : Fin 200) (k : Fin 10000) :
    k4_pay1 (F := Ideal) x0 (ix2 a k) = A (ix2 (row a) k) := by
  unfold k4_pay1
  show x0 (ix2 a k) = _
  exact h0 a k

/-- The layer on a block of rows: rows `row a` of the host's normalised rectified layer. -/
theorem pay4_2_rows (row : Fin 200 → Fin 10000)
    (x0 : Vec Ideal S200x10000 .f32) (x1 : Vec Ideal S10000x128 .bf16) (x2 : Vec Ideal S1x128 .f32)
    (A : FVec Ideal ⟨2, ![10000, 10000]⟩ .f32) (Y : FVec Ideal ⟨2, ![10000, 128]⟩ .f32) (B : FVec Ideal ⟨2, ![1, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q))
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 200) (q : Fin 128) :
    k4_pay2 (F := Ideal) x0 x1 x2 (ix2 a q) = l2n 0x2B8CBCCC#32 (biasRelu (Host.dotGeneral Dh none A Y) B hrow hz) hred hu hcol hz1 hcb (ix2 (row a) q) := by
  unfold k4_pay2
  dsimp only
  refine l2n_rows 0x2B8CBCCC#32 row (biasRelu (Host.dotGeneral Dh none A Y) B hrow hz) _ (fun a' q' => ?_)
    reduces_S200x128_S200 (.inl rfl) rfl shapeCasts_S200_S200x1 broadcasts_S200x1_S200x128
    hred hu hcol hz1 hcb hreduces4 a q
  refine biasRelu_rows row (Host.dotGeneral Dh none A Y) B _ x2 (fun a'' q'' => ?_) h2
    shapeCasts_S1x128_S1x128 broadcasts_S1x128_S200x128 hrow hz a' q'
  refine dot_rows row dot_S200x10000_S10000x128_S200x128_1_0_0_1_n_n rfl Dh hDh A Y (k4_pay1 x0) _
    (fun r k => pay4_1_rows row x0 A h0 r k) (fun k' b => ?_) a'' q''
  rw [shapeCast_self]
  exact h1 k' b

/-- The projection on a block of rows: rows `row a` of the host's layer times the next weights. -/
theorem pay4_3_rows (row : Fin 200 → Fin 10000)
    (x0 : Vec Ideal S200x10000 .f32) (x1 : Vec Ideal S10000x128 .bf16) (x2 : Vec Ideal S1x128 .f32) (x3 : Vec Ideal S128x128 .bf16)
    (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q)) (h3 : ∀ k q, x3 (ix2 k q) = Wn (ix2 k q))
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 200) (q : Fin 128) :
    k4_pay3 (F := Ideal) x0 x1 x2 x3 (ix2 a q) = Host.dotGeneral Dp none (l2n 0x2B8CBCCC#32 (biasRelu (Host.dotGeneral Dh none A Y) B hrow hz) hred hu hcol hz1 hcb) Wn (ix2 (row a) q) := by
  unfold k4_pay3
  show matmul (F := Ideal) dot_S200x128_S128x128_S200x128_1_0_0_1_n_n none _ _ _ (ix2 a q) = _
  refine dot_rows row dot_S200x128_S128x128_S200x128_1_0_0_1_n_n rfl Dp hDp (l2n 0x2B8CBCCC#32 (biasRelu (Host.dotGeneral Dh none A Y) B hrow hz) hred hu hcol hz1 hcb) Wn _ _
    (fun r k => ?_) (fun k' b => ?_) a q
  · show k4_pay2 (F := Ideal) x0 x1 x2 (ix2 r k) = _
    exact pay4_2_rows row x0 x1 x2 A Y B h0 h1 h2 Dh hDh hrow hz hred hu hcol hz1 hcb r k
  · rw [shapeCast_self]
    exact h3 k' b

/-! ## From blocks to the arrays -/

/-- Point `t` writes back, into the stored copy, block `t` of the adjacency. -/
theorem flushed4_5 (c : Dev nD) (A : FVec Ideal ⟨2, ![10000, 10000]⟩ .f32)
    (hA : ∀ i, V c (Pipeline.arrRef spec4 0) i = A i) (t : Fin cfg4.N) :
    (dat4 (F := Ideal) V c).flushed 5 t = ((cfg4.win 5).blk t).view.read (Elt Ideal) A := by
  show (cfg4.win 5).cut (grid4.coords t) ((dat4 (F := Ideal) V c).after 5 t) = _
  rw [Gen.after4_5]
  unfold Gen.out4_5
  rw [View.canon_unit_zero hz4]
  simp only [View.ld_unit_zero (S := S200x10000) hz4]
  obtain ⟨-, -, -, -, -, -, -, -, -, -, e0, e1, -⟩ := idxFacts4 t
  funext j
  obtain ⟨a, k, rfl⟩ : ∃ (a : Fin 200) (k : Fin 10000), j = ix2 a k := ⟨j 0, j 1, eq_ix2 j⟩
  show k4_pay1 (F := Ideal) (iblk4 V c 0 t) (ix2 a k) = A (((cfg4.win 5).blk t).view.emb (ix2 a k))
  refine (pay4_1_rows (row4 t) (iblk4 V c 0 t) A (fun r k' => blk4_0 V c A hA t r k') a k).trans (congrArg A ?_)
  funext d; apply Fin.ext
  match d with
  | ⟨0, _⟩ => show 200 * t.val + a.val = win4_5.index t (0 : Fin 2) * 200 + 1 * a.val; rw [e0]; omega
  | ⟨1, _⟩ => show k.val = win4_5.index t (1 : Fin 2) * 10000 + 1 * k.val; rw [e1]; omega

/-- An index of the copy is in point `t`'s block iff each coordinate is in the block's range on its axis. -/
theorem mem_blk4_5 (t : Fin cfg4.N) (i : S10000x10000.Idx) :
    i ∈ ((cfg4.win 5).blk t).view.set ↔ ∀ a : Fin 2, win4_5.index t a * S200x10000.size a ≤ (i a).val
      ∧ (i a).val < win4_5.index t a * S200x10000.size a + S200x10000.size a := by
  show i ∈ ((View.whole main_v20_1).slice (win4_5.rect t)).set ↔ _
  rw [View.set_slice_whole, Rect.mem_set_unit]
  exact Iff.rfl

/-- Row `r` of the copy is in the block of point `r / 200`. -/
theorem cover4_5 (i : S10000x10000.Idx) :
    ∃ t : Fin cfg4.N, (cfg4.win 5).flush t = true ∧ i ∈ ((cfg4.win 5).blk t).view.set := by
  have hi0 : (i 0).val < 10000 := (i 0).isLt
  have hi1 : (i 1).val < 10000 := (i 1).isLt
  have hN : (i 0).val / 200 < cfg4.N := by rw [show cfg4.N = 50 from N_4]; omega
  refine ⟨⟨(i 0).val / 200, hN⟩, flush4_5 _, ?_⟩
  obtain ⟨-, -, -, -, -, -, -, -, -, -, e0, e1, -⟩ := idxFacts4 ⟨(i 0).val / 200, hN⟩
  rw [mem_blk4_5]
  intro a
  match a with
  | ⟨0, _⟩ =>
    show win4_5.index ⟨(i 0).val / 200, hN⟩ (0 : Fin 2) * 200 ≤ (i 0).val
      ∧ (i 0).val < win4_5.index ⟨(i 0).val / 200, hN⟩ (0 : Fin 2) * 200 + 200
    rw [e0]; show (i 0).val / 200 * 200 ≤ (i 0).val ∧ (i 0).val < (i 0).val / 200 * 200 + 200; omega
  | ⟨1, _⟩ =>
    show win4_5.index ⟨(i 0).val / 200, hN⟩ (1 : Fin 2) * 10000 ≤ (i 1).val
      ∧ (i 1).val < win4_5.index ⟨(i 0).val / 200, hN⟩ (1 : Fin 2) * 10000 + 10000
    rw [e1]; omega

/-- THE STORED COPY after the region is the adjacency, entry by entry. -/
theorem final4_5 (c : Dev nD) (A : FVec Ideal ⟨2, ![10000, 10000]⟩ .f32)
    (hA : ∀ i, V c (Pipeline.arrRef spec4 0) i = A i) :
    ∀ i, (dat4 (F := Ideal) V c).arrAt 5 cfg4.N i = A i :=
  fun i => congrFun ((dat4 (F := Ideal) V c).arrAt_eq_of_cover 5 A (fun t _ => flushed4_5 V c A hA t) cover4_5) i

/-- Point `t` writes back, into the layer's features, block `t` of the host's whole-array value. -/
theorem flushed4_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec4 0) i = A i) (hY : ∀ i, V c (Pipeline.arrRef spec4 1) i = Y i)
    (hB : ∀ i, V c (Pipeline.arrRef spec4 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) (t : Fin cfg4.N) :
    (dat4 (F := Ideal) V c).flushed 4 t = ((cfg4.win 4).blk t).view.read (Elt Ideal) (l2n 0x2B8CBCCC#32 (biasRelu (Host.dotGeneral Dh none A Y) B hrow hz) hred hu hcol hz1 hcb) := by
  show (cfg4.win 4).cut (grid4.coords t) ((dat4 (F := Ideal) V c).after 4 t) = _
  rw [Gen.after4_4]
  unfold Gen.out4_4
  rw [View.canon_unit_zero hz4]
  simp only [View.ld_unit_zero (S := S200x10000) hz4, View.ld_unit_zero (S := S10000x128) hz4, View.ld_unit_zero (S := S1x128) hz4]
  obtain ⟨-, -, -, -, -, -, -, -, e0, e1, -⟩ := idxFacts4 t
  funext j
  obtain ⟨a, q, rfl⟩ : ∃ (a : Fin 200) (q : Fin 128), j = ix2 a q := ⟨j 0, j 1, eq_ix2 j⟩
  show k4_pay2 (F := Ideal) (iblk4 V c 0 t) (iblk4 V c 1 t) (iblk4 V c 2 t) (ix2 a q)
    = (l2n 0x2B8CBCCC#32 (biasRelu (Host.dotGeneral Dh none A Y) B hrow hz) hred hu hcol hz1 hcb) (((cfg4.win 4).blk t).view.emb (ix2 a q))
  refine (pay4_2_rows (row4 t) (iblk4 V c 0 t) (iblk4 V c 1 t) (iblk4 V c 2 t) A Y B
      (fun r k' => blk4_0 V c A hA t r k') (fun k' q' => blk4_1 V c Y hY t k' q') (fun q' => blk4_2 V c B hB t q')
      Dh hDh hrow hz hred hu hcol hz1 hcb a q).trans (congrArg (l2n 0x2B8CBCCC#32 (biasRelu (Host.dotGeneral Dh none A Y) B hrow hz) hred hu hcol hz1 hcb) ?_)
  funext d; apply Fin.ext
  match d with
  | ⟨0, _⟩ => show 200 * t.val + a.val = win4_4.index t (0 : Fin 2) * 200 + 1 * a.val; rw [e0]; omega
  | ⟨1, _⟩ => show q.val = win4_4.index t (1 : Fin 2) * 128 + 1 * q.val; rw [e1]; omega

/-- An index of the array is in point `t`'s block iff each coordinate is in the block's range on its axis. -/
theorem mem_blk4_4 (t : Fin cfg4.N) (i : S10000x128.Idx) :
    i ∈ ((cfg4.win 4).blk t).view.set ↔ ∀ a : Fin 2, win4_4.index t a * S200x128.size a ≤ (i a).val
      ∧ (i a).val < win4_4.index t a * S200x128.size a + S200x128.size a := by
  show i ∈ ((View.whole main_v20_0).slice (win4_4.rect t)).set ↔ _
  rw [View.set_slice_whole, Rect.mem_set_unit]
  exact Iff.rfl

/-- Row `r` of the array is in the block of point `r / 200`. -/
theorem cover4_4 (i : S10000x128.Idx) :
    ∃ t : Fin cfg4.N, (cfg4.win 4).flush t = true ∧ i ∈ ((cfg4.win 4).blk t).view.set := by
  have hi0 : (i 0).val < 10000 := (i 0).isLt
  have hi1 : (i 1).val < 128 := (i 1).isLt
  have hN : (i 0).val / 200 < cfg4.N := by rw [show cfg4.N = 50 from N_4]; omega
  refine ⟨⟨(i 0).val / 200, hN⟩, flush4_4 _, ?_⟩
  obtain ⟨-, -, -, -, -, -, -, -, e0, e1, -⟩ := idxFacts4 ⟨(i 0).val / 200, hN⟩
  rw [mem_blk4_4]
  intro a
  match a with
  | ⟨0, _⟩ =>
    show win4_4.index ⟨(i 0).val / 200, hN⟩ (0 : Fin 2) * 200 ≤ (i 0).val
      ∧ (i 0).val < win4_4.index ⟨(i 0).val / 200, hN⟩ (0 : Fin 2) * 200 + 200
    rw [e0]; show (i 0).val / 200 * 200 ≤ (i 0).val ∧ (i 0).val < (i 0).val / 200 * 200 + 200; omega
  | ⟨1, _⟩ =>
    show win4_4.index ⟨(i 0).val / 200, hN⟩ (1 : Fin 2) * 128 ≤ (i 1).val
      ∧ (i 1).val < win4_4.index ⟨(i 0).val / 200, hN⟩ (1 : Fin 2) * 128 + 128
    rw [e1]; omega

/-- THE LAYER'S FEATURES after the region: the host's normalised rectified layer of the arrays the region finds. -/
theorem final4_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec4 0) i = A i) (hY : ∀ i, V c (Pipeline.arrRef spec4 1) i = Y i)
    (hB : ∀ i, V c (Pipeline.arrRef spec4 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (dat4 (F := Ideal) V c).arrAt 4 cfg4.N i = l2n 0x2B8CBCCC#32 (biasRelu (Host.dotGeneral Dh none A Y) B hrow hz) hred hu hcol hz1 hcb i :=
  fun i => congrFun ((dat4 (F := Ideal) V c).arrAt_eq_of_cover 4 (l2n 0x2B8CBCCC#32 (biasRelu (Host.dotGeneral Dh none A Y) B hrow hz) hred hu hcol hz1 hcb)
    (fun t _ => flushed4_4 V c A Y B hA hY hB Dh hDh hrow hz hred hu hcol hz1 hcb t) cover4_4) i

/-- Point `t` writes back, into the projected features, block `t` of the host's whole-array value. -/
theorem flushed4_6 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec4 0) i = A i) (hY : ∀ i, V c (Pipeline.arrRef spec4 1) i = Y i)
    (hB : ∀ i, V c (Pipeline.arrRef spec4 2) i = B i)
    (hW : ∀ i, V c (Pipeline.arrRef spec4 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) (t : Fin cfg4.N) :
    (dat4 (F := Ideal) V c).flushed 6 t = ((cfg4.win 6).blk t).view.read (Elt Ideal) (Host.dotGeneral Dp none (l2n 0x2B8CBCCC#32 (biasRelu (Host.dotGeneral Dh none A Y) B hrow hz) hred hu hcol hz1 hcb) Wn) := by
  show (cfg4.win 6).cut (grid4.coords t) ((dat4 (F := Ideal) V c).after 6 t) = _
  rw [Gen.after4_6]
  unfold Gen.out4_6
  rw [View.canon_unit_zero hz4]
  simp only [View.ld_unit_zero (S := S200x10000) hz4, View.ld_unit_zero (S := S10000x128) hz4, View.ld_unit_zero (S := S1x128) hz4, View.ld_unit_zero (S := S128x128) hz4]
  obtain ⟨-, -, -, -, -, -, -, -, -, -, -, -, e0, e1⟩ := idxFacts4 t
  funext j
  obtain ⟨a, q, rfl⟩ : ∃ (a : Fin 200) (q : Fin 128), j = ix2 a q := ⟨j 0, j 1, eq_ix2 j⟩
  show k4_pay3 (F := Ideal) (iblk4 V c 0 t) (iblk4 V c 1 t) (iblk4 V c 2 t) (iblk4 V c 3 t) (ix2 a q)
    = (Host.dotGeneral Dp none (l2n 0x2B8CBCCC#32 (biasRelu (Host.dotGeneral Dh none A Y) B hrow hz) hred hu hcol hz1 hcb) Wn) (((cfg4.win 6).blk t).view.emb (ix2 a q))
  refine (pay4_3_rows (row4 t) (iblk4 V c 0 t) (iblk4 V c 1 t) (iblk4 V c 2 t) (iblk4 V c 3 t) A Y B Wn
      (fun r k' => blk4_0 V c A hA t r k') (fun k' q' => blk4_1 V c Y hY t k' q') (fun q' => blk4_2 V c B hB t q')
      (fun k' q' => blk4_3 V c Wn hW t k' q') Dh hDh Dp hDp hrow hz hred hu hcol hz1 hcb a q).trans (congrArg (Host.dotGeneral Dp none (l2n 0x2B8CBCCC#32 (biasRelu (Host.dotGeneral Dh none A Y) B hrow hz) hred hu hcol hz1 hcb) Wn) ?_)
  funext d; apply Fin.ext
  match d with
  | ⟨0, _⟩ => show 200 * t.val + a.val = win4_6.index t (0 : Fin 2) * 200 + 1 * a.val; rw [e0]; omega
  | ⟨1, _⟩ => show q.val = win4_6.index t (1 : Fin 2) * 128 + 1 * q.val; rw [e1]; omega

/-- An index of the array is in point `t`'s block iff each coordinate is in the block's range on its axis. -/
theorem mem_blk4_6 (t : Fin cfg4.N) (i : S10000x128.Idx) :
    i ∈ ((cfg4.win 6).blk t).view.set ↔ ∀ a : Fin 2, win4_6.index t a * S200x128.size a ≤ (i a).val
      ∧ (i a).val < win4_6.index t a * S200x128.size a + S200x128.size a := by
  show i ∈ ((View.whole main_v20_2).slice (win4_6.rect t)).set ↔ _
  rw [View.set_slice_whole, Rect.mem_set_unit]
  exact Iff.rfl

/-- Row `r` of the array is in the block of point `r / 200`. -/
theorem cover4_6 (i : S10000x128.Idx) :
    ∃ t : Fin cfg4.N, (cfg4.win 6).flush t = true ∧ i ∈ ((cfg4.win 6).blk t).view.set := by
  have hi0 : (i 0).val < 10000 := (i 0).isLt
  have hi1 : (i 1).val < 128 := (i 1).isLt
  have hN : (i 0).val / 200 < cfg4.N := by rw [show cfg4.N = 50 from N_4]; omega
  refine ⟨⟨(i 0).val / 200, hN⟩, flush4_6 _, ?_⟩
  obtain ⟨-, -, -, -, -, -, -, -, -, -, -, -, e0, e1⟩ := idxFacts4 ⟨(i 0).val / 200, hN⟩
  rw [mem_blk4_6]
  intro a
  match a with
  | ⟨0, _⟩ =>
    show win4_6.index ⟨(i 0).val / 200, hN⟩ (0 : Fin 2) * 200 ≤ (i 0).val
      ∧ (i 0).val < win4_6.index ⟨(i 0).val / 200, hN⟩ (0 : Fin 2) * 200 + 200
    rw [e0]; show (i 0).val / 200 * 200 ≤ (i 0).val ∧ (i 0).val < (i 0).val / 200 * 200 + 200; omega
  | ⟨1, _⟩ =>
    show win4_6.index ⟨(i 0).val / 200, hN⟩ (1 : Fin 2) * 128 ≤ (i 1).val
      ∧ (i 1).val < win4_6.index ⟨(i 0).val / 200, hN⟩ (1 : Fin 2) * 128 + 128
    rw [e1]; omega

/-- THE PROJECTED FEATURES after the region: the host's layer times the next weights. -/
theorem final4_6 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec4 0) i = A i) (hY : ∀ i, V c (Pipeline.arrRef spec4 1) i = Y i)
    (hB : ∀ i, V c (Pipeline.arrRef spec4 2) i = B i)
    (hW : ∀ i, V c (Pipeline.arrRef spec4 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (dat4 (F := Ideal) V c).arrAt 6 cfg4.N i = Host.dotGeneral Dp none (l2n 0x2B8CBCCC#32 (biasRelu (Host.dotGeneral Dh none A Y) B hrow hz) hred hu hcol hz1 hcb) Wn i :=
  fun i => congrFun ((dat4 (F := Ideal) V c).arrAt_eq_of_cover 6 (Host.dotGeneral Dp none (l2n 0x2B8CBCCC#32 (biasRelu (Host.dotGeneral Dh none A Y) B hrow hz) hred hu hcol hz1 hcb) Wn)
    (fun t _ => flushed4_6 V c A Y B Wn hA hY hB hW Dh hDh Dp hDp hrow hz hred hu hcol hz1 hcb t) cover4_6) i

end Cert.KernelIdeal.Hand

end
-- ==== Proof.R5.lean ====
/-
  Region 5 (a middle layer of a branch): what the two output arrays hold after the run.

  The region walks 25 grid points; point t holds rows 400·t … 400·t+399 of the adjacency copy, and the whole of the
  feature matrix, the bias row and the next layer's weights. On its block of rows it forms the product with the
  features, adds the bias row, rectifies, divides every row by its Euclidean length (floored at a small constant),
  and — for the second output — multiplies the normalised rows by the next weights. Every one of these stages
  treats rows independently, so the block written at point t is rows 400·t … 400·t+399 of the whole-array stage
  applied to the whole input arrays; the 25 blocks tile the 10000 rows, so each output array ends holding the
  whole-array function of the input arrays.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Idealize.ShloMosaic Idealize.ShloMosaic.ValueIdx Idealize.ShloMosaic.TcCoe Idealize.SL.Sem
open Idealize.ShloMosaic.Pipeline (Dat Cfg Window)
open Cert.LibGcnRows

/-! ## The payloads at an index, on a block of rows -/

/-- The host's sum over the second axis of a [10000,128] array keeps the first axis. -/
theorem hr5 : (⟨2, ![10000, 128]⟩ : Shape).Reduces [(1 : Fin 2)] ⟨1, ![10000]⟩ := by decide

/-- The first payload on a block whose row a is row `row a` of the adjacency, with the whole features and bias:
    rows `row a` of the normalised, rectified, biased product of the whole arrays. The two casts of the operands
    are identities; the four stages chain row by row. -/
theorem pay5_1_rows (row : Fin 400 → Fin 10000)
    (x0 : Vec Ideal S400x10000 .bf16) (x1 : Vec Ideal S10000x128 .bf16) (x2 : Vec Ideal S1x128 .f32)
    (A : FVec Ideal ⟨2, ![10000, 10000]⟩ .f32) (Y : FVec Ideal ⟨2, ![10000, 128]⟩ .f32) (B : FVec Ideal ⟨2, ![1, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q))
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k5_pay1 x0 x1 x2 (ix2 a q) = l2n 0x2B8CBCCC#32 (biasRelu (Host.dotGeneral Dh none A Y) B hrow hz) hred hu hcol hz1 hcb (ix2 (row a) q) := by
  unfold Gen.k5_pay1
  refine l2n_rows 0x2B8CBCCC#32 row (biasRelu (Host.dotGeneral Dh none A Y) B hrow hz) _ (fun a q => ?_)
    Gen.reduces_S400x128_S400 (.inl rfl) rfl Gen.shapeCasts_S400_S400x1 Gen.broadcasts_S400x1_S400x128
    hred hu hcol hz1 hcb hr5 a q
  refine biasRelu_rows row (Host.dotGeneral Dh none A Y) B _ x2 (fun a q => ?_) h2
    Gen.shapeCasts_S1x128_S1x128 Gen.broadcasts_S1x128_S400x128 hrow hz a q
  refine dot_rows row dot_S400x10000_S10000x128_S400x128_1_0_0_1_n_n rfl Dh hDh A Y _ _ (fun a k => ?_) (fun k q => ?_) a q
  · rw [shapeCast_self]; exact h0 a k
  · rw [shapeCast_self]; exact h1 k q

/-- The second payload on such a block, with the whole next weights: rows `row a` of the product of the whole
    normalised array with the weights. The two format changes are identities at the extended reals. -/
theorem pay5_2_rows (row : Fin 400 → Fin 10000)
    (x0 : Vec Ideal S400x10000 .bf16) (x1 : Vec Ideal S10000x128 .bf16) (x2 : Vec Ideal S1x128 .f32)
    (x3 : Vec Ideal S128x128 .bf16)
    (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q)) (h3 : ∀ k q, x3 (ix2 k q) = Wn (ix2 k q))
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k5_pay2 x0 x1 x2 x3 (ix2 a q) = Host.dotGeneral Dp none (l2n 0x2B8CBCCC#32 (biasRelu (Host.dotGeneral Dh none A Y) B hrow hz) hred hu hcol hz1 hcb) Wn (ix2 (row a) q) := by
  unfold Gen.k5_pay2
  refine (truncf_apply (matmul dot_S400x128_S128x128_S400x128_1_0_0_1_n_n none
    (truncf .bf16 (Gen.k5_pay1 x0 x1 x2) Gen.bitsLt_bf16_f32) (shapeCast S128x128 x3 Gen.shapeCasts_S128x128_S128x128)
    (constant (F := Ideal) S400x128 .f32 0x00000000#32)) Gen.bitsLt_bf16_f32 (ix2 a q)).trans ?_
  refine dot_rows row dot_S400x128_S128x128_S400x128_1_0_0_1_n_n rfl Dp hDp (l2n 0x2B8CBCCC#32 (biasRelu (Host.dotGeneral Dh none A Y) B hrow hz) hred hu hcol hz1 hcb) Wn _ _
    (fun a k => ?_) (fun k q => ?_) a q
  · exact (truncf_apply (Gen.k5_pay1 x0 x1 x2) Gen.bitsLt_bf16_f32 (ix2 a k)).trans
      (pay5_1_rows row x0 x1 x2 A Y B h0 h1 h2 Dh hDh hrow hz hred hu hcol hz1 hcb a k)
  · rw [shapeCast_self]; exact h3 k q

/-! ## The index maps, and the blocks the region reads -/

/-- The loads and the store of the body sit at offset zero of their buffers. -/
theorem zoff5 : (![0, 0] : Fin 2 → Nat) = fun _ => 0 := funext fun a => by fin_cases a <;> rfl

/-- The printed index maps, decided once over the 25 points: the row-tiled windows (the adjacency copy and the two
    outputs) are at block (t, 0), the whole-array windows at block (0, 0). -/
theorem idxFacts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- A grid point is one of 25. -/
theorem pt_lt5 (t : Fin cfg5.N) : t.val < 25 := lt_of_lt_of_eq t.isLt Gen.N_5

/-- Row a of the block of point t is row 400·t + a of the array. -/
def row5 (t : Fin cfg5.N) (a : Fin 400) : Fin 10000 :=
  ⟨400 * t.val + a.val, by have ht := pt_lt5 t; have ha := a.isLt; omega⟩

variable (V : (c : Dev nD) → (b : Ref sig .tc) → Buf (Elt Ideal) ((c : Thread nD τ).loc b))

/-- The adjacency window's block at point t is rows 400·t … 400·t+399 of its array (a block's coordinate is block
    index × block size + the coordinate inside the block). -/
theorem blk5_0 (c : Dev nD) (t : Fin cfg5.N) (A : FVec Ideal ⟨2, ![10000, 10000]⟩ .f32)
    (hA : ∀ i, V c (Pipeline.arrRef spec5 0) i = A i) (a : Fin 400) (k : Fin 10000) :
    (Gen.iblk5 V c 0 t : Vec Ideal S400x10000 .bf16) (ix2 a k) = A (ix2 (row5 t a) k) := by
  obtain ⟨e0, e1, -⟩ := idxFacts5 t
  unfold Gen.iblk5
  rw [View.read_apply]
  show V c (Pipeline.arrRef spec5 0) _ = _
  refine (hA _).trans (congrArg A ?_)
  funext d; apply Fin.ext
  match d with
  | ⟨0, _⟩ => show win5_0.index t (0 : Fin 2) * 400 + 1 * a.val = 400 * t.val + a.val; rw [e0]; omega
  | ⟨1, _⟩ => show win5_0.index t (1 : Fin 2) * 10000 + 1 * k.val = k.val; rw [e1]; omega

/-- The features window's block at every point is the whole array. -/
theorem blk5_1 (c : Dev nD) (t : Fin cfg5.N) (Y : FVec Ideal ⟨2, ![10000, 128]⟩ .f32)
    (hY : ∀ i, V c (Pipeline.arrRef spec5 1) i = Y i) (k : Fin 10000) (q : Fin 128) :
    (Gen.iblk5 V c 1 t : Vec Ideal S10000x128 .bf16) (ix2 k q) = Y (ix2 k q) := by
  obtain ⟨-, -, e0, e1, -⟩ := idxFacts5 t
  unfold Gen.iblk5
  rw [View.read_apply]
  show V c (Pipeline.arrRef spec5 1) _ = _
  refine (hY _).trans (congrArg Y ?_)
  funext d; apply Fin.ext
  match d with
  | ⟨0, _⟩ => show win5_1.index t (0 : Fin 2) * 10000 + 1 * k.val = k.val; rw [e0]; omega
  | ⟨1, _⟩ => show win5_1.index t (1 : Fin 2) * 128 + 1 * q.val = q.val; rw [e1]; omega

/-- The bias window's block at every point is the whole row. -/
theorem blk5_2 (c : Dev nD) (t : Fin cfg5.N) (B : FVec Ideal ⟨2, ![1, 128]⟩ .f32)
    (hB : ∀ i, V c (Pipeline.arrRef spec5 2) i = B i) (q : Fin 128) :
    (Gen.iblk5 V c 2 t : Vec Ideal S1x128 .f32) (ix2 (0 : Fin 1) q) = B (ix2 (0 : Fin 1) q) := by
  obtain ⟨-, -, -, -, e0, e1, -⟩ := idxFacts5 t
  unfold Gen.iblk5
  rw [View.read_apply]
  show V c (Pipeline.arrRef spec5 2) _ = _
  refine (hB _).trans (congrArg B ?_)
  funext d; apply Fin.ext
  match d with
  | ⟨0, _⟩ => show win5_2.index t (0 : Fin 2) * 1 + 1 * 0 = 0; rw [e0]
  | ⟨1, _⟩ => show win5_2.index t (1 : Fin 2) * 128 + 1 * q.val = q.val; rw [e1]; omega

/-- The weights window's block at every point is the whole array. -/
theorem blk5_3 (c : Dev nD) (t : Fin cfg5.N) (Wn : FVec Ideal ⟨2, ![128, 128]⟩ .f32)
    (hW : ∀ i, V c (Pipeline.arrRef spec5 3) i = Wn i) (k : Fin 128) (q : Fin 128) :
    (Gen.iblk5 V c 3 t : Vec Ideal S128x128 .bf16) (ix2 k q) = Wn (ix2 k q) := by
  obtain ⟨-, -, -, -, -, -, e0, e1, -⟩ := idxFacts5 t
  unfold Gen.iblk5
  rw [View.read_apply]
  show V c (Pipeline.arrRef spec5 3) _ = _
  refine (hW _).trans (congrArg Wn ?_)
  funext d; apply Fin.ext
  match d with
  | ⟨0, _⟩ => show win5_3.index t (0 : Fin 2) * 128 + 1 * k.val = k.val; rw [e0]; omega
  | ⟨1, _⟩ => show win5_3.index t (1 : Fin 2) * 128 + 1 * q.val = q.val; rw [e1]; omega

/-! ## What each point writes back -/

/-- Point t writes to the first output rows 400·t … 400·t+399 of the whole-array function. -/
theorem flushed5_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec5 0) i = A i) (hY : ∀ i, V c (Pipeline.arrRef spec5 1) i = Y i)
    (hB : ∀ i, V c (Pipeline.arrRef spec5 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg5.N) :
    (Gen.dat5 (F := Ideal) V c).flushed 4 t
      = ((cfg5.win 4).blk t).view.read (Elt Ideal) (l2n 0x2B8CBCCC#32 (biasRelu (Host.dotGeneral Dh none A Y) B hrow hz) hred hu hcol hz1 hcb) := by
  show (cfg5.win 4).cut (grid5.coords t) ((Gen.dat5 V c).after 4 t) = _
  rw [Gen.after5_4]
  unfold Gen.out5_4
  rw [View.canon_unit_zero zoff5]
  simp only [View.ld_unit_zero (S := S400x10000) zoff5, View.ld_unit_zero (S := S10000x128) zoff5,
    View.ld_unit_zero (S := S1x128) zoff5]
  funext j
  obtain ⟨a, q, rfl⟩ : ∃ (a : Fin 400) (q : Fin 128), j = ix2 a q := ⟨j 0, j 1, eq_ix2 j⟩
  refine (pay5_1_rows (row5 t) (Gen.iblk5 V c 0 t) (Gen.iblk5 V c 1 t) (Gen.iblk5 V c 2 t) A Y B
    (fun a k => blk5_0 V c t A hA a k) (fun k q => blk5_1 V c t Y hY k q) (fun q => blk5_2 V c t B hB q)
    Dh hDh hrow hz hred hu hcol hz1 hcb a q).trans ?_
  rw [View.read_apply]
  show (l2n 0x2B8CBCCC#32 (biasRelu (Host.dotGeneral Dh none A Y) B hrow hz) hred hu hcol hz1 hcb) _ = (l2n 0x2B8CBCCC#32 (biasRelu (Host.dotGeneral Dh none A Y) B hrow hz) hred hu hcol hz1 hcb) _
  refine congrArg (l2n 0x2B8CBCCC#32 (biasRelu (Host.dotGeneral Dh none A Y) B hrow hz) hred hu hcol hz1 hcb) ?_
  obtain ⟨-, -, -, -, -, -, -, -, e0, e1, -⟩ := idxFacts5 t
  funext d; apply Fin.ext
  match d with
  | ⟨0, _⟩ => show 400 * t.val + a.val = win5_4.index t (0 : Fin 2) * 400 + 1 * a.val; rw [e0]; omega
  | ⟨1, _⟩ => show q.val = win5_4.index t (1 : Fin 2) * 128 + 1 * q.val; rw [e1]; omega

/-- Point t writes to the second output rows 400·t … 400·t+399 of the whole-array function. -/
theorem flushed5_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec5 0) i = A i) (hY : ∀ i, V c (Pipeline.arrRef spec5 1) i = Y i)
    (hB : ∀ i, V c (Pipeline.arrRef spec5 2) i = B i) (hW : ∀ i, V c (Pipeline.arrRef spec5 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg5.N) :
    (Gen.dat5 (F := Ideal) V c).flushed 5 t
      = ((cfg5.win 5).blk t).view.read (Elt Ideal) (Host.dotGeneral Dp none (l2n 0x2B8CBCCC#32 (biasRelu (Host.dotGeneral Dh none A Y) B hrow hz) hred hu hcol hz1 hcb) Wn) := by
  show (cfg5.win 5).cut (grid5.coords t) ((Gen.dat5 V c).after 5 t) = _
  rw [Gen.after5_5]
  unfold Gen.out5_5
  rw [View.canon_unit_zero zoff5]
  simp only [View.ld_unit_zero (S := S400x10000) zoff5, View.ld_unit_zero (S := S10000x128) zoff5,
    View.ld_unit_zero (S := S1x128) zoff5, View.ld_unit_zero (S := S128x128) zoff5]
  funext j
  obtain ⟨a, q, rfl⟩ : ∃ (a : Fin 400) (q : Fin 128), j = ix2 a q := ⟨j 0, j 1, eq_ix2 j⟩
  refine (pay5_2_rows (row5 t) (Gen.iblk5 V c 0 t) (Gen.iblk5 V c 1 t) (Gen.iblk5 V c 2 t)
    (Gen.iblk5 V c 3 t) A Y B Wn
    (fun a k => blk5_0 V c t A hA a k) (fun k q => blk5_1 V c t Y hY k q) (fun q => blk5_2 V c t B hB q)
    (fun k q => blk5_3 V c t Wn hW k q)
    Dh hDh Dp hDp hrow hz hred hu hcol hz1 hcb a q).trans ?_
  rw [View.read_apply]
  show (Host.dotGeneral Dp none (l2n 0x2B8CBCCC#32 (biasRelu (Host.dotGeneral Dh none A Y) B hrow hz) hred hu hcol hz1 hcb) Wn) _ = (Host.dotGeneral Dp none (l2n 0x2B8CBCCC#32 (biasRelu (Host.dotGeneral Dh none A Y) B hrow hz) hred hu hcol hz1 hcb) Wn) _
  refine congrArg (Host.dotGeneral Dp none (l2n 0x2B8CBCCC#32 (biasRelu (Host.dotGeneral Dh none A Y) B hrow hz) hred hu hcol hz1 hcb) Wn) ?_
  obtain ⟨-, -, -, -, -, -, -, -, -, -, e0, e1⟩ := idxFacts5 t
  funext d; apply Fin.ext
  match d with
  | ⟨0, _⟩ => show 400 * t.val + a.val = win5_5.index t (0 : Fin 2) * 400 + 1 * a.val; rw [e0]; omega
  | ⟨1, _⟩ => show q.val = win5_5.index t (1 : Fin 2) * 128 + 1 * q.val; rw [e1]; omega

/-! ## The blocks tile the rows -/

/-- An index of the first output array is in point t's block iff each coordinate is in the block's range. -/
theorem mem_blk5_4 (t : Fin cfg5.N) (i : S10000x128.Idx) :
    i ∈ ((cfg5.win 4).blk t).view.set ↔ ∀ a : Fin 2, win5_4.index t a * S400x128.size a ≤ (i a).val
      ∧ (i a).val < win5_4.index t a * S400x128.size a + S400x128.size a := by
  show i ∈ ((View.whole main_v21_0).slice (win5_4.rect t)).set ↔ _
  rw [View.set_slice_whole, Rect.mem_set_unit]
  exact Iff.rfl

/-- The same for the second output array. -/
theorem mem_blk5_5 (t : Fin cfg5.N) (i : S10000x128.Idx) :
    i ∈ ((cfg5.win 5).blk t).view.set ↔ ∀ a : Fin 2, win5_5.index t a * S400x128.size a ≤ (i a).val
      ∧ (i a).val < win5_5.index t a * S400x128.size a + S400x128.size a := by
  show i ∈ ((View.whole main_v21_1).slice (win5_5.rect t)).set ↔ _
  rw [View.set_slice_whole, Rect.mem_set_unit]
  exact Iff.rfl

/-- Row r of the first output is in the block of point r / 400, and every point writes back. -/
theorem covered5_4 (i : S10000x128.Idx) :
    ∃ t : Fin cfg5.N, (cfg5.win 4).flush t = true ∧ i ∈ ((cfg5.win 4).blk t).view.set := by
  have hi0 : (i 0).val < 10000 := (i 0).isLt
  have hi1 : (i 1).val < 128 := (i 1).isLt
  obtain ⟨t, ht⟩ : ∃ t : Fin cfg5.N, t.val = (i 0).val / 400 :=
    ⟨⟨(i 0).val / 400, by rw [show cfg5.N = 25 from Gen.N_5]; omega⟩, rfl⟩
  obtain ⟨-, -, -, -, -, -, -, -, e0, e1, -⟩ := idxFacts5 t
  refine ⟨t, Gen.flush5_4 t, ?_⟩
  rw [mem_blk5_4]
  intro a
  match a with
  | ⟨0, _⟩ =>
    show win5_4.index t (0 : Fin 2) * 400 ≤ (i 0).val ∧ (i 0).val < win5_4.index t (0 : Fin 2) * 400 + 400
    rw [e0, ht]; omega
  | ⟨1, _⟩ =>
    show win5_4.index t (1 : Fin 2) * 128 ≤ (i 1).val ∧ (i 1).val < win5_4.index t (1 : Fin 2) * 128 + 128
    rw [e1]; omega

/-- The same for the second output. -/
theorem covered5_5 (i : S10000x128.Idx) :
    ∃ t : Fin cfg5.N, (cfg5.win 5).flush t = true ∧ i ∈ ((cfg5.win 5).blk t).view.set := by
  have hi0 : (i 0).val < 10000 := (i 0).isLt
  have hi1 : (i 1).val < 128 := (i 1).isLt
  obtain ⟨t, ht⟩ : ∃ t : Fin cfg5.N, t.val = (i 0).val / 400 :=
    ⟨⟨(i 0).val / 400, by rw [show cfg5.N = 25 from Gen.N_5]; omega⟩, rfl⟩
  obtain ⟨-, -, -, -, -, -, -, -, -, -, e0, e1⟩ := idxFacts5 t
  refine ⟨t, Gen.flush5_5 t, ?_⟩
  rw [mem_blk5_5]
  intro a
  match a with
  | ⟨0, _⟩ =>
    show win5_5.index t (0 : Fin 2) * 400 ≤ (i 0).val ∧ (i 0).val < win5_5.index t (0 : Fin 2) * 400 + 400
    rw [e0, ht]; omega
  | ⟨1, _⟩ =>
    show win5_5.index t (1 : Fin 2) * 128 ≤ (i 1).val ∧ (i 1).val < win5_5.index t (1 : Fin 2) * 128 + 128
    rw [e1]; omega

/-! ## The arrays after the run -/

/-- The first output array ends holding the normalised, rectified, biased product of the whole input arrays. -/
theorem final5_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec5 0) i = A i) (hY : ∀ i, V c (Pipeline.arrRef spec5 1) i = Y i)
    (hB : ∀ i, V c (Pipeline.arrRef spec5 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat5 (F := Ideal) V c).arrAt 4 cfg5.N i = l2n 0x2B8CBCCC#32 (biasRelu (Host.dotGeneral Dh none A Y) B hrow hz) hred hu hcol hz1 hcb i :=
  fun i => congrFun ((Gen.dat5 (F := Ideal) V c).arrAt_eq_of_cover 4 (l2n 0x2B8CBCCC#32 (biasRelu (Host.dotGeneral Dh none A Y) B hrow hz) hred hu hcol hz1 hcb)
    (fun t _ => flushed5_4 V c A Y B hA hY hB Dh hDh hrow hz hred hu hcol hz1 hcb t) covered5_4) i

/-- The second output array ends holding that array multiplied by the next layer's weights. -/
theorem final5_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec5 0) i = A i) (hY : ∀ i, V c (Pipeline.arrRef spec5 1) i = Y i)
    (hB : ∀ i, V c (Pipeline.arrRef spec5 2) i = B i) (hW : ∀ i, V c (Pipeline.arrRef spec5 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat5 (F := Ideal) V c).arrAt 5 cfg5.N i = Host.dotGeneral Dp none (l2n 0x2B8CBCCC#32 (biasRelu (Host.dotGeneral Dh none A Y) B hrow hz) hred hu hcol hz1 hcb) Wn i :=
  fun i => congrFun ((Gen.dat5 (F := Ideal) V c).arrAt_eq_of_cover 5 (Host.dotGeneral Dp none (l2n 0x2B8CBCCC#32 (biasRelu (Host.dotGeneral Dh none A Y) B hrow hz) hred hu hcol hz1 hcb) Wn)
    (fun t _ => flushed5_5 V c A Y B Wn hA hY hB hW Dh hDh Dp hDp hrow hz hred hu hcol hz1 hcb t) covered5_5) i

end Cert.KernelIdeal.Hand

end
-- ==== Proof.R6.lean ====
/-
  Region 6 (a middle layer of a branch): what the two output arrays hold after the run.

  The region walks 25 grid points; point t holds rows 400·t … 400·t+399 of the adjacency copy, and the whole of the
  feature matrix, the bias row and the next layer's weights. On its block of rows it forms the product with the
  features, adds the bias row, rectifies, divides every row by its Euclidean length (floored at a small constant),
  and — for the second output — multiplies the normalised rows by the next weights. Every one of these stages
  treats rows independently, so the block written at point t is rows 400·t … 400·t+399 of the whole-array stage
  applied to the whole input arrays; the 25 blocks tile the 10000 rows, so each output array ends holding the
  whole-array function of the input arrays.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Idealize.ShloMosaic Idealize.ShloMosaic.ValueIdx Idealize.ShloMosaic.TcCoe Idealize.SL.Sem
open Idealize.ShloMosaic.Pipeline (Dat Cfg Window)
open Cert.LibGcnRows

/-! ## The payloads at an index, on a block of rows -/

/-- The host's sum over the second axis of a [10000,128] array keeps the first axis. -/
theorem hr6 : (⟨2, ![10000, 128]⟩ : Shape).Reduces [(1 : Fin 2)] ⟨1, ![10000]⟩ := by decide

/-- The first payload on a block whose row a is row `row a` of the adjacency, with the whole features and bias:
    rows `row a` of the normalised, rectified, biased product of the whole arrays. The two casts of the operands
    are identities; the four stages chain row by row. -/
theorem pay6_1_rows (row : Fin 400 → Fin 10000)
    (x0 : Vec Ideal S400x10000 .bf16) (x1 : Vec Ideal S10000x128 .bf16) (x2 : Vec Ideal S1x128 .f32)
    (A : FVec Ideal ⟨2, ![10000, 10000]⟩ .f32) (Y : FVec Ideal ⟨2, ![10000, 128]⟩ .f32) (B : FVec Ideal ⟨2, ![1, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q))
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k6_pay1 x0 x1 x2 (ix2 a q) = l2n 0x2B8CBCCC#32 (biasRelu (Host.dotGeneral Dh none A Y) B hrow hz) hred hu hcol hz1 hcb (ix2 (row a) q) := by
  unfold Gen.k6_pay1
  refine l2n_rows 0x2B8CBCCC#32 row (biasRelu (Host.dotGeneral Dh none A Y) B hrow hz) _ (fun a q => ?_)
    Gen.reduces_S400x128_S400 (.inl rfl) rfl Gen.shapeCasts_S400_S400x1 Gen.broadcasts_S400x1_S400x128
    hred hu hcol hz1 hcb hr6 a q
  refine biasRelu_rows row (Host.dotGeneral Dh none A Y) B _ x2 (fun a q => ?_) h2
    Gen.shapeCasts_S1x128_S1x128 Gen.broadcasts_S1x128_S400x128 hrow hz a q
  refine dot_rows row dot_S400x10000_S10000x128_S400x128_1_0_0_1_n_n rfl Dh hDh A Y _ _ (fun a k => ?_) (fun k q => ?_) a q
  · rw [shapeCast_self]; exact h0 a k
  · rw [shapeCast_self]; exact h1 k q

/-- The second payload on such a block, with the whole next weights: rows `row a` of the product of the whole
    normalised array with the weights. The two format changes are identities at the extended reals. -/
theorem pay6_2_rows (row : Fin 400 → Fin 10000)
    (x0 : Vec Ideal S400x10000 .bf16) (x1 : Vec Ideal S10000x128 .bf16) (x2 : Vec Ideal S1x128 .f32)
    (x3 : Vec Ideal S128x128 .bf16)
    (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (h0 : ∀ a k, x0 (ix2 a k) = A (ix2 (row a) k)) (h1 : ∀ k q, x1 (ix2 k q) = Y (ix2 k q))
    (h2 : ∀ q, x2 (ix2 (0 : Fin 1) q) = B (ix2 (0 : Fin 1) q)) (h3 : ∀ k q, x3 (ix2 k q) = Wn (ix2 k q))
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (a : Fin 400) (q : Fin 128) :
    Gen.k6_pay2 x0 x1 x2 x3 (ix2 a q) = Host.dotGeneral Dp none (l2n 0x2B8CBCCC#32 (biasRelu (Host.dotGeneral Dh none A Y) B hrow hz) hred hu hcol hz1 hcb) Wn (ix2 (row a) q) := by
  unfold Gen.k6_pay2
  refine (truncf_apply (matmul dot_S400x128_S128x128_S400x128_1_0_0_1_n_n none
    (truncf .bf16 (Gen.k6_pay1 x0 x1 x2) Gen.bitsLt_bf16_f32) (shapeCast S128x128 x3 Gen.shapeCasts_S128x128_S128x128)
    (constant (F := Ideal) S400x128 .f32 0x00000000#32)) Gen.bitsLt_bf16_f32 (ix2 a q)).trans ?_
  refine dot_rows row dot_S400x128_S128x128_S400x128_1_0_0_1_n_n rfl Dp hDp (l2n 0x2B8CBCCC#32 (biasRelu (Host.dotGeneral Dh none A Y) B hrow hz) hred hu hcol hz1 hcb) Wn _ _
    (fun a k => ?_) (fun k q => ?_) a q
  · exact (truncf_apply (Gen.k6_pay1 x0 x1 x2) Gen.bitsLt_bf16_f32 (ix2 a k)).trans
      (pay6_1_rows row x0 x1 x2 A Y B h0 h1 h2 Dh hDh hrow hz hred hu hcol hz1 hcb a k)
  · rw [shapeCast_self]; exact h3 k q

/-! ## The index maps, and the blocks the region reads -/

/-- The loads and the store of the body sit at offset zero of their buffers. -/
theorem zoff6 : (![0, 0] : Fin 2 → Nat) = fun _ => 0 := funext fun a => by fin_cases a <;> rfl

/-- The printed index maps, decided once over the 25 points: the row-tiled windows (the adjacency copy and the two
    outputs) are at block (t, 0), the whole-array windows at block (0, 0). -/
theorem idxFacts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- A grid point is one of 25. -/
theorem pt_lt6 (t : Fin cfg6.N) : t.val < 25 := lt_of_lt_of_eq t.isLt Gen.N_6

/-- Row a of the block of point t is row 400·t + a of the array. -/
def row6 (t : Fin cfg6.N) (a : Fin 400) : Fin 10000 :=
  ⟨400 * t.val + a.val, by have ht := pt_lt6 t; have ha := a.isLt; omega⟩

variable (V : (c : Dev nD) → (b : Ref sig .tc) → Buf (Elt Ideal) ((c : Thread nD τ).loc b))

/-- The adjacency window's block at point t is rows 400·t … 400·t+399 of its array (a block's coordinate is block
    index × block size + the coordinate inside the block). -/
theorem blk6_0 (c : Dev nD) (t : Fin cfg6.N) (A : FVec Ideal ⟨2, ![10000, 10000]⟩ .f32)
    (hA : ∀ i, V c (Pipeline.arrRef spec6 0) i = A i) (a : Fin 400) (k : Fin 10000) :
    (Gen.iblk6 V c 0 t : Vec Ideal S400x10000 .bf16) (ix2 a k) = A (ix2 (row6 t a) k) := by
  obtain ⟨e0, e1, -⟩ := idxFacts6 t
  unfold Gen.iblk6
  rw [View.read_apply]
  show V c (Pipeline.arrRef spec6 0) _ = _
  refine (hA _).trans (congrArg A ?_)
  funext d; apply Fin.ext
  match d with
  | ⟨0, _⟩ => show win6_0.index t (0 : Fin 2) * 400 + 1 * a.val = 400 * t.val + a.val; rw [e0]; omega
  | ⟨1, _⟩ => show win6_0.index t (1 : Fin 2) * 10000 + 1 * k.val = k.val; rw [e1]; omega

/-- The features window's block at every point is the whole array. -/
theorem blk6_1 (c : Dev nD) (t : Fin cfg6.N) (Y : FVec Ideal ⟨2, ![10000, 128]⟩ .f32)
    (hY : ∀ i, V c (Pipeline.arrRef spec6 1) i = Y i) (k : Fin 10000) (q : Fin 128) :
    (Gen.iblk6 V c 1 t : Vec Ideal S10000x128 .bf16) (ix2 k q) = Y (ix2 k q) := by
  obtain ⟨-, -, e0, e1, -⟩ := idxFacts6 t
  unfold Gen.iblk6
  rw [View.read_apply]
  show V c (Pipeline.arrRef spec6 1) _ = _
  refine (hY _).trans (congrArg Y ?_)
  funext d; apply Fin.ext
  match d with
  | ⟨0, _⟩ => show win6_1.index t (0 : Fin 2) * 10000 + 1 * k.val = k.val; rw [e0]; omega
  | ⟨1, _⟩ => show win6_1.index t (1 : Fin 2) * 128 + 1 * q.val = q.val; rw [e1]; omega

/-- The bias window's block at every point is the whole row. -/
theorem blk6_2 (c : Dev nD) (t : Fin cfg6.N) (B : FVec Ideal ⟨2, ![1, 128]⟩ .f32)
    (hB : ∀ i, V c (Pipeline.arrRef spec6 2) i = B i) (q : Fin 128) :
    (Gen.iblk6 V c 2 t : Vec Ideal S1x128 .f32) (ix2 (0 : Fin 1) q) = B (ix2 (0 : Fin 1) q) := by
  obtain ⟨-, -, -, -, e0, e1, -⟩ := idxFacts6 t
  unfold Gen.iblk6
  rw [View.read_apply]
  show V c (Pipeline.arrRef spec6 2) _ = _
  refine (hB _).trans (congrArg B ?_)
  funext d; apply Fin.ext
  match d with
  | ⟨0, _⟩ => show win6_2.index t (0 : Fin 2) * 1 + 1 * 0 = 0; rw [e0]
  | ⟨1, _⟩ => show win6_2.index t (1 : Fin 2) * 128 + 1 * q.val = q.val; rw [e1]; omega

/-- The weights window's block at every point is the whole array. -/
theorem blk6_3 (c : Dev nD) (t : Fin cfg6.N) (Wn : FVec Ideal ⟨2, ![128, 128]⟩ .f32)
    (hW : ∀ i, V c (Pipeline.arrRef spec6 3) i = Wn i) (k : Fin 128) (q : Fin 128) :
    (Gen.iblk6 V c 3 t : Vec Ideal S128x128 .bf16) (ix2 k q) = Wn (ix2 k q) := by
  obtain ⟨-, -, -, -, -, -, e0, e1, -⟩ := idxFacts6 t
  unfold Gen.iblk6
  rw [View.read_apply]
  show V c (Pipeline.arrRef spec6 3) _ = _
  refine (hW _).trans (congrArg Wn ?_)
  funext d; apply Fin.ext
  match d with
  | ⟨0, _⟩ => show win6_3.index t (0 : Fin 2) * 128 + 1 * k.val = k.val; rw [e0]; omega
  | ⟨1, _⟩ => show win6_3.index t (1 : Fin 2) * 128 + 1 * q.val = q.val; rw [e1]; omega

/-! ## What each point writes back -/

/-- Point t writes to the first output rows 400·t … 400·t+399 of the whole-array function. -/
theorem flushed6_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec6 0) i = A i) (hY : ∀ i, V c (Pipeline.arrRef spec6 1) i = Y i)
    (hB : ∀ i, V c (Pipeline.arrRef spec6 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg6.N) :
    (Gen.dat6 (F := Ideal) V c).flushed 4 t
      = ((cfg6.win 4).blk t).view.read (Elt Ideal) (l2n 0x2B8CBCCC#32 (biasRelu (Host.dotGeneral Dh none A Y) B hrow hz) hred hu hcol hz1 hcb) := by
  show (cfg6.win 4).cut (grid6.coords t) ((Gen.dat6 V c).after 4 t) = _
  rw [Gen.after6_4]
  unfold Gen.out6_4
  rw [View.canon_unit_zero zoff6]
  simp only [View.ld_unit_zero (S := S400x10000) zoff6, View.ld_unit_zero (S := S10000x128) zoff6,
    View.ld_unit_zero (S := S1x128) zoff6]
  funext j
  obtain ⟨a, q, rfl⟩ : ∃ (a : Fin 400) (q : Fin 128), j = ix2 a q := ⟨j 0, j 1, eq_ix2 j⟩
  refine (pay6_1_rows (row6 t) (Gen.iblk6 V c 0 t) (Gen.iblk6 V c 1 t) (Gen.iblk6 V c 2 t) A Y B
    (fun a k => blk6_0 V c t A hA a k) (fun k q => blk6_1 V c t Y hY k q) (fun q => blk6_2 V c t B hB q)
    Dh hDh hrow hz hred hu hcol hz1 hcb a q).trans ?_
  rw [View.read_apply]
  show (l2n 0x2B8CBCCC#32 (biasRelu (Host.dotGeneral Dh none A Y) B hrow hz) hred hu hcol hz1 hcb) _ = (l2n 0x2B8CBCCC#32 (biasRelu (Host.dotGeneral Dh none A Y) B hrow hz) hred hu hcol hz1 hcb) _
  refine congrArg (l2n 0x2B8CBCCC#32 (biasRelu (Host.dotGeneral Dh none A Y) B hrow hz) hred hu hcol hz1 hcb) ?_
  obtain ⟨-, -, -, -, -, -, -, -, e0, e1, -⟩ := idxFacts6 t
  funext d; apply Fin.ext
  match d with
  | ⟨0, _⟩ => show 400 * t.val + a.val = win6_4.index t (0 : Fin 2) * 400 + 1 * a.val; rw [e0]; omega
  | ⟨1, _⟩ => show q.val = win6_4.index t (1 : Fin 2) * 128 + 1 * q.val; rw [e1]; omega

/-- Point t writes to the second output rows 400·t … 400·t+399 of the whole-array function. -/
theorem flushed6_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec6 0) i = A i) (hY : ∀ i, V c (Pipeline.arrRef spec6 1) i = Y i)
    (hB : ∀ i, V c (Pipeline.arrRef spec6 2) i = B i) (hW : ∀ i, V c (Pipeline.arrRef spec6 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2))
    (t : Fin cfg6.N) :
    (Gen.dat6 (F := Ideal) V c).flushed 5 t
      = ((cfg6.win 5).blk t).view.read (Elt Ideal) (Host.dotGeneral Dp none (l2n 0x2B8CBCCC#32 (biasRelu (Host.dotGeneral Dh none A Y) B hrow hz) hred hu hcol hz1 hcb) Wn) := by
  show (cfg6.win 5).cut (grid6.coords t) ((Gen.dat6 V c).after 5 t) = _
  rw [Gen.after6_5]
  unfold Gen.out6_5
  rw [View.canon_unit_zero zoff6]
  simp only [View.ld_unit_zero (S := S400x10000) zoff6, View.ld_unit_zero (S := S10000x128) zoff6,
    View.ld_unit_zero (S := S1x128) zoff6, View.ld_unit_zero (S := S128x128) zoff6]
  funext j
  obtain ⟨a, q, rfl⟩ : ∃ (a : Fin 400) (q : Fin 128), j = ix2 a q := ⟨j 0, j 1, eq_ix2 j⟩
  refine (pay6_2_rows (row6 t) (Gen.iblk6 V c 0 t) (Gen.iblk6 V c 1 t) (Gen.iblk6 V c 2 t)
    (Gen.iblk6 V c 3 t) A Y B Wn
    (fun a k => blk6_0 V c t A hA a k) (fun k q => blk6_1 V c t Y hY k q) (fun q => blk6_2 V c t B hB q)
    (fun k q => blk6_3 V c t Wn hW k q)
    Dh hDh Dp hDp hrow hz hred hu hcol hz1 hcb a q).trans ?_
  rw [View.read_apply]
  show (Host.dotGeneral Dp none (l2n 0x2B8CBCCC#32 (biasRelu (Host.dotGeneral Dh none A Y) B hrow hz) hred hu hcol hz1 hcb) Wn) _ = (Host.dotGeneral Dp none (l2n 0x2B8CBCCC#32 (biasRelu (Host.dotGeneral Dh none A Y) B hrow hz) hred hu hcol hz1 hcb) Wn) _
  refine congrArg (Host.dotGeneral Dp none (l2n 0x2B8CBCCC#32 (biasRelu (Host.dotGeneral Dh none A Y) B hrow hz) hred hu hcol hz1 hcb) Wn) ?_
  obtain ⟨-, -, -, -, -, -, -, -, -, -, e0, e1⟩ := idxFacts6 t
  funext d; apply Fin.ext
  match d with
  | ⟨0, _⟩ => show 400 * t.val + a.val = win6_5.index t (0 : Fin 2) * 400 + 1 * a.val; rw [e0]; omega
  | ⟨1, _⟩ => show q.val = win6_5.index t (1 : Fin 2) * 128 + 1 * q.val; rw [e1]; omega

/-! ## The blocks tile the rows -/

/-- An index of the first output array is in point t's block iff each coordinate is in the block's range. -/
theorem mem_blk6_4 (t : Fin cfg6.N) (i : S10000x128.Idx) :
    i ∈ ((cfg6.win 4).blk t).view.set ↔ ∀ a : Fin 2, win6_4.index t a * S400x128.size a ≤ (i a).val
      ∧ (i a).val < win6_4.index t a * S400x128.size a + S400x128.size a := by
  show i ∈ ((View.whole main_v22_0).slice (win6_4.rect t)).set ↔ _
  rw [View.set_slice_whole, Rect.mem_set_unit]
  exact Iff.rfl

/-- The same for the second output array. -/
theorem mem_blk6_5 (t : Fin cfg6.N) (i : S10000x128.Idx) :
    i ∈ ((cfg6.win 5).blk t).view.set ↔ ∀ a : Fin 2, win6_5.index t a * S400x128.size a ≤ (i a).val
      ∧ (i a).val < win6_5.index t a * S400x128.size a + S400x128.size a := by
  show i ∈ ((View.whole main_v22_1).slice (win6_5.rect t)).set ↔ _
  rw [View.set_slice_whole, Rect.mem_set_unit]
  exact Iff.rfl

/-- Row r of the first output is in the block of point r / 400, and every point writes back. -/
theorem covered6_4 (i : S10000x128.Idx) :
    ∃ t : Fin cfg6.N, (cfg6.win 4).flush t = true ∧ i ∈ ((cfg6.win 4).blk t).view.set := by
  have hi0 : (i 0).val < 10000 := (i 0).isLt
  have hi1 : (i 1).val < 128 := (i 1).isLt
  obtain ⟨t, ht⟩ : ∃ t : Fin cfg6.N, t.val = (i 0).val / 400 :=
    ⟨⟨(i 0).val / 400, by rw [show cfg6.N = 25 from Gen.N_6]; omega⟩, rfl⟩
  obtain ⟨-, -, -, -, -, -, -, -, e0, e1, -⟩ := idxFacts6 t
  refine ⟨t, Gen.flush6_4 t, ?_⟩
  rw [mem_blk6_4]
  intro a
  match a with
  | ⟨0, _⟩ =>
    show win6_4.index t (0 : Fin 2) * 400 ≤ (i 0).val ∧ (i 0).val < win6_4.index t (0 : Fin 2) * 400 + 400
    rw [e0, ht]; omega
  | ⟨1, _⟩ =>
    show win6_4.index t (1 : Fin 2) * 128 ≤ (i 1).val ∧ (i 1).val < win6_4.index t (1 : Fin 2) * 128 + 128
    rw [e1]; omega

/-- The same for the second output. -/
theorem covered6_5 (i : S10000x128.Idx) :
    ∃ t : Fin cfg6.N, (cfg6.win 5).flush t = true ∧ i ∈ ((cfg6.win 5).blk t).view.set := by
  have hi0 : (i 0).val < 10000 := (i 0).isLt
  have hi1 : (i 1).val < 128 := (i 1).isLt
  obtain ⟨t, ht⟩ : ∃ t : Fin cfg6.N, t.val = (i 0).val / 400 :=
    ⟨⟨(i 0).val / 400, by rw [show cfg6.N = 25 from Gen.N_6]; omega⟩, rfl⟩
  obtain ⟨-, -, -, -, -, -, -, -, -, -, e0, e1⟩ := idxFacts6 t
  refine ⟨t, Gen.flush6_5 t, ?_⟩
  rw [mem_blk6_5]
  intro a
  match a with
  | ⟨0, _⟩ =>
    show win6_5.index t (0 : Fin 2) * 400 ≤ (i 0).val ∧ (i 0).val < win6_5.index t (0 : Fin 2) * 400 + 400
    rw [e0, ht]; omega
  | ⟨1, _⟩ =>
    show win6_5.index t (1 : Fin 2) * 128 ≤ (i 1).val ∧ (i 1).val < win6_5.index t (1 : Fin 2) * 128 + 128
    rw [e1]; omega

/-! ## The arrays after the run -/

/-- The first output array ends holding the normalised, rectified, biased product of the whole input arrays. -/
theorem final6_4 (c : Dev nD) (A : FVec Ideal ⟨2, ![10000, 10000]⟩ .f32) (Y : FVec Ideal ⟨2, ![10000, 128]⟩ .f32) (B : FVec Ideal ⟨2, ![1, 128]⟩ .f32)
    (hA : ∀ i, V c (Pipeline.arrRef spec6 0) i = A i) (hY : ∀ i, V c (Pipeline.arrRef spec6 1) i = Y i)
    (hB : ∀ i, V c (Pipeline.arrRef spec6 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat6 (F := Ideal) V c).arrAt 4 cfg6.N i = l2n 0x2B8CBCCC#32 (biasRelu (Host.dotGeneral Dh none A Y) B hrow hz) hred hu hcol hz1 hcb i :=
  fun i => congrFun ((Gen.dat6 (F := Ideal) V c).arrAt_eq_of_cover 4 (l2n 0x2B8CBCCC#32 (biasRelu (Host.dotGeneral Dh none A Y) B hrow hz) hred hu hcol hz1 hcb)
    (fun t _ => flushed6_4 V c A Y B hA hY hB Dh hDh hrow hz hred hu hcol hz1 hcb t) covered6_4) i

/-- The second output array ends holding that array multiplied by the next layer's weights. -/
theorem final6_5 (c : Dev nD) (A : FVec Ideal ⟨2, ![10000, 10000]⟩ .f32) (Y : FVec Ideal ⟨2, ![10000, 128]⟩ .f32) (B : FVec Ideal ⟨2, ![1, 128]⟩ .f32) (Wn : FVec Ideal ⟨2, ![128, 128]⟩ .f32)
    (hA : ∀ i, V c (Pipeline.arrRef spec6 0) i = A i) (hY : ∀ i, V c (Pipeline.arrRef spec6 1) i = Y i)
    (hB : ∀ i, V c (Pipeline.arrRef spec6 2) i = B i) (hW : ∀ i, V c (Pipeline.arrRef spec6 3) i = Wn i)
    (Dh : DotDims ⟨2, ![10000, 10000]⟩ ⟨2, ![10000, 128]⟩ ⟨2, ![10000, 128]⟩) (hDh : Dh = DotDims.plain 10000 10000 128)
    (Dp : DotDims ⟨2, ![10000, 128]⟩ ⟨2, ![128, 128]⟩ ⟨2, ![10000, 128]⟩) (hDp : Dp = DotDims.plain 10000 128 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (hred : (⟨2, ![10000, 128]⟩ : Shape).ReducesTo [(1 : Fin 2)] ⟨1, ![10000]⟩) (hu : 0 < (⟨0, ![]⟩ : Shape).numel)
    (hcol : (⟨1, ![10000]⟩ : Shape).BroadcastsInDim ⟨2, ![10000, 1]⟩ (![0] : Fin 1 → Fin 2))
    (hz1 : (⟨0, ![]⟩ : Shape).BroadcastsInDim ⟨2, ![10000, 1]⟩ (![] : Fin 0 → Fin 2))
    (hcb : (⟨2, ![10000, 1]⟩ : Shape).BroadcastsInDim ⟨2, ![10000, 128]⟩ (![0, 1] : Fin 2 → Fin 2)) :
    ∀ i, (Gen.dat6 (F := Ideal) V c).arrAt 5 cfg6.N i = Host.dotGeneral Dp none (l2n 0x2B8CBCCC#32 (biasRelu (Host.dotGeneral Dh none A Y) B hrow hz) hred hu hcol hz1 hcb) Wn i :=
  fun i => congrFun ((Gen.dat6 (F := Ideal) V c).arrAt_eq_of_cover 5 (Host.dotGeneral Dp none (l2n 0x2B8CBCCC#32 (biasRelu (Host.dotGeneral Dh none A Y) B hrow hz) hred hu hcol hz1 hcb) Wn)
    (fun t _ => flushed6_5 V c A Y B Wn hA hY hB hW Dh hDh Dp hDp hrow hz hred hu hcol hz1 hcb t) covered6_5) i

end Cert.KernelIdeal.Hand

end
-- ==== Proof.R7.lean ====
/-
  The last layer of the second branch: the output array as one function of the region's input arrays.

  The region walks 25 blocks of 400 rows. At point t it holds rows [400 t, 400 t + 400) of the adjacency matrix A, the
  whole feature matrix Y [10000,128] and the bias row b [1,128], and leaves  max(A_block · Y + b, 0)  in the same rows of
  the output. Row r of  max(A · Y + b, 0)  depends on row r of A alone (and on all of Y and b), so what point t writes
  back is rows [400 t, 400 t + 400) of that whole-array function; the 25 blocks tile the 10000 rows (row r lies in
  block r / 400), so the output array ends holding  max(A · Y + b, 0).  The format changes of the operands are the
  identity at the extended reals, so A, Y, b are read here at the values the input arrays hold.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Cert.KernelIdeal Cert.KernelIdeal.Gen Cert.LibGcnRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem hz7 : (![0, 0] : Fin 2 → Nat) = fun _ => 0 := funext fun a => by fin_cases a <;> rfl

/-! ## The body's result on a block of rows -/

/-- The body's result at (a, q), when row a of its first operand is row `row a` of A and the other two operands are Y
    and b: the product accumulated into a zero block is rows `row` of A · Y, and the bias and the rectifier act row by
    row, so the result is  max(A · Y + b, 0)  at (row a, q). -/
theorem pay7_rows (row : Fin 400 → Fin 10000)
    (A : FVec Ideal ⟨2, ![10000, 10000]⟩ .f32) (Y : FVec Ideal ⟨2, ![10000, 128]⟩ .f32) (B : FVec Ideal ⟨2, ![1, 128]⟩ .f32)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (x0 : FVec Ideal S400x10000 .bf16) (x1 : FVec Ideal S10000x128 .bf16) (x2 : FVec Ideal S1x128 .f32)
    (h0 : ∀ (a : Fin 400) (k : Fin 10000), x0 (ix2 a k) = A (ix2 (row a) k))
    (h1 : ∀ (k : Fin 10000) (q : Fin 128), x1 (ix2 k q) = Y (ix2 k q))
    (h2 : ∀ q : Fin 128, x2 (ix2 (0 : Fin 1) q) = B (ix2 (0 : Fin 1) q)) (a : Fin 400) (q : Fin 128) :
    k7_pay1 x0 x1 x2 (ix2 a q) = biasRelu (Host.dotGeneral Dh none A Y) B hrow hz (ix2 (row a) q) := by
  unfold k7_pay1
  refine biasRelu_rows row (Host.dotGeneral Dh none A Y) B _ x2 ?_ h2 _ _ hrow hz a q
  intro a q
  refine dot_rows row dot_S400x10000_S10000x128_S400x128_1_0_0_1_n_n
    (show dot_S400x10000_S10000x128_S400x128_1_0_0_1_n_n = DotDims.plain 400 10000 128 from rfl) Dh hDh A Y _ _ ?_ ?_ a q
  · intro a k
    exact (congrFun (shapeCast_self x0 _) (ix2 a k)).trans (h0 a k)
  · intro k q
    exact (congrFun (shapeCast_self x1 _) (ix2 k q)).trans (h1 k q)

/-! ## The windows' blocks -/

/-- The printed index maps over the 25 points: the adjacency window and the output window sit at block (t, 0), the
    feature window and the bias window at block (0, 0). -/
theorem idxFacts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_4.index t (0 : Fin 2) = t.val ∧ win7_4.index t (1 : Fin 2) = 0 :=
  (by decide +kernel : ∀ t : Fin grid7.N, _)

/-- A point's number is below 25. -/
theorem lt7 (t : Fin cfg7.N) : t.val < 25 := lt_of_lt_of_eq t.isLt N_7

/-- Row a of block t is row 400 t + a of the array. -/
def row7 (t : Fin cfg7.N) (a : Fin 400) : Fin 10000 :=
  ⟨400 * t.val + a.val, by have := lt7 t; have := a.isLt; omega⟩

/-- The adjacency window's block at point t is rows 400 t … 400 t + 399 of its array (a block's coordinate in the
    array is the block index times the block size plus the coordinate inside the block). -/
theorem blk7_0 (c : Dev nD) (t : Fin cfg7.N) (A : FVec Ideal ⟨2, ![10000, 10000]⟩ .f32)
    (hA : ∀ i, V c (Pipeline.arrRef spec7 0) i = A i) (a : Fin 400) (k : Fin 10000) :
    (iblk7 V c 0 t : Vec Ideal S400x10000 .bf16) (ix2 a k) = A (ix2 (row7 t a) k) := by
  obtain ⟨e0, e1, -⟩ := idxFacts7 t
  unfold iblk7
  rw [View.read_apply]
  show V c (Pipeline.arrRef spec7 0) _ = _
  rw [hA]
  refine congrArg A (funext fun d => Fin.ext ?_)
  match d with
  | ⟨0, _⟩ => show win7_0.index t (0 : Fin 2) * 400 + 1 * a.val = 400 * t.val + a.val; omega
  | ⟨1, _⟩ => show win7_0.index t (1 : Fin 2) * 10000 + 1 * k.val = k.val; omega

/-- The feature window's block at every point is its whole array. -/
theorem blk7_1 (c : Dev nD) (t : Fin cfg7.N) (Y : FVec Ideal ⟨2, ![10000, 128]⟩ .f32)
    (hY : ∀ i, V c (Pipeline.arrRef spec7 1) i = Y i) (k : Fin 10000) (q : Fin 128) :
    (iblk7 V c 1 t : Vec Ideal S10000x128 .bf16) (ix2 k q) = Y (ix2 k q) := by
  obtain ⟨-, -, e0, e1, -⟩ := idxFacts7 t
  unfold iblk7
  rw [View.read_apply]
  show V c (Pipeline.arrRef spec7 1) _ = _
  rw [hY]
  refine congrArg Y (funext fun d => Fin.ext ?_)
  match d with
  | ⟨0, _⟩ => show win7_1.index t (0 : Fin 2) * 10000 + 1 * k.val = k.val; omega
  | ⟨1, _⟩ => show win7_1.index t (1 : Fin 2) * 128 + 1 * q.val = q.val; omega

/-- The bias window's block at every point is its whole array, one row. -/
theorem blk7_2 (c : Dev nD) (t : Fin cfg7.N) (B : FVec Ideal ⟨2, ![1, 128]⟩ .f32)
    (hB : ∀ i, V c (Pipeline.arrRef spec7 2) i = B i) (q : Fin 128) :
    (iblk7 V c 2 t : Vec Ideal S1x128 .f32) (ix2 (0 : Fin 1) q) = B (ix2 (0 : Fin 1) q) := by
  obtain ⟨-, -, -, -, e0, e1, -⟩ := idxFacts7 t
  unfold iblk7
  rw [View.read_apply]
  show V c (Pipeline.arrRef spec7 2) _ = _
  rw [hB]
  refine congrArg B (funext fun d => Fin.ext ?_)
  match d with
  | ⟨0, _⟩ => show win7_2.index t (0 : Fin 2) * 1 + 1 * 0 = 0; omega
  | ⟨1, _⟩ => show win7_2.index t (1 : Fin 2) * 128 + 1 * q.val = q.val; omega

/-- Element (a, q) of the output window's block at point t sits at (400 t + a, q) of the output array. -/
theorem emb7_4 (t : Fin cfg7.N) (a : Fin 400) (q : Fin 128) :
    (((cfg7.win 4).blk t).view.emb (ix2 a q) : S10000x128.Idx) = ix2 (row7 t a) q := by
  obtain ⟨-, -, -, -, -, -, e0, e1⟩ := idxFacts7 t
  refine funext fun d => Fin.ext ?_
  match d with
  | ⟨0, _⟩ => show win7_4.index t (0 : Fin 2) * 400 + 1 * a.val = 400 * t.val + a.val; omega
  | ⟨1, _⟩ => show win7_4.index t (1 : Fin 2) * 128 + 1 * q.val = q.val; omega

/-! ## What a point writes back, and the array after the run -/

/-- What point t writes back is block t of  max(A · Y + b, 0). -/
theorem flushed7_4 (c : Dev nD)
    (A : FVec Ideal ⟨2, ![10000, 10000]⟩ .f32) (Y : FVec Ideal ⟨2, ![10000, 128]⟩ .f32) (B : FVec Ideal ⟨2, ![1, 128]⟩ .f32)
    (hA : ∀ i, V c (Pipeline.arrRef spec7 0) i = A i) (hY : ∀ i, V c (Pipeline.arrRef spec7 1) i = Y i)
    (hB : ∀ i, V c (Pipeline.arrRef spec7 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2))
    (t : Fin cfg7.N) :
    (dat7 V c).flushed 4 t
      = ((cfg7.win 4).blk t).view.read (Elt Ideal) (biasRelu (Host.dotGeneral Dh none A Y) B hrow hz) := by
  show (cfg7.win 4).cut (grid7.coords t) ((dat7 V c).after 4 t) = _
  rw [after7_4]
  unfold out7_4
  rw [View.canon_unit_zero hz7]
  simp only [View.ld_unit_zero (S := S400x10000) hz7, View.ld_unit_zero (S := S10000x128) hz7,
    View.ld_unit_zero (S := S1x128) hz7]
  have key : ∀ j : S400x128.Idx, k7_pay1 (iblk7 V c 0 t) (iblk7 V c 1 t) (iblk7 V c 2 t) j
      = biasRelu (Host.dotGeneral Dh none A Y) B hrow hz (((cfg7.win 4).blk t).view.emb j) := by
    intro j
    obtain ⟨a, q, rfl⟩ : ∃ (a : Fin 400) (q : Fin 128), j = ix2 a q := ⟨j 0, j 1, eq_ix2 j⟩
    rw [emb7_4]
    exact pay7_rows (row7 t) A Y B Dh hDh hrow hz (iblk7 V c 0 t) (iblk7 V c 1 t) (iblk7 V c 2 t)
      (blk7_0 V c t A hA) (blk7_1 V c t Y hY) (blk7_2 V c t B hB) a q
  exact funext key

/-- An index of the output array is in point t's block iff each coordinate is in the block's range on its axis. -/
theorem mem_blk7 (t : Fin cfg7.N) (i : S10000x128.Idx) :
    i ∈ ((cfg7.win 4).blk t).view.set ↔ ∀ a : Fin 2, win7_4.index t a * S400x128.size a ≤ (i a).val
      ∧ (i a).val < win7_4.index t a * S400x128.size a + S400x128.size a := by
  show i ∈ ((View.whole main_v23).slice (win7_4.rect t)).set ↔ _
  rw [View.set_slice_whole, Rect.mem_set_unit]
  exact Iff.rfl

/-- The blocks cover the array: row r lies in block r / 400. -/
theorem covered7_4 (i : S10000x128.Idx) :
    ∃ t : Fin cfg7.N, (cfg7.win 4).flush t = true ∧ i ∈ ((cfg7.win 4).blk t).view.set := by
  have hi0 : (i 0).val < 10000 := (i 0).isLt
  have hi1 : (i 1).val < 128 := (i 1).isLt
  have hN : cfg7.N = 25 := N_7
  let t : Fin cfg7.N := ⟨(i 0).val / 400, by rw [hN]; omega⟩
  obtain ⟨-, -, -, -, -, -, e0, e1⟩ := idxFacts7 t
  have ht : t.val = (i 0).val / 400 := rfl
  refine ⟨t, flush7_4 t, ?_⟩
  rw [mem_blk7]
  intro a
  match a with
  | ⟨0, _⟩ => show win7_4.index t (0 : Fin 2) * 400 ≤ (i 0).val ∧ (i 0).val < win7_4.index t (0 : Fin 2) * 400 + 400; omega
  | ⟨1, _⟩ => show win7_4.index t (1 : Fin 2) * 128 ≤ (i 1).val ∧ (i 1).val < win7_4.index t (1 : Fin 2) * 128 + 128; omega

/-- The output array after the run is  max(A · Y + b, 0)  of the region's input arrays. -/
theorem final7_4 (c : Dev nD)
    (A : FVec Ideal ⟨2, ![10000, 10000]⟩ .f32) (Y : FVec Ideal ⟨2, ![10000, 128]⟩ .f32) (B : FVec Ideal ⟨2, ![1, 128]⟩ .f32)
    (hA : ∀ i, V c (Pipeline.arrRef spec7 0) i = A i) (hY : ∀ i, V c (Pipeline.arrRef spec7 1) i = Y i)
    (hB : ∀ i, V c (Pipeline.arrRef spec7 2) i = B i)
    (Dh : DotDims ⟨2, ![10000, 10000]⟩ ⟨2, ![10000, 128]⟩ ⟨2, ![10000, 128]⟩) (hDh : Dh = DotDims.plain 10000 10000 128)
    (hrow : (⟨2, ![1, 128]⟩ : Shape).BroadcastsInDim ⟨2, ![10000, 128]⟩ (![0, 1] : Fin 2 → Fin 2))
    (hz : (⟨0, ![]⟩ : Shape).BroadcastsInDim ⟨2, ![10000, 128]⟩ (![] : Fin 0 → Fin 2)) :
    ∀ i, (dat7 (F := Ideal) V c).arrAt 4 cfg7.N i = biasRelu (Host.dotGeneral Dh none A Y) B hrow hz i :=
  fun i => congrFun ((dat7 V c).arrAt_eq_of_cover 4 (biasRelu (Host.dotGeneral Dh none A Y) B hrow hz)
    (fun t _ => flushed7_4 V c A Y B hA hY hB Dh hDh hrow hz t) covered7_4) i

end Cert.KernelIdeal.Hand

end
-- ==== Proof.R8.lean ====
/-
  The scorer region, from blocks to the array, at the extended reals.

  The last region reads eight feature arrays [10000,128] (four per branch) in blocks of 2000 rows and six parameter
  arrays whole (W1 [128,256], b1 [1,256], W2 [256,256], b2 [1,256], W3 [256,1], b3 [1,1]), and stores one block
  [2000,1]. On each feature block it computes the same three-layer scorer
      s(x) = relu(relu(x·W1 + b1)·W2 + b2)·W3 + b3,
  each product accumulated into a zero block, each bias row repeated down the block, the format changes between the
  layers the identity on extended reals; it stores (s(x0)+s(x1)+s(x2)+s(x3)) · (s(x4)+s(x5)+s(x6)+s(x7)).
  Every stage treats rows independently, so row a of the block stored at point t is row 2000·t + a of the same
  expression of the whole arrays. The five blocks tile the output array (row r lies in block r / 2000), so the array
  ends holding that expression.
-/
import proofs.«102964_g18485539242350_cont_8to1_1494_7_alg».proof.Proof.Gen.KernelIdeal.Frame
import proofs.«102964_g18485539242350_cont_8to1_1494_7_alg».proof.Proof.LibGcnRows

noncomputable section

namespace Cert.KernelIdeal.Hand

open Idealize.ShloMosaic Idealize.ShloMosaic.TcCoe Idealize.ShloMosaic.ValueIdx Idealize.SL.Sem
open Idealize.ShloMosaic.Pipeline (Dat)
open Cert.LibGcnRows

variable (V : (c : Dev nD) → (b : Ref sig .tc) → Buf (Elt Ideal) ((c : Thread nD τ).loc b))

/-! ## The stored value: one scorer, eight times -/

/-- The one value the body stores, over the blocks it loads: the scorer of each of the eight feature blocks, the
    first four summed, the last four summed, the two sums multiplied. The scorer of a block is spelt once
    (`Gen.k8_pay2`); the other seven occurrences are the same operations on another block. -/
theorem pay8_eq (x0 x1 x2 x3 x4 x5 x6 x7 : Vec Ideal S2000x128 .f32) (w1 : Vec Ideal S128x256 .bf16)
    (b1 : Vec Ideal S1x256 .f32) (w2 : Vec Ideal S256x256 .bf16) (b2 : Vec Ideal S1x256 .f32)
    (w3 : Vec Ideal S256x1 .bf16) (b3 : Vec Ideal S1x1 .f32) :
    Gen.k8_pay1
        (Gen.k8_pay9 (Gen.k8_pay7 (Gen.k8_pay5 (Gen.k8_pay2 x0 w1 b1 w2 b2 w3 b3) (Gen.k8_pay3 x1) (Gen.k8_pay4 w1)
          (constant S2000x256 .f32 0x00000000#32) b1 w2 b2 w3 b3) (Gen.k8_pay6 x2 w1 b1) w2 b2 w3 b3) (Gen.k8_pay8 x3 w1 b1 w2) b2 w3 b3)
        (Gen.k8_pay12 (Gen.k8_pay11 (Gen.k8_pay10 x4 w1 b1 w2 b2) w3 b3 x5 w1 b1 w2 b2 w3 b3) x6 w1 b1 w2 b2 w3 b3)
        (Gen.k8_pay13 x7 w1) b1 w2 b2 w3 b3
      = mulf (addf (addf (addf (Gen.k8_pay2 x0 w1 b1 w2 b2 w3 b3) (Gen.k8_pay2 x1 w1 b1 w2 b2 w3 b3)) (Gen.k8_pay2 x2 w1 b1 w2 b2 w3 b3)) (Gen.k8_pay2 x3 w1 b1 w2 b2 w3 b3))
          (addf (addf (addf (Gen.k8_pay2 x4 w1 b1 w2 b2 w3 b3) (Gen.k8_pay2 x5 w1 b1 w2 b2 w3 b3)) (Gen.k8_pay2 x6 w1 b1 w2 b2 w3 b3)) (Gen.k8_pay2 x7 w1 b1 w2 b2 w3 b3)) := rfl

/-! ## The scorer on a block of rows -/

/-- The body's scorer of a block whose row `a` is row `row a` of a feature array, with the parameter blocks the
    parameter arrays entry by entry, is rows `row a` of the whole-array scorer: three dense layers, each a product
    into a zero block, the bias row repeated down the block, and (the first two) a rectifier; the format changes
    between them are the identity on extended reals. -/
theorem score8_rows (row : Fin 2000 → Fin 10000)
    (D1 : DotDims ⟨2, ![10000, 128]⟩ ⟨2, ![128, 256]⟩ ⟨2, ![10000, 256]⟩) (hD1 : D1 = DotDims.plain 10000 128 256)
    (D2 : DotDims ⟨2, ![10000, 256]⟩ ⟨2, ![256, 256]⟩ ⟨2, ![10000, 256]⟩) (hD2 : D2 = DotDims.plain 10000 256 256)
    (D3 : DotDims ⟨2, ![10000, 256]⟩ ⟨2, ![256, 1]⟩ ⟨2, ![10000, 1]⟩) (hD3 : D3 = DotDims.plain 10000 256 1)
    (X : FVec Ideal ⟨2, ![10000, 128]⟩ .f32)
    (W1 : FVec Ideal ⟨2, ![128, 256]⟩ .f32) (B1 : FVec Ideal ⟨2, ![1, 256]⟩ .f32) (W2 : FVec Ideal ⟨2, ![256, 256]⟩ .f32)
    (B2 : FVec Ideal ⟨2, ![1, 256]⟩ .f32) (W3 : FVec Ideal ⟨2, ![256, 1]⟩ .f32) (B3 : FVec Ideal ⟨2, ![1, 1]⟩ .f32)
    (x : Vec Ideal S2000x128 .f32) (w1 : Vec Ideal S128x256 .bf16) (b1 : Vec Ideal S1x256 .f32)
    (w2 : Vec Ideal S256x256 .bf16) (b2 : Vec Ideal S1x256 .f32) (w3 : Vec Ideal S256x1 .bf16) (b3 : Vec Ideal S1x1 .f32)
    (hx : ∀ (a : Fin 2000) (k : Fin 128), x (ix2 a k) = X (ix2 (row a) k))
    (hw1 : ∀ (k : Fin 128) (q : Fin 256), w1 (ix2 k q) = W1 (ix2 k q))
    (hb1 : ∀ q : Fin 256, b1 (ix2 (0 : Fin 1) q) = B1 (ix2 (0 : Fin 1) q))
    (hw2 : ∀ (k : Fin 256) (q : Fin 256), w2 (ix2 k q) = W2 (ix2 k q))
    (hb2 : ∀ q : Fin 256, b2 (ix2 (0 : Fin 1) q) = B2 (ix2 (0 : Fin 1) q))
    (hw3 : ∀ (k : Fin 256) (q : Fin 1), w3 (ix2 k q) = W3 (ix2 k q))
    (hb3 : ∀ q : Fin 1, b3 (ix2 (0 : Fin 1) q) = B3 (ix2 (0 : Fin 1) q))
    (hrow1 : (⟨2, ![1, 256]⟩ : Shape).BroadcastsInDim ⟨2, ![10000, 256]⟩ (![0, 1] : Fin 2 → Fin 2))
    (hz1 : (⟨0, ![]⟩ : Shape).BroadcastsInDim ⟨2, ![10000, 256]⟩ (![] : Fin 0 → Fin 2))
    (hrow2 : (⟨2, ![1, 256]⟩ : Shape).BroadcastsInDim ⟨2, ![10000, 256]⟩ (![0, 1] : Fin 2 → Fin 2))
    (hz2 : (⟨0, ![]⟩ : Shape).BroadcastsInDim ⟨2, ![10000, 256]⟩ (![] : Fin 0 → Fin 2))
    (hrow3 : (⟨2, ![1, 1]⟩ : Shape).BroadcastsInDim ⟨2, ![10000, 1]⟩ (![0, 1] : Fin 2 → Fin 2)) (a : Fin 2000) (q : Fin 1) :
    Gen.k8_pay2 x w1 b1 w2 b2 w3 b3 (ix2 a q)
      = mlp D1 D2 D3 X W1 B1 W2 B2 W3 B3 hrow1 hz1 hrow2 hz2 hrow3 (ix2 (row a) q) := by
  unfold Gen.k8_pay2 mlp
  refine biasAdd_rows row _ B3 _ b3 (fun a q => ?_) hb3 _ _ hrow3 a q
  refine dot_rows row _ rfl D3 hD3 _ W3 _ _ (fun a k => ?_) (fun k q => by rw [shapeCast_self]; exact hw3 k q) a q
  refine (truncf_apply (φ := .f32) (ψ := .bf16) _ Gen.bitsLt_bf16_f32 _).trans ?_
  refine biasRelu_rows row _ B2 _ b2 (fun a q => ?_) hb2 _ _ hrow2 hz2 a k
  refine dot_rows row _ rfl D2 hD2 _ W2 _ _ (fun a k => ?_) (fun k q => by rw [shapeCast_self]; exact hw2 k q) a q
  refine (truncf_apply (φ := .f32) (ψ := .bf16) _ Gen.bitsLt_bf16_f32 _).trans ?_
  refine biasRelu_rows row _ B1 _ b1 (fun a q => ?_) hb1 _ _ hrow1 hz1 a k
  refine dot_rows row _ rfl D1 hD1 X W1 _ _ (fun a k => ?_) (fun k q => by rw [shapeCast_self]; exact hw1 k q) a q
  refine (truncf_apply (φ := .f32) (ψ := .bf16) _ Gen.bitsLt_bf16_f32 _).trans ?_
  rw [shapeCast_self]
  exact hx a k

/-! ## Where each window's block sits -/

theorem hz8 : (![0, 0] : Fin 2 → Nat) = fun _ => 0 := funext fun a => by fin_cases a <;> rfl

/-- The printed index maps, decided once over the five points: the eight feature windows and the output window are at
    block (t, 0), the six parameter windows at block (0, 0). -/
theorem idxFacts8 : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = t.val ∧ win8_3.index t (1 : Fin 2) = 0)
    ∧ (win8_4.index t (0 : Fin 2) = t.val ∧ win8_4.index t (1 : Fin 2) = 0)
    ∧ (win8_5.index t (0 : Fin 2) = t.val ∧ win8_5.index t (1 : Fin 2) = 0)
    ∧ (win8_6.index t (0 : Fin 2) = t.val ∧ win8_6.index t (1 : Fin 2) = 0)
    ∧ (win8_7.index t (0 : Fin 2) = t.val ∧ win8_7.index t (1 : Fin 2) = 0)
    ∧ (win8_8.index t (0 : Fin 2) = 0 ∧ win8_8.index t (1 : Fin 2) = 0)
    ∧ (win8_9.index t (0 : Fin 2) = 0 ∧ win8_9.index t (1 : Fin 2) = 0)
    ∧ (win8_10.index t (0 : Fin 2) = 0 ∧ win8_10.index t (1 : Fin 2) = 0)
    ∧ (win8_11.index t (0 : Fin 2) = 0 ∧ win8_11.index t (1 : Fin 2) = 0)
    ∧ (win8_12.index t (0 : Fin 2) = 0 ∧ win8_12.index t (1 : Fin 2) = 0)
    ∧ (win8_13.index t (0 : Fin 2) = 0 ∧ win8_13.index t (1 : Fin 2) = 0)
    ∧ (win8_14.index t (0 : Fin 2) = t.val ∧ win8_14.index t (1 : Fin 2) = 0) :=
  (by decide +kernel : ∀ t : Fin grid8.N, _)

/-- Row `a` of the block at point `t` is row 2000·t + a of the array. -/
def row8 (t : Fin cfg8.N) (a : Fin 2000) : Fin 10000 :=
  ⟨2000 * t.val + a.val, by have := t.isLt; have hN : cfg8.N = 5 := Gen.N_8; have := a.isLt; omega⟩

/-! ## Each input block, read where the output's rows say

A block's coordinate in its array is, per axis, the block index times the block size plus the coordinate inside
the block. So row `a` of a feature block at point `t` is row 2000·t + a of the feature array, and a parameter
block, at block (0, 0) of an array of its own size, is the array. -/

theorem blk8_0 (c : Dev nD) (X : FVec Ideal ⟨2, ![10000, 128]⟩ .f32) (hX : ∀ i, V c (Pipeline.arrRef spec8 0) i = X i)
    (t : Fin cfg8.N) (a : Fin 2000) (k : Fin 128) :
    Gen.iblk8 V c 0 t (ix2 a k) = X (ix2 (row8 t a) k) := by
  obtain ⟨e0, e1⟩ := (idxFacts8 t).1
  unfold Gen.iblk8
  rw [View.read_apply]
  refine (hX _).trans (congrArg X ?_)
  funext d; apply Fin.ext
  match d with
  | ⟨0, _⟩ => show win8_0.index t (0 : Fin 2) * 2000 + 1 * a.val = 2000 * t.val + a.val; omega
  | ⟨1, _⟩ => show win8_0.index t (1 : Fin 2) * 128 + 1 * k.val = k.val; omega

theorem blk8_1 (c : Dev nD) (X : FVec Ideal ⟨2, ![10000, 128]⟩ .f32) (hX : ∀ i, V c (Pipeline.arrRef spec8 1) i = X i)
    (t : Fin cfg8.N) (a : Fin 2000) (k : Fin 128) :
    Gen.iblk8 V c 1 t (ix2 a k) = X (ix2 (row8 t a) k) := by
  obtain ⟨e0, e1⟩ := (idxFacts8 t).2.1
  unfold Gen.iblk8
  rw [View.read_apply]
  refine (hX _).trans (congrArg X ?_)
  funext d; apply Fin.ext
  match d with
  | ⟨0, _⟩ => show win8_1.index t (0 : Fin 2) * 2000 + 1 * a.val = 2000 * t.val + a.val; omega
  | ⟨1, _⟩ => show win8_1.index t (1 : Fin 2) * 128 + 1 * k.val = k.val; omega

theorem blk8_2 (c : Dev nD) (X : FVec Ideal ⟨2, ![10000, 128]⟩ .f32) (hX : ∀ i, V c (Pipeline.arrRef spec8 2) i = X i)
    (t : Fin cfg8.N) (a : Fin 2000) (k : Fin 128) :
    Gen.iblk8 V c 2 t (ix2 a k) = X (ix2 (row8 t a) k) := by
  obtain ⟨e0, e1⟩ := (idxFacts8 t).2.2.1
  unfold Gen.iblk8
  rw [View.read_apply]
  refine (hX _).trans (congrArg X ?_)
  funext d; apply Fin.ext
  match d with
  | ⟨0, _⟩ => show win8_2.index t (0 : Fin 2) * 2000 + 1 * a.val = 2000 * t.val + a.val; omega
  | ⟨1, _⟩ => show win8_2.index t (1 : Fin 2) * 128 + 1 * k.val = k.val; omega

theorem blk8_3 (c : Dev nD) (X : FVec Ideal ⟨2, ![10000, 128]⟩ .f32) (hX : ∀ i, V c (Pipeline.arrRef spec8 3) i = X i)
    (t : Fin cfg8.N) (a : Fin 2000) (k : Fin 128) :
    Gen.iblk8 V c 3 t (ix2 a k) = X (ix2 (row8 t a) k) := by
  obtain ⟨e0, e1⟩ := (idxFacts8 t).2.2.2.1
  unfold Gen.iblk8
  rw [View.read_apply]
  refine (hX _).trans (congrArg X ?_)
  funext d; apply Fin.ext
  match d with
  | ⟨0, _⟩ => show win8_3.index t (0 : Fin 2) * 2000 + 1 * a.val = 2000 * t.val + a.val; omega
  | ⟨1, _⟩ => show win8_3.index t (1 : Fin 2) * 128 + 1 * k.val = k.val; omega

theorem blk8_4 (c : Dev nD) (X : FVec Ideal ⟨2, ![10000, 128]⟩ .f32) (hX : ∀ i, V c (Pipeline.arrRef spec8 4) i = X i)
    (t : Fin cfg8.N) (a : Fin 2000) (k : Fin 128) :
    Gen.iblk8 V c 4 t (ix2 a k) = X (ix2 (row8 t a) k) := by
  obtain ⟨e0, e1⟩ := (idxFacts8 t).2.2.2.2.1
  unfold Gen.iblk8
  rw [View.read_apply]
  refine (hX _).trans (congrArg X ?_)
  funext d; apply Fin.ext
  match d with
  | ⟨0, _⟩ => show win8_4.index t (0 : Fin 2) * 2000 + 1 * a.val = 2000 * t.val + a.val; omega
  | ⟨1, _⟩ => show win8_4.index t (1 : Fin 2) * 128 + 1 * k.val = k.val; omega

theorem blk8_5 (c : Dev nD) (X : FVec Ideal ⟨2, ![10000, 128]⟩ .f32) (hX : ∀ i, V c (Pipeline.arrRef spec8 5) i = X i)
    (t : Fin cfg8.N) (a : Fin 2000) (k : Fin 128) :
    Gen.iblk8 V c 5 t (ix2 a k) = X (ix2 (row8 t a) k) := by
  obtain ⟨e0, e1⟩ := (idxFacts8 t).2.2.2.2.2.1
  unfold Gen.iblk8
  rw [View.read_apply]
  refine (hX _).trans (congrArg X ?_)
  funext d; apply Fin.ext
  match d with
  | ⟨0, _⟩ => show win8_5.index t (0 : Fin 2) * 2000 + 1 * a.val = 2000 * t.val + a.val; omega
  | ⟨1, _⟩ => show win8_5.index t (1 : Fin 2) * 128 + 1 * k.val = k.val; omega

theorem blk8_6 (c : Dev nD) (X : FVec Ideal ⟨2, ![10000, 128]⟩ .f32) (hX : ∀ i, V c (Pipeline.arrRef spec8 6) i = X i)
    (t : Fin cfg8.N) (a : Fin 2000) (k : Fin 128) :
    Gen.iblk8 V c 6 t (ix2 a k) = X (ix2 (row8 t a) k) := by
  obtain ⟨e0, e1⟩ := (idxFacts8 t).2.2.2.2.2.2.1
  unfold Gen.iblk8
  rw [View.read_apply]
  refine (hX _).trans (congrArg X ?_)
  funext d; apply Fin.ext
  match d with
  | ⟨0, _⟩ => show win8_6.index t (0 : Fin 2) * 2000 + 1 * a.val = 2000 * t.val + a.val; omega
  | ⟨1, _⟩ => show win8_6.index t (1 : Fin 2) * 128 + 1 * k.val = k.val; omega

theorem blk8_7 (c : Dev nD) (X : FVec Ideal ⟨2, ![10000, 128]⟩ .f32) (hX : ∀ i, V c (Pipeline.arrRef spec8 7) i = X i)
    (t : Fin cfg8.N) (a : Fin 2000) (k : Fin 128) :
    Gen.iblk8 V c 7 t (ix2 a k) = X (ix2 (row8 t a) k) := by
  obtain ⟨e0, e1⟩ := (idxFacts8 t).2.2.2.2.2.2.2.1
  unfold Gen.iblk8
  rw [View.read_apply]
  refine (hX _).trans (congrArg X ?_)
  funext d; apply Fin.ext
  match d with
  | ⟨0, _⟩ => show win8_7.index t (0 : Fin 2) * 2000 + 1 * a.val = 2000 * t.val + a.val; omega
  | ⟨1, _⟩ => show win8_7.index t (1 : Fin 2) * 128 + 1 * k.val = k.val; omega

theorem blk8_8 (c : Dev nD) (W : FVec Ideal ⟨2, ![128, 256]⟩ .f32) (hW : ∀ i, V c (Pipeline.arrRef spec8 8) i = W i)
    (t : Fin cfg8.N) (k : Fin 128) (q : Fin 256) :
    Gen.iblk8 V c 8 t (ix2 k q) = W (ix2 k q) := by
  obtain ⟨e0, e1⟩ := (idxFacts8 t).2.2.2.2.2.2.2.2.1
  unfold Gen.iblk8
  rw [View.read_apply]
  refine (hW _).trans (congrArg W ?_)
  funext d; apply Fin.ext
  match d with
  | ⟨0, _⟩ => show win8_8.index t (0 : Fin 2) * 128 + 1 * k.val = k.val; omega
  | ⟨1, _⟩ => show win8_8.index t (1 : Fin 2) * 256 + 1 * q.val = q.val; omega

theorem blk8_9 (c : Dev nD) (W : FVec Ideal ⟨2, ![1, 256]⟩ .f32) (hW : ∀ i, V c (Pipeline.arrRef spec8 9) i = W i)
    (t : Fin cfg8.N) (u : Fin 1) (q : Fin 256) :
    Gen.iblk8 V c 9 t (ix2 u q) = W (ix2 u q) := by
  obtain ⟨e0, e1⟩ := (idxFacts8 t).2.2.2.2.2.2.2.2.2.1
  unfold Gen.iblk8
  rw [View.read_apply]
  refine (hW _).trans (congrArg W ?_)
  funext d; apply Fin.ext
  match d with
  | ⟨0, _⟩ => show win8_9.index t (0 : Fin 2) * 1 + 1 * u.val = u.val; omega
  | ⟨1, _⟩ => show win8_9.index t (1 : Fin 2) * 256 + 1 * q.val = q.val; omega

theorem blk8_10 (c : Dev nD) (W : FVec Ideal ⟨2, ![256, 256]⟩ .f32) (hW : ∀ i, V c (Pipeline.arrRef spec8 10) i = W i)
    (t : Fin cfg8.N) (k : Fin 256) (q : Fin 256) :
    Gen.iblk8 V c 10 t (ix2 k q) = W (ix2 k q) := by
  obtain ⟨e0, e1⟩ := (idxFacts8 t).2.2.2.2.2.2.2.2.2.2.1
  unfold Gen.iblk8
  rw [View.read_apply]
  refine (hW _).trans (congrArg W ?_)
  funext d; apply Fin.ext
  match d with
  | ⟨0, _⟩ => show win8_10.index t (0 : Fin 2) * 256 + 1 * k.val = k.val; omega
  | ⟨1, _⟩ => show win8_10.index t (1 : Fin 2) * 256 + 1 * q.val = q.val; omega

theorem blk8_11 (c : Dev nD) (W : FVec Ideal ⟨2, ![1, 256]⟩ .f32) (hW : ∀ i, V c (Pipeline.arrRef spec8 11) i = W i)
    (t : Fin cfg8.N) (u : Fin 1) (q : Fin 256) :
    Gen.iblk8 V c 11 t (ix2 u q) = W (ix2 u q) := by
  obtain ⟨e0, e1⟩ := (idxFacts8 t).2.2.2.2.2.2.2.2.2.2.2.1
  unfold Gen.iblk8
  rw [View.read_apply]
  refine (hW _).trans (congrArg W ?_)
  funext d; apply Fin.ext
  match d with
  | ⟨0, _⟩ => show win8_11.index t (0 : Fin 2) * 1 + 1 * u.val = u.val; omega
  | ⟨1, _⟩ => show win8_11.index t (1 : Fin 2) * 256 + 1 * q.val = q.val; omega

theorem blk8_12 (c : Dev nD) (W : FVec Ideal ⟨2, ![256, 1]⟩ .f32) (hW : ∀ i, V c (Pipeline.arrRef spec8 12) i = W i)
    (t : Fin cfg8.N) (k : Fin 256) (q : Fin 1) :
    Gen.iblk8 V c 12 t (ix2 k q) = W (ix2 k q) := by
  obtain ⟨e0, e1⟩ := (idxFacts8 t).2.2.2.2.2.2.2.2.2.2.2.2.1
  unfold Gen.iblk8
  rw [View.read_apply]
  refine (hW _).trans (congrArg W ?_)
  funext d; apply Fin.ext
  match d with
  | ⟨0, _⟩ => show win8_12.index t (0 : Fin 2) * 256 + 1 * k.val = k.val; omega
  | ⟨1, _⟩ => show win8_12.index t (1 : Fin 2) * 1 + 1 * q.val = q.val; omega

theorem blk8_13 (c : Dev nD) (W : FVec Ideal ⟨2, ![1, 1]⟩ .f32) (hW : ∀ i, V c (Pipeline.arrRef spec8 13) i = W i)
    (t : Fin cfg8.N) (u : Fin 1) (q : Fin 1) :
    Gen.iblk8 V c 13 t (ix2 u q) = W (ix2 u q) := by
  obtain ⟨e0, e1⟩ := (idxFacts8 t).2.2.2.2.2.2.2.2.2.2.2.2.2.1
  unfold Gen.iblk8
  rw [View.read_apply]
  refine (hW _).trans (congrArg W ?_)
  funext d; apply Fin.ext
  match d with
  | ⟨0, _⟩ => show win8_13.index t (0 : Fin 2) * 1 + 1 * u.val = u.val; omega
  | ⟨1, _⟩ => show win8_13.index t (1 : Fin 2) * 1 + 1 * q.val = q.val; omega

/-! ## The stored value on a block of rows -/

/-- The region's result as one function of its input arrays: the whole-array scorer of each feature array, the first
    four summed, the last four summed, the two sums multiplied. -/
def G8 (D1 : DotDims ⟨2, ![10000, 128]⟩ ⟨2, ![128, 256]⟩ ⟨2, ![10000, 256]⟩) (hD1 : D1 = DotDims.plain 10000 128 256)
    (D2 : DotDims ⟨2, ![10000, 256]⟩ ⟨2, ![256, 256]⟩ ⟨2, ![10000, 256]⟩) (hD2 : D2 = DotDims.plain 10000 256 256)
    (D3 : DotDims ⟨2, ![10000, 256]⟩ ⟨2, ![256, 1]⟩ ⟨2, ![10000, 1]⟩) (hD3 : D3 = DotDims.plain 10000 256 1)
    (X0 X1 X2 X3 X4 X5 X6 X7 : FVec Ideal ⟨2, ![10000, 128]⟩ .f32)
    (W1 : FVec Ideal ⟨2, ![128, 256]⟩ .f32) (B1 : FVec Ideal ⟨2, ![1, 256]⟩ .f32) (W2 : FVec Ideal ⟨2, ![256, 256]⟩ .f32)
    (B2 : FVec Ideal ⟨2, ![1, 256]⟩ .f32) (W3 : FVec Ideal ⟨2, ![256, 1]⟩ .f32) (B3 : FVec Ideal ⟨2, ![1, 1]⟩ .f32)
    (hrow1 : (⟨2, ![1, 256]⟩ : Shape).BroadcastsInDim ⟨2, ![10000, 256]⟩ (![0, 1] : Fin 2 → Fin 2))
    (hz1 : (⟨0, ![]⟩ : Shape).BroadcastsInDim ⟨2, ![10000, 256]⟩ (![] : Fin 0 → Fin 2))
    (hrow2 : (⟨2, ![1, 256]⟩ : Shape).BroadcastsInDim ⟨2, ![10000, 256]⟩ (![0, 1] : Fin 2 → Fin 2))
    (hz2 : (⟨0, ![]⟩ : Shape).BroadcastsInDim ⟨2, ![10000, 256]⟩ (![] : Fin 0 → Fin 2))
    (hrow3 : (⟨2, ![1, 1]⟩ : Shape).BroadcastsInDim ⟨2, ![10000, 1]⟩ (![0, 1] : Fin 2 → Fin 2)) : FVec Ideal ⟨2, ![10000, 1]⟩ .f32 :=
  mulf (addf (addf (addf (mlp D1 D2 D3 X0 W1 B1 W2 B2 W3 B3 hrow1 hz1 hrow2 hz2 hrow3) (mlp D1 D2 D3 X1 W1 B1 W2 B2 W3 B3 hrow1 hz1 hrow2 hz2 hrow3)) (mlp D1 D2 D3 X2 W1 B1 W2 B2 W3 B3 hrow1 hz1 hrow2 hz2 hrow3)) (mlp D1 D2 D3 X3 W1 B1 W2 B2 W3 B3 hrow1 hz1 hrow2 hz2 hrow3))
        (addf (addf (addf (mlp D1 D2 D3 X4 W1 B1 W2 B2 W3 B3 hrow1 hz1 hrow2 hz2 hrow3) (mlp D1 D2 D3 X5 W1 B1 W2 B2 W3 B3 hrow1 hz1 hrow2 hz2 hrow3)) (mlp D1 D2 D3 X6 W1 B1 W2 B2 W3 B3 hrow1 hz1 hrow2 hz2 hrow3)) (mlp D1 D2 D3 X7 W1 B1 W2 B2 W3 B3 hrow1 hz1 hrow2 hz2 hrow3))

/-- The stored value of blocks whose rows are rows `row a` of the feature arrays is rows `row a` of `G8`. -/
theorem pay8_rows (row : Fin 2000 → Fin 10000)
    (D1 : DotDims ⟨2, ![10000, 128]⟩ ⟨2, ![128, 256]⟩ ⟨2, ![10000, 256]⟩) (hD1 : D1 = DotDims.plain 10000 128 256)
    (D2 : DotDims ⟨2, ![10000, 256]⟩ ⟨2, ![256, 256]⟩ ⟨2, ![10000, 256]⟩) (hD2 : D2 = DotDims.plain 10000 256 256)
    (D3 : DotDims ⟨2, ![10000, 256]⟩ ⟨2, ![256, 1]⟩ ⟨2, ![10000, 1]⟩) (hD3 : D3 = DotDims.plain 10000 256 1)
    (X0 X1 X2 X3 X4 X5 X6 X7 : FVec Ideal ⟨2, ![10000, 128]⟩ .f32)
    (W1 : FVec Ideal ⟨2, ![128, 256]⟩ .f32) (B1 : FVec Ideal ⟨2, ![1, 256]⟩ .f32) (W2 : FVec Ideal ⟨2, ![256, 256]⟩ .f32)
    (B2 : FVec Ideal ⟨2, ![1, 256]⟩ .f32) (W3 : FVec Ideal ⟨2, ![256, 1]⟩ .f32) (B3 : FVec Ideal ⟨2, ![1, 1]⟩ .f32)
    (x0 x1 x2 x3 x4 x5 x6 x7 : Vec Ideal S2000x128 .f32) (w1 : Vec Ideal S128x256 .bf16) (b1 : Vec Ideal S1x256 .f32)
    (w2 : Vec Ideal S256x256 .bf16) (b2 : Vec Ideal S1x256 .f32) (w3 : Vec Ideal S256x1 .bf16) (b3 : Vec Ideal S1x1 .f32)
    (hx0 : ∀ (a : Fin 2000) (k : Fin 128), x0 (ix2 a k) = X0 (ix2 (row a) k))
    (hx1 : ∀ (a : Fin 2000) (k : Fin 128), x1 (ix2 a k) = X1 (ix2 (row a) k))
    (hx2 : ∀ (a : Fin 2000) (k : Fin 128), x2 (ix2 a k) = X2 (ix2 (row a) k))
    (hx3 : ∀ (a : Fin 2000) (k : Fin 128), x3 (ix2 a k) = X3 (ix2 (row a) k))
    (hx4 : ∀ (a : Fin 2000) (k : Fin 128), x4 (ix2 a k) = X4 (ix2 (row a) k))
    (hx5 : ∀ (a : Fin 2000) (k : Fin 128), x5 (ix2 a k) = X5 (ix2 (row a) k))
    (hx6 : ∀ (a : Fin 2000) (k : Fin 128), x6 (ix2 a k) = X6 (ix2 (row a) k))
    (hx7 : ∀ (a : Fin 2000) (k : Fin 128), x7 (ix2 a k) = X7 (ix2 (row a) k))
    (hw1 : ∀ (k : Fin 128) (q : Fin 256), w1 (ix2 k q) = W1 (ix2 k q))
    (hb1 : ∀ q : Fin 256, b1 (ix2 (0 : Fin 1) q) = B1 (ix2 (0 : Fin 1) q))
    (hw2 : ∀ (k : Fin 256) (q : Fin 256), w2 (ix2 k q) = W2 (ix2 k q))
    (hb2 : ∀ q : Fin 256, b2 (ix2 (0 : Fin 1) q) = B2 (ix2 (0 : Fin 1) q))
    (hw3 : ∀ (k : Fin 256) (q : Fin 1), w3 (ix2 k q) = W3 (ix2 k q))
    (hb3 : ∀ q : Fin 1, b3 (ix2 (0 : Fin 1) q) = B3 (ix2 (0 : Fin 1) q))
    (hrow1 : (⟨2, ![1, 256]⟩ : Shape).BroadcastsInDim ⟨2, ![10000, 256]⟩ (![0, 1] : Fin 2 → Fin 2))
    (hz1 : (⟨0, ![]⟩ : Shape).BroadcastsInDim ⟨2, ![10000, 256]⟩ (![] : Fin 0 → Fin 2))
    (hrow2 : (⟨2, ![1, 256]⟩ : Shape).BroadcastsInDim ⟨2, ![10000, 256]⟩ (![0, 1] : Fin 2 → Fin 2))
    (hz2 : (⟨0, ![]⟩ : Shape).BroadcastsInDim ⟨2, ![10000, 256]⟩ (![] : Fin 0 → Fin 2))
    (hrow3 : (⟨2, ![1, 1]⟩ : Shape).BroadcastsInDim ⟨2, ![10000, 1]⟩ (![0, 1] : Fin 2 → Fin 2)) (a : Fin 2000) (q : Fin 1) :
    Gen.k8_pay1
        (Gen.k8_pay9 (Gen.k8_pay7 (Gen.k8_pay5 (Gen.k8_pay2 x0 w1 b1 w2 b2 w3 b3) (Gen.k8_pay3 x1) (Gen.k8_pay4 w1)
          (constant S2000x256 .f32 0x00000000#32) b1 w2 b2 w3 b3) (Gen.k8_pay6 x2 w1 b1) w2 b2 w3 b3) (Gen.k8_pay8 x3 w1 b1 w2) b2 w3 b3)
        (Gen.k8_pay12 (Gen.k8_pay11 (Gen.k8_pay10 x4 w1 b1 w2 b2) w3 b3 x5 w1 b1 w2 b2 w3 b3) x6 w1 b1 w2 b2 w3 b3)
        (Gen.k8_pay13 x7 w1) b1 w2 b2 w3 b3 (ix2 a q)
      = G8 D1 hD1 D2 hD2 D3 hD3 X0 X1 X2 X3 X4 X5 X6 X7 W1 B1 W2 B2 W3 B3 hrow1 hz1 hrow2 hz2 hrow3 (ix2 (row a) q) := by
  have s := fun (X : FVec Ideal ⟨2, ![10000, 128]⟩ .f32) (x : Vec Ideal S2000x128 .f32)
      (hx : ∀ (a : Fin 2000) (k : Fin 128), x (ix2 a k) = X (ix2 (row a) k)) =>
    score8_rows row D1 hD1 D2 hD2 D3 hD3 X W1 B1 W2 B2 W3 B3 x w1 b1 w2 b2 w3 b3 hx hw1 hb1 hw2 hb2 hw3 hb3 hrow1 hz1 hrow2 hz2 hrow3 a q
  refine (congrFun (pay8_eq x0 x1 x2 x3 x4 x5 x6 x7 w1 b1 w2 b2 w3 b3) (ix2 a q)).trans ?_
  unfold G8
  simp only [mulf_apply, addf_apply]
  rw [s X0 x0 hx0, s X1 x1 hx1, s X2 x2 hx2, s X3 x3 hx3, s X4 x4 hx4, s X5 x5 hx5, s X6 x6 hx6, s X7 x7 hx7]

/-! ## From the blocks to the array -/

/-- What point `t` writes back is block `t` of `G8` of the arrays as the region finds them. -/
theorem flushed8_14 (c : Dev nD)
    (X0 X1 X2 X3 X4 X5 X6 X7 : FVec Ideal ⟨2, ![10000, 128]⟩ .f32)
    (W1 : FVec Ideal ⟨2, ![128, 256]⟩ .f32) (B1 : FVec Ideal ⟨2, ![1, 256]⟩ .f32) (W2 : FVec Ideal ⟨2, ![256, 256]⟩ .f32)
    (B2 : FVec Ideal ⟨2, ![1, 256]⟩ .f32) (W3 : FVec Ideal ⟨2, ![256, 1]⟩ .f32) (B3 : FVec Ideal ⟨2, ![1, 1]⟩ .f32)
    (hX0 : ∀ i, V c (Pipeline.arrRef spec8 0) i = X0 i) (hX1 : ∀ i, V c (Pipeline.arrRef spec8 1) i = X1 i)
    (hX2 : ∀ i, V c (Pipeline.arrRef spec8 2) i = X2 i) (hX3 : ∀ i, V c (Pipeline.arrRef spec8 3) i = X3 i)
    (hX4 : ∀ i, V c (Pipeline.arrRef spec8 4) i = X4 i) (hX5 : ∀ i, V c (Pipeline.arrRef spec8 5) i = X5 i)
    (hX6 : ∀ i, V c (Pipeline.arrRef spec8 6) i = X6 i) (hX7 : ∀ i, V c (Pipeline.arrRef spec8 7) i = X7 i)
    (hW1 : ∀ i, V c (Pipeline.arrRef spec8 8) i = W1 i) (hB1 : ∀ i, V c (Pipeline.arrRef spec8 9) i = B1 i)
    (hW2 : ∀ i, V c (Pipeline.arrRef spec8 10) i = W2 i) (hB2 : ∀ i, V c (Pipeline.arrRef spec8 11) i = B2 i)
    (hW3 : ∀ i, V c (Pipeline.arrRef spec8 12) i = W3 i) (hB3 : ∀ i, V c (Pipeline.arrRef spec8 13) i = B3 i)
    (D1 : DotDims ⟨2, ![10000, 128]⟩ ⟨2, ![128, 256]⟩ ⟨2, ![10000, 256]⟩) (hD1 : D1 = DotDims.plain 10000 128 256)
    (D2 : DotDims ⟨2, ![10000, 256]⟩ ⟨2, ![256, 256]⟩ ⟨2, ![10000, 256]⟩) (hD2 : D2 = DotDims.plain 10000 256 256)
    (D3 : DotDims ⟨2, ![10000, 256]⟩ ⟨2, ![256, 1]⟩ ⟨2, ![10000, 1]⟩) (hD3 : D3 = DotDims.plain 10000 256 1)
    (hrow1 : (⟨2, ![1, 256]⟩ : Shape).BroadcastsInDim ⟨2, ![10000, 256]⟩ (![0, 1] : Fin 2 → Fin 2))
    (hz1 : (⟨0, ![]⟩ : Shape).BroadcastsInDim ⟨2, ![10000, 256]⟩ (![] : Fin 0 → Fin 2))
    (hrow2 : (⟨2, ![1, 256]⟩ : Shape).BroadcastsInDim ⟨2, ![10000, 256]⟩ (![0, 1] : Fin 2 → Fin 2))
    (hz2 : (⟨0, ![]⟩ : Shape).BroadcastsInDim ⟨2, ![10000, 256]⟩ (![] : Fin 0 → Fin 2))
    (hrow3 : (⟨2, ![1, 1]⟩ : Shape).BroadcastsInDim ⟨2, ![10000, 1]⟩ (![0, 1] : Fin 2 → Fin 2)) (t : Fin cfg8.N) :
    (Gen.dat8 V c).flushed 14 t
      = ((cfg8.win 14).blk t).view.read (Elt Ideal)
          (G8 D1 hD1 D2 hD2 D3 hD3 X0 X1 X2 X3 X4 X5 X6 X7 W1 B1 W2 B2 W3 B3 hrow1 hz1 hrow2 hz2 hrow3) := by
  show (cfg8.win 14).cut (grid8.coords t) ((Gen.dat8 V c).after 14 t) = _
  rw [Gen.after8_14]
  unfold Gen.out8_14
  rw [View.canon_unit_zero hz8]
  simp only [View.ld_unit_zero (S := S2000x128) hz8, View.ld_unit_zero (S := S128x256) hz8,
    View.ld_unit_zero (S := S1x256) hz8, View.ld_unit_zero (S := S256x256) hz8, View.ld_unit_zero (S := S256x1) hz8,
    View.ld_unit_zero (S := S1x1) hz8]
  funext j
  obtain ⟨a, q, rfl⟩ : ∃ (a : Fin 2000) (q : Fin 1), j = ix2 a q := ⟨j 0, j 1, eq_ix2 j⟩
  refine (pay8_rows (row8 t) D1 hD1 D2 hD2 D3 hD3 X0 X1 X2 X3 X4 X5 X6 X7 W1 B1 W2 B2 W3 B3
    (Gen.iblk8 V c 0 t) (Gen.iblk8 V c 1 t) (Gen.iblk8 V c 2 t) (Gen.iblk8 V c 3 t) (Gen.iblk8 V c 4 t) (Gen.iblk8 V c 5 t)
    (Gen.iblk8 V c 6 t) (Gen.iblk8 V c 7 t) (Gen.iblk8 V c 8 t) (Gen.iblk8 V c 9 t) (Gen.iblk8 V c 10 t) (Gen.iblk8 V c 11 t)
    (Gen.iblk8 V c 12 t) (Gen.iblk8 V c 13 t)
    (blk8_0 V c X0 hX0 t) (blk8_1 V c X1 hX1 t) (blk8_2 V c X2 hX2 t) (blk8_3 V c X3 hX3 t) (blk8_4 V c X4 hX4 t)
    (blk8_5 V c X5 hX5 t) (blk8_6 V c X6 hX6 t) (blk8_7 V c X7 hX7 t)
    (blk8_8 V c W1 hW1 t) (blk8_9 V c B1 hB1 t 0) (blk8_10 V c W2 hW2 t) (blk8_11 V c B2 hB2 t 0)
    (blk8_12 V c W3 hW3 t) (blk8_13 V c B3 hB3 t 0) hrow1 hz1 hrow2 hz2 hrow3 a q).trans ?_
  obtain ⟨e0, e1⟩ := (idxFacts8 t).2.2.2.2.2.2.2.2.2.2.2.2.2.2
  rw [View.read_apply]
  refine congrArg _ ?_
  funext d; apply Fin.ext
  match d with
  | ⟨0, _⟩ => show 2000 * t.val + a.val = win8_14.index t (0 : Fin 2) * 2000 + 1 * a.val; omega
  | ⟨1, _⟩ => show q.val = win8_14.index t (1 : Fin 2) * 1 + 1 * q.val; omega

/-- An index of the output array is in point `t`'s block iff each coordinate is in the block's range on its axis. -/
theorem mem_blk8 (t : Fin cfg8.N) (i : S10000x1.Idx) :
    i ∈ ((cfg8.win 14).blk t).view.set ↔ ∀ a : Fin 2, win8_14.index t a * S2000x1.size a ≤ (i a).val ∧ (i a).val < win8_14.index t a * S2000x1.size a + S2000x1.size a := by
  show i ∈ ((View.whole main_v30).slice (win8_14.rect t)).set ↔ _
  rw [View.set_slice_whole, Rect.mem_set_unit]
  exact Iff.rfl

/-- Row r of the output is in the block of point r / 2000, and every point writes back. -/
theorem cover8 (i : S10000x1.Idx) : ∃ t : Fin cfg8.N, (cfg8.win 14).flush t = true ∧ i ∈ ((cfg8.win 14).blk t).view.set := by
  have hN : cfg8.N = 5 := Gen.N_8
  have hi0 : (i 0).val < 10000 := (i 0).isLt
  have hi1 : (i 1).val < 1 := (i 1).isLt
  obtain ⟨t, ht⟩ : ∃ t : Fin cfg8.N, t.val = (i 0).val / 2000 := ⟨⟨(i 0).val / 2000, by omega⟩, rfl⟩
  obtain ⟨e0, e1⟩ := (idxFacts8 t).2.2.2.2.2.2.2.2.2.2.2.2.2.2
  refine ⟨t, Gen.flush8_14 t, ?_⟩
  rw [mem_blk8]
  intro a
  match a with
  | ⟨0, _⟩ => show win8_14.index t (0 : Fin 2) * 2000 ≤ (i 0).val ∧ (i 0).val < win8_14.index t (0 : Fin 2) * 2000 + 2000; omega
  | ⟨1, _⟩ => show win8_14.index t (1 : Fin 2) * 1 ≤ (i 1).val ∧ (i 1).val < win8_14.index t (1 : Fin 2) * 1 + 1; omega

/-- The output array after the region: the two branch scores multiplied, each the sum over its four feature arrays of
    the three-layer scorer. -/
theorem final8_14 (c : Dev nD)
    (X0 X1 X2 X3 X4 X5 X6 X7 : FVec Ideal ⟨2, ![10000, 128]⟩ .f32)
    (W1 : FVec Ideal ⟨2, ![128, 256]⟩ .f32) (B1 : FVec Ideal ⟨2, ![1, 256]⟩ .f32) (W2 : FVec Ideal ⟨2, ![256, 256]⟩ .f32)
    (B2 : FVec Ideal ⟨2, ![1, 256]⟩ .f32) (W3 : FVec Ideal ⟨2, ![256, 1]⟩ .f32) (B3 : FVec Ideal ⟨2, ![1, 1]⟩ .f32)
    (hX0 : ∀ i, V c (Pipeline.arrRef spec8 0) i = X0 i) (hX1 : ∀ i, V c (Pipeline.arrRef spec8 1) i = X1 i)
    (hX2 : ∀ i, V c (Pipeline.arrRef spec8 2) i = X2 i) (hX3 : ∀ i, V c (Pipeline.arrRef spec8 3) i = X3 i)
    (hX4 : ∀ i, V c (Pipeline.arrRef spec8 4) i = X4 i) (hX5 : ∀ i, V c (Pipeline.arrRef spec8 5) i = X5 i)
    (hX6 : ∀ i, V c (Pipeline.arrRef spec8 6) i = X6 i) (hX7 : ∀ i, V c (Pipeline.arrRef spec8 7) i = X7 i)
    (hW1 : ∀ i, V c (Pipeline.arrRef spec8 8) i = W1 i) (hB1 : ∀ i, V c (Pipeline.arrRef spec8 9) i = B1 i)
    (hW2 : ∀ i, V c (Pipeline.arrRef spec8 10) i = W2 i) (hB2 : ∀ i, V c (Pipeline.arrRef spec8 11) i = B2 i)
    (hW3 : ∀ i, V c (Pipeline.arrRef spec8 12) i = W3 i) (hB3 : ∀ i, V c (Pipeline.arrRef spec8 13) i = B3 i)
    (D1 : DotDims ⟨2, ![10000, 128]⟩ ⟨2, ![128, 256]⟩ ⟨2, ![10000, 256]⟩) (hD1 : D1 = DotDims.plain 10000 128 256)
    (D2 : DotDims ⟨2, ![10000, 256]⟩ ⟨2, ![256, 256]⟩ ⟨2, ![10000, 256]⟩) (hD2 : D2 = DotDims.plain 10000 256 256)
    (D3 : DotDims ⟨2, ![10000, 256]⟩ ⟨2, ![256, 1]⟩ ⟨2, ![10000, 1]⟩) (hD3 : D3 = DotDims.plain 10000 256 1)
    (hrow1 : (⟨2, ![1, 256]⟩ : Shape).BroadcastsInDim ⟨2, ![10000, 256]⟩ (![0, 1] : Fin 2 → Fin 2))
    (hz1 : (⟨0, ![]⟩ : Shape).BroadcastsInDim ⟨2, ![10000, 256]⟩ (![] : Fin 0 → Fin 2))
    (hrow2 : (⟨2, ![1, 256]⟩ : Shape).BroadcastsInDim ⟨2, ![10000, 256]⟩ (![0, 1] : Fin 2 → Fin 2))
    (hz2 : (⟨0, ![]⟩ : Shape).BroadcastsInDim ⟨2, ![10000, 256]⟩ (![] : Fin 0 → Fin 2))
    (hrow3 : (⟨2, ![1, 1]⟩ : Shape).BroadcastsInDim ⟨2, ![10000, 1]⟩ (![0, 1] : Fin 2 → Fin 2)) :
    ∀ i, (Gen.dat8 (F := Ideal) V c).arrAt 14 cfg8.N i
      = mulf (addf (addf (addf (mlp D1 D2 D3 X0 W1 B1 W2 B2 W3 B3 hrow1 hz1 hrow2 hz2 hrow3) (mlp D1 D2 D3 X1 W1 B1 W2 B2 W3 B3 hrow1 hz1 hrow2 hz2 hrow3)) (mlp D1 D2 D3 X2 W1 B1 W2 B2 W3 B3 hrow1 hz1 hrow2 hz2 hrow3)) (mlp D1 D2 D3 X3 W1 B1 W2 B2 W3 B3 hrow1 hz1 hrow2 hz2 hrow3))
        (addf (addf (addf (mlp D1 D2 D3 X4 W1 B1 W2 B2 W3 B3 hrow1 hz1 hrow2 hz2 hrow3) (mlp D1 D2 D3 X5 W1 B1 W2 B2 W3 B3 hrow1 hz1 hrow2 hz2 hrow3)) (mlp D1 D2 D3 X6 W1 B1 W2 B2 W3 B3 hrow1 hz1 hrow2 hz2 hrow3)) (mlp D1 D2 D3 X7 W1 B1 W2 B2 W3 B3 hrow1 hz1 hrow2 hz2 hrow3)) i :=
  fun i => congrFun ((Gen.dat8 V c).arrAt_eq_of_cover 14
    (G8 D1 hD1 D2 hD2 D3 hD3 X0 X1 X2 X3 X4 X5 X6 X7 W1 B1 W2 B2 W3 B3 hrow1 hz1 hrow2 hz2 hrow3)
    (fun t _ => flushed8_14 V c X0 X1 X2 X3 X4 X5 X6 X7 W1 B1 W2 B2 W3 B3 hX0 hX1 hX2 hX3 hX4 hX5 hX6 hX7 hW1 hB1 hW2 hB2 hW3 hB3
      D1 hD1 D2 hD2 D3 hD3 hrow1 hz1 hrow2 hz2 hrow3 t) cover8) i

end Cert.KernelIdeal.Hand

end
-- ==== Proof.Spec.lean ====
/-
  The reference's result as one function of its sixteen arguments, in the vocabulary of the layer stages.

  One branch, over an adjacency A:
      x1 = l2n (relu (A·gc1_W + gc1_b))            x2 = l2n (relu (A·(x1·gc2_W) + gc2_b))
      x3 = l2n (relu (A·(x2·gc3_W) + gc3_b))        x4 =      relu (A·(x3·gc4_W) + gc4_b)
      branch = ((s x1 + s x2) + s x3) + s x4,       s x = relu(relu(x·l1_W + l1_b)·l2_W + l2_b)·l3_W + l3_b
  and the result is branch(adj1) · branch(adj2), entry by entry. Each bias vector is made a row by a broadcast along
  the columns of a one-row matrix. The run of the printed reference ends with its result buffer at exactly this
  term of the argument arrays (`result_eq`): the two are the same tree of operations, so nothing is computed.
-/
import proofs.«102964_g18485539242350_cont_8to1_1494_7_alg».proof.Proof.Gen.ReferenceIdeal.Run
import proofs.«102964_g18485539242350_cont_8to1_1494_7_alg».proof.Proof.LibGcnRows

noncomputable section

namespace Cert.RefSpec

open Idealize.ShloMosaic Idealize.ShloMosaic.TcCoe Idealize.SL.Sem
open Cert.ReferenceIdeal Cert.ReferenceIdeal.Gen Cert.LibGcnRows

/-- A bias vector of length 128 as one row. -/
def row128 (b : FVec Ideal S128 .f32) : FVec Ideal S1x128 .f32 := broadcastInDim S1x128 ![1] bcast_S128_S1x128_1 b
/-- A bias vector of length 256 as one row. -/
def row256 (b : FVec Ideal S256 .f32) : FVec Ideal S1x256 .f32 := broadcastInDim S1x256 ![1] bcast_S256_S1x256_1 b
/-- A bias vector of length 1 as one row. -/
def row1 (b : FVec Ideal S1 .f32) : FVec Ideal S1x1 .f32 := broadcastInDim S1x1 ![1] bcast_S1_S1x1_1 b

/-- relu (A·Y + b): a layer without the row normalisation. -/
def layerP (A : FVec Ideal S10000x10000 .f32) (Y : FVec Ideal S10000x128 .f32) (b : FVec Ideal S128 .f32) : FVec Ideal S10000x128 .f32 :=
  biasRelu (Host.dotGeneral dot_S10000x10000_S10000x128_S10000x128_1_0_0_1_n_n none A Y) (row128 b)
    bcast_S1x128_S10000x128_0_1 bcast_S_S10000x128

/-- l2n (relu (A·Y + b)): a layer with every row divided by its length floored at the constant. -/
def layerN (A : FVec Ideal S10000x10000 .f32) (Y : FVec Ideal S10000x128 .f32) (b : FVec Ideal S128 .f32) : FVec Ideal S10000x128 .f32 :=
  l2n 0x2B8CBCCC#32 (layerP A Y b) reducesTo_S10000x128_S10000_d1 h_S_ bcast_S10000_S10000x1_0 bcast_S_S10000x1
    bcast_S10000x1_S10000x128_0_1

/-- x·W for a square weight matrix: the next layer's features. -/
def proj (X : FVec Ideal S10000x128 .f32) (W : FVec Ideal S128x128 .f32) : FVec Ideal S10000x128 .f32 :=
  Host.dotGeneral dot_S10000x128_S128x128_S10000x128_1_0_0_1_n_n none X W

/-- The scorer of one feature matrix. -/
def score (X : FVec Ideal S10000x128 .f32) (W1 : FVec Ideal S128x256 .f32) (b1 : FVec Ideal S256 .f32)
    (W2 : FVec Ideal S256x256 .f32) (b2 : FVec Ideal S256 .f32) (W3 : FVec Ideal S256x1 .f32) (b3 : FVec Ideal S1 .f32) :
    FVec Ideal S10000x1 .f32 :=
  mlp dot_S10000x128_S128x256_S10000x256_1_0_0_1_n_n dot_S10000x256_S256x256_S10000x256_1_0_0_1_n_n
    dot_S10000x256_S256x1_S10000x1_1_0_0_1_n_n X W1 (row256 b1) W2 (row256 b2) W3 (row1 b3)
    bcast_S1x256_S10000x256_0_1 bcast_S_S10000x256 bcast_S1x256_S10000x256_0_1 bcast_S_S10000x256 bcast_S1x1_S10000x1_0_1

section Branch
variable (A : FVec Ideal S10000x10000 .f32) (g1W : FVec Ideal S10000x128 .f32) (g1b : FVec Ideal S128 .f32)
  (g2W : FVec Ideal S128x128 .f32) (g2b : FVec Ideal S128 .f32) (g3W : FVec Ideal S128x128 .f32) (g3b : FVec Ideal S128 .f32)
  (g4W : FVec Ideal S128x128 .f32) (g4b : FVec Ideal S128 .f32)
  (l1W : FVec Ideal S128x256 .f32) (l1b : FVec Ideal S256 .f32) (l2W : FVec Ideal S256x256 .f32) (l2b : FVec Ideal S256 .f32)
  (l3W : FVec Ideal S256x1 .f32) (l3b : FVec Ideal S1 .f32)

/-- The four per-layer feature matrices of one branch. -/
def x1 : FVec Ideal S10000x128 .f32 := layerN A g1W g1b
def x2 : FVec Ideal S10000x128 .f32 := layerN A (proj (x1 A g1W g1b) g2W) g2b
def x3 : FVec Ideal S10000x128 .f32 := layerN A (proj (x2 A g1W g1b g2W g2b) g3W) g3b
def x4 : FVec Ideal S10000x128 .f32 := layerP A (proj (x3 A g1W g1b g2W g2b g3W g3b) g4W) g4b

/-- One branch's score: the four features' scores added in order. -/
def branch : FVec Ideal S10000x1 .f32 :=
  addf (addf (addf (score (x1 A g1W g1b) l1W l1b l2W l2b l3W l3b) (score (x2 A g1W g1b g2W g2b) l1W l1b l2W l2b l3W l3b))
      (score (x3 A g1W g1b g2W g2b g3W g3b) l1W l1b l2W l2b l3W l3b))
    (score (x4 A g1W g1b g2W g2b g3W g3b g4W g4b) l1W l1b l2W l2b l3W l3b)

end Branch

/-- The result: the two branches' scores multiplied entry by entry. -/
def result (A1 A2 : FVec Ideal S10000x10000 .f32) (g1W : FVec Ideal S10000x128 .f32) (g1b : FVec Ideal S128 .f32)
    (g2W : FVec Ideal S128x128 .f32) (g2b : FVec Ideal S128 .f32) (g3W : FVec Ideal S128x128 .f32) (g3b : FVec Ideal S128 .f32)
    (g4W : FVec Ideal S128x128 .f32) (g4b : FVec Ideal S128 .f32)
    (l1W : FVec Ideal S128x256 .f32) (l1b : FVec Ideal S256 .f32) (l2W : FVec Ideal S256x256 .f32) (l2b : FVec Ideal S256 .f32)
    (l3W : FVec Ideal S256x1 .f32) (l3b : FVec Ideal S1 .f32) : FVec Ideal S10000x1 .f32 :=
  mulf (branch A1 g1W g1b g2W g2b g3W g3b g4W g4b l1W l1b l2W l2b l3W l3b)
    (branch A2 g1W g1b g2W g2b g3W g3b g4W g4b l1W l1b l2W l2b l3W l3b)

set_option maxRecDepth 16384 in
/-- The reference run's result term is `result` of the argument arrays: the same tree of operations. -/
theorem result_eq (m : (ℓ : Loc nD τ sig) → Buf (Elt Ideal) ℓ) (c : Dev nD) :
    Cert.ReferenceIdeal.Value.res_main_v194 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) := by
  unfold Cert.ReferenceIdeal.Value.res_main_v194
  rfl

end Cert.RefSpec

end
-- ==== Proof.KernelValue.lean ====
/- The kernel's result array as a function of its sixteen argument arrays.

   The run leaves in the result buffer what the last region's write-backs fold to. Every region computes, block of
   rows by block of rows, the host's whole-array stage of its input arrays; every input array is either an argument
   array (possibly after the host's change of format, which is the identity at exact arithmetic, or the host's recast
   of a bias vector to one row, which is the row the reference makes by a broadcast) or an earlier region's output.
   So the arrays can be named one after the other, in the order the regions run:

       branch over the adjacency A:   x1 = layerN A g1W g1b,   the copy of A is A,   y2 = x1·g2W,
                                      x2 = layerN A y2 g2b,    y3 = x2·g3W,
                                      x3 = layerN A y3 g3b,    y4 = x3·g4W,
                                      x4 = layerP A y4 g4b
       result = (s x1 + s x2 + s x3 + s x4 over the first adjacency) · (the same over the second),

   each one region's lemma fed with the entry facts of the fold and the lemmas before it. The terms on the right are
   the reference's own (its result as one function of the arguments), so the last line is the kernel's result array
   equal to the reference's. -/
import proofs.«102964_g18485539242350_cont_8to1_1494_7_alg».proof.Proof.FoldA
import proofs.«102964_g18485539242350_cont_8to1_1494_7_alg».proof.Proof.FoldB
import proofs.«102964_g18485539242350_cont_8to1_1494_7_alg».proof.Proof.R0
import proofs.«102964_g18485539242350_cont_8to1_1494_7_alg».proof.Proof.R1
import proofs.«102964_g18485539242350_cont_8to1_1494_7_alg».proof.Proof.R2
import proofs.«102964_g18485539242350_cont_8to1_1494_7_alg».proof.Proof.R3
import proofs.«102964_g18485539242350_cont_8to1_1494_7_alg».proof.Proof.R4
import proofs.«102964_g18485539242350_cont_8to1_1494_7_alg».proof.Proof.R5
import proofs.«102964_g18485539242350_cont_8to1_1494_7_alg».proof.Proof.R6
import proofs.«102964_g18485539242350_cont_8to1_1494_7_alg».proof.Proof.R7
import proofs.«102964_g18485539242350_cont_8to1_1494_7_alg».proof.Proof.R8
import proofs.«102964_g18485539242350_cont_8to1_1494_7_alg».proof.Proof.Spec

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-! ## The host's two changes to an argument array, at exact arithmetic -/

/-- The change to the narrow float format is the identity, entry by entry. -/
theorem truncf_ideal {s : Shape} (x : FVec Ideal s .f32) (h : FTy.bits .bf16 < FTy.bits .f32) (i : s.Idx) :
    truncf .bf16 x h i = x i := rfl

/-- A bias vector of length 128 recast to one row is the row the reference makes of it. -/
theorem row128_eq (b : FVec Ideal S128 .f32) (hc : S128.ShapeCasts S1x128) : shapeCast S1x128 b hc = Cert.RefSpec.row128 b :=
  Cert.LibBiasRows.castRow_eq b hc Cert.ReferenceIdeal.Gen.bcast_S128_S1x128_1
/-- A bias vector of length 256 recast to one row is the row the reference makes of it. -/
theorem row256_eq (b : FVec Ideal S256 .f32) (hc : S256.ShapeCasts S1x256) : shapeCast S1x256 b hc = Cert.RefSpec.row256 b :=
  Cert.LibBiasRows.castRow_eq b hc Cert.ReferenceIdeal.Gen.bcast_S256_S1x256_1
/-- A bias vector of length 1 recast to one row is the row the reference makes of it. -/
theorem row1_eq (b : FVec Ideal S1 .f32) (hc : S1.ShapeCasts S1x1) : shapeCast S1x1 b hc = Cert.RefSpec.row1 b :=
  Cert.LibBiasRows.castRow_eq b hc Cert.ReferenceIdeal.Gen.bcast_S1_S1x1_1

variable (m : (ℓ : Loc nD τ sig) → Buf (Elt Ideal) ℓ) (ρ : Dev nD → PrngReg) (c : Dev nD)

/-! ## The first branch: regions 0 to 3, over the first adjacency -/

/-- Layer 1's features: the normalised rectified layer of the adjacency and the input features. -/
theorem x1a : ∀ i, (Gen.dat0 (Gen.V1 m ρ) c).arrAt 4 cfg0.N i = (Cert.RefSpec.x1 (m ((c : Thread nD τ).loc main_arg0)) (m ((c : Thread nD τ).loc main_arg2)) (m ((c : Thread nD τ).loc main_arg3))) i :=
  final0_4 (Gen.V1 m ρ) c (m ((c : Thread nD τ).loc main_arg0)) (m ((c : Thread nD τ).loc main_arg2)) (Cert.RefSpec.row128 (m ((c : Thread nD τ).loc main_arg3)))
    (fun i => congrFun (e0_0 m ρ c) i) (fun i => (congrFun (e0_1 m ρ c) i).trans (truncf_ideal _ _ i)) (fun i => (congrFun (e0_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1
/-- The adjacency copy handed to the later layers is the adjacency. -/
theorem abfa : ∀ i, (Gen.dat0 (Gen.V1 m ρ) c).arrAt 5 cfg0.N i = (m ((c : Thread nD τ).loc main_arg0)) i :=
  final0_5 (Gen.V1 m ρ) c (m ((c : Thread nD τ).loc main_arg0)) (fun i => congrFun (e0_0 m ρ c) i)
/-- Layer 2's input: layer 1's features times layer 2's weights. -/
theorem y2a : ∀ i, (Gen.dat0 (Gen.V1 m ρ) c).arrAt 6 cfg0.N i = (Cert.RefSpec.proj (Cert.RefSpec.x1 (m ((c : Thread nD τ).loc main_arg0)) (m ((c : Thread nD τ).loc main_arg2)) (m ((c : Thread nD τ).loc main_arg3))) (m ((c : Thread nD τ).loc main_arg4))) i :=
  final0_6 (Gen.V1 m ρ) c (m ((c : Thread nD τ).loc main_arg0)) (m ((c : Thread nD τ).loc main_arg2)) (Cert.RefSpec.row128 (m ((c : Thread nD τ).loc main_arg3))) (m ((c : Thread nD τ).loc main_arg4))
    (fun i => congrFun (e0_0 m ρ c) i) (fun i => (congrFun (e0_1 m ρ c) i).trans (truncf_ideal _ _ i)) (fun i => (congrFun (e0_2 m ρ c) i).trans (congrFun (row128_eq _ _) i)) (fun i => (congrFun (e0_3 m ρ c) i).trans (truncf_ideal _ _ i))
    Cert.ReferenceIdeal.dot_S10000x10000_S10000x128_S10000x128_1_0_0_1_n_n rfl Cert.ReferenceIdeal.dot_S10000x128_S128x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1

/-- Layer 2's features. -/
theorem x2a : ∀ i, (Gen.dat1 (Gen.V2 m ρ) c).arrAt 4 cfg1.N i = (Cert.RefSpec.x2 (m ((c : Thread nD τ).loc main_arg0)) (m ((c : Thread nD τ).loc main_arg2)) (m ((c : Thread nD τ).loc main_arg3)) (m ((c : Thread nD τ).loc main_arg4)) (m ((c : Thread nD τ).loc main_arg5))) i :=
  final1_4 (Gen.V2 m ρ) c (m ((c : Thread nD τ).loc main_arg0)) (Cert.RefSpec.proj (Cert.RefSpec.x1 (m ((c : Thread nD τ).loc main_arg0)) (m ((c : Thread nD τ).loc main_arg2)) (m ((c : Thread nD τ).loc main_arg3))) (m ((c : Thread nD τ).loc main_arg4))) (Cert.RefSpec.row128 (m ((c : Thread nD τ).loc main_arg5)))
    (fun i => (congrFun (e1_0 m ρ c) i).trans (abfa m ρ c i)) (fun i => (congrFun (e1_1 m ρ c) i).trans (y2a m ρ c i)) (fun i => (congrFun (e1_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1
/-- Layer 3's input: layer 2's features times layer 3's weights. -/
theorem y3a : ∀ i, (Gen.dat1 (Gen.V2 m ρ) c).arrAt 5 cfg1.N i = (Cert.RefSpec.proj (Cert.RefSpec.x2 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) i :=
  final1_5 (Gen.V2 m ρ) c (m ((c : Thread nD τ).loc main_arg0)) (Cert.RefSpec.proj (Cert.RefSpec.x1 (m ((c : Thread nD τ).loc main_arg0)) (m ((c : Thread nD τ).loc main_arg2)) (m ((c : Thread nD τ).loc main_arg3))) (m ((c : Thread nD τ).loc main_arg4))) (Cert.RefSpec.row128 (m ((c : Thread nD τ).loc main_arg5))) (m ((c : Thread nD τ).loc main_arg6))
    (fun i => (congrFun (e1_0 m ρ c) i).trans (abfa m ρ c i)) (fun i => (congrFun (e1_1 m ρ c) i).trans (y2a m ρ c i)) (fun i => (congrFun (e1_2 m ρ c) i).trans (congrFun (row128_eq _ _) i)) (fun i => (congrFun (e1_3 m ρ c) i).trans (truncf_ideal _ _ i))
    Cert.ReferenceIdeal.dot_S10000x10000_S10000x128_S10000x128_1_0_0_1_n_n rfl Cert.ReferenceIdeal.dot_S10000x128_S128x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1

/-- Layer 3's features. -/
theorem x3a : ∀ i, (Gen.dat2 (Gen.V3 m ρ) c).arrAt 4 cfg2.N i = (Cert.RefSpec.x3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) i :=
  final2_4 (Gen.V3 m ρ) c (m ((c : Thread nD τ).loc main_arg0)) (Cert.RefSpec.proj (Cert.RefSpec.x2 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (Cert.RefSpec.row128 (m ((c : Thread nD τ).loc main_arg7)))
    (fun i => (congrFun (e2_0 m ρ c) i).trans (abfa m ρ c i)) (fun i => (congrFun (e2_1 m ρ c) i).trans (y3a m ρ c i)) (fun i => (congrFun (e2_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1
/-- Layer 4's input: layer 3's features times layer 4's weights. -/
theorem y4a : ∀ i, (Gen.dat2 (Gen.V3 m ρ) c).arrAt 5 cfg2.N i = (Cert.RefSpec.proj (Cert.RefSpec.x3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) i :=
  final2_5 (Gen.V3 m ρ) c (m ((c : Thread nD τ).loc main_arg0)) (Cert.RefSpec.proj (Cert.RefSpec.x2 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (Cert.RefSpec.row128 (m ((c : Thread nD τ).loc main_arg7))) (m ((c : Thread nD τ).loc main_arg8))
    (fun i => (congrFun (e2_0 m ρ c) i).trans (abfa m ρ c i)) (fun i => (congrFun (e2_1 m ρ c) i).trans (y3a m ρ c i)) (fun i => (congrFun (e2_2 m ρ c) i).trans (congrFun (row128_eq _ _) i)) (fun i => (congrFun (e2_3 m ρ c) i).trans (truncf_ideal _ _ i))
    Cert.ReferenceIdeal.dot_S10000x10000_S10000x128_S10000x128_1_0_0_1_n_n rfl Cert.ReferenceIdeal.dot_S10000x128_S128x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1

/-- Layer 4's features: rectified, not normalised. -/
theorem x4a : ∀ i, (Gen.dat3 (Gen.V4 m ρ) c).arrAt 4 cfg3.N i = (Cert.RefSpec.x4 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i :=
  final3_4 (Gen.V4 m ρ) c (m ((c : Thread nD τ).loc main_arg0)) (Cert.RefSpec.proj (Cert.RefSpec.x3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (Cert.RefSpec.row128 (m ((c : Thread nD τ).loc main_arg9)))
    (fun i => (congrFun (e3_0 m ρ c) i).trans (abfa m ρ c i)) (fun i => (congrFun (e3_1 m ρ c) i).trans (y4a m ρ c i)) (fun i => (congrFun (e3_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128

/-! ## The second branch: regions 4 to 7, over the second adjacency -/

/-- Layer 1's features: the normalised rectified layer of the adjacency and the input features. -/
theorem x1b : ∀ i, (Gen.dat4 (Gen.V6 m ρ) c).arrAt 4 cfg4.N i = (Cert.RefSpec.x1 (m ((c : Thread nD τ).loc main_arg1)) (m ((c : Thread nD τ).loc main_arg2)) (m ((c : Thread nD τ).loc main_arg3))) i :=
  final4_4 (Gen.V6 m ρ) c (m ((c : Thread nD τ).loc main_arg1)) (m ((c : Thread nD τ).loc main_arg2)) (Cert.RefSpec.row128 (m ((c : Thread nD τ).loc main_arg3)))
    (fun i => congrFun (e4_0 m ρ c) i) (fun i => (congrFun (e4_1 m ρ c) i).trans (truncf_ideal _ _ i)) (fun i => (congrFun (e4_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1
/-- The adjacency copy handed to the later layers is the adjacency. -/
theorem abfb : ∀ i, (Gen.dat4 (Gen.V6 m ρ) c).arrAt 5 cfg4.N i = (m ((c : Thread nD τ).loc main_arg1)) i :=
  final4_5 (Gen.V6 m ρ) c (m ((c : Thread nD τ).loc main_arg1)) (fun i => congrFun (e4_0 m ρ c) i)
/-- Layer 2's input: layer 1's features times layer 2's weights. -/
theorem y2b : ∀ i, (Gen.dat4 (Gen.V6 m ρ) c).arrAt 6 cfg4.N i = (Cert.RefSpec.proj (Cert.RefSpec.x1 (m ((c : Thread nD τ).loc main_arg1)) (m ((c : Thread nD τ).loc main_arg2)) (m ((c : Thread nD τ).loc main_arg3))) (m ((c : Thread nD τ).loc main_arg4))) i :=
  final4_6 (Gen.V6 m ρ) c (m ((c : Thread nD τ).loc main_arg1)) (m ((c : Thread nD τ).loc main_arg2)) (Cert.RefSpec.row128 (m ((c : Thread nD τ).loc main_arg3))) (m ((c : Thread nD τ).loc main_arg4))
    (fun i => congrFun (e4_0 m ρ c) i) (fun i => (congrFun (e4_1 m ρ c) i).trans (truncf_ideal _ _ i)) (fun i => (congrFun (e4_2 m ρ c) i).trans (congrFun (row128_eq _ _) i)) (fun i => (congrFun (e4_3 m ρ c) i).trans (truncf_ideal _ _ i))
    Cert.ReferenceIdeal.dot_S10000x10000_S10000x128_S10000x128_1_0_0_1_n_n rfl Cert.ReferenceIdeal.dot_S10000x128_S128x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1

/-- Layer 2's features. -/
theorem x2b : ∀ i, (Gen.dat5 (Gen.V7 m ρ) c).arrAt 4 cfg5.N i = (Cert.RefSpec.x2 (m ((c : Thread nD τ).loc main_arg1)) (m ((c : Thread nD τ).loc main_arg2)) (m ((c : Thread nD τ).loc main_arg3)) (m ((c : Thread nD τ).loc main_arg4)) (m ((c : Thread nD τ).loc main_arg5))) i :=
  final5_4 (Gen.V7 m ρ) c (m ((c : Thread nD τ).loc main_arg1)) (Cert.RefSpec.proj (Cert.RefSpec.x1 (m ((c : Thread nD τ).loc main_arg1)) (m ((c : Thread nD τ).loc main_arg2)) (m ((c : Thread nD τ).loc main_arg3))) (m ((c : Thread nD τ).loc main_arg4))) (Cert.RefSpec.row128 (m ((c : Thread nD τ).loc main_arg5)))
    (fun i => (congrFun (e5_0 m ρ c) i).trans (abfb m ρ c i)) (fun i => (congrFun (e5_1 m ρ c) i).trans (y2b m ρ c i)) (fun i => (congrFun (e5_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1
/-- Layer 3's input: layer 2's features times layer 3's weights. -/
theorem y3b : ∀ i, (Gen.dat5 (Gen.V7 m ρ) c).arrAt 5 cfg5.N i = (Cert.RefSpec.proj (Cert.RefSpec.x2 (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) i :=
  final5_5 (Gen.V7 m ρ) c (m ((c : Thread nD τ).loc main_arg1)) (Cert.RefSpec.proj (Cert.RefSpec.x1 (m ((c : Thread nD τ).loc main_arg1)) (m ((c : Thread nD τ).loc main_arg2)) (m ((c : Thread nD τ).loc main_arg3))) (m ((c : Thread nD τ).loc main_arg4))) (Cert.RefSpec.row128 (m ((c : Thread nD τ).loc main_arg5))) (m ((c : Thread nD τ).loc main_arg6))
    (fun i => (congrFun (e5_0 m ρ c) i).trans (abfb m ρ c i)) (fun i => (congrFun (e5_1 m ρ c) i).trans (y2b m ρ c i)) (fun i => (congrFun (e5_2 m ρ c) i).trans (congrFun (row128_eq _ _) i)) (fun i => (congrFun (e5_3 m ρ c) i).trans (truncf_ideal _ _ i))
    Cert.ReferenceIdeal.dot_S10000x10000_S10000x128_S10000x128_1_0_0_1_n_n rfl Cert.ReferenceIdeal.dot_S10000x128_S128x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1

/-- Layer 3's features. -/
theorem x3b : ∀ i, (Gen.dat6 (Gen.V8 m ρ) c).arrAt 4 cfg6.N i = (Cert.RefSpec.x3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) i :=
  final6_4 (Gen.V8 m ρ) c (m ((c : Thread nD τ).loc main_arg1)) (Cert.RefSpec.proj (Cert.RefSpec.x2 (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (Cert.RefSpec.row128 (m ((c : Thread nD τ).loc main_arg7)))
    (fun i => (congrFun (e6_0 m ρ c) i).trans (abfb m ρ c i)) (fun i => (congrFun (e6_1 m ρ c) i).trans (y3b m ρ c i)) (fun i => (congrFun (e6_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1
/-- Layer 4's input: layer 3's features times layer 4's weights. -/
theorem y4b : ∀ i, (Gen.dat6 (Gen.V8 m ρ) c).arrAt 5 cfg6.N i = (Cert.RefSpec.proj (Cert.RefSpec.x3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) i :=
  final6_5 (Gen.V8 m ρ) c (m ((c : Thread nD τ).loc main_arg1)) (Cert.RefSpec.proj (Cert.RefSpec.x2 (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (Cert.RefSpec.row128 (m ((c : Thread nD τ).loc main_arg7))) (m ((c : Thread nD τ).loc main_arg8))
    (fun i => (congrFun (e6_0 m ρ c) i).trans (abfb m ρ c i)) (fun i => (congrFun (e6_1 m ρ c) i).trans (y3b m ρ c i)) (fun i => (congrFun (e6_2 m ρ c) i).trans (congrFun (row128_eq _ _) i)) (fun i => (congrFun (e6_3 m ρ c) i).trans (truncf_ideal _ _ i))
    Cert.ReferenceIdeal.dot_S10000x10000_S10000x128_S10000x128_1_0_0_1_n_n rfl Cert.ReferenceIdeal.dot_S10000x128_S128x128_S10000x128_1_0_0_1_n_n rfl
    Cert.ReferenceIdeal.Gen.bcast_S1x128_S10000x128_0_1 Cert.ReferenceIdeal.Gen.bcast_S_S10000x128
      Cert.ReferenceIdeal.Gen.reducesTo_S10000x128_S10000_d1 Cert.ReferenceIdeal.Gen.h_S_ Cert.ReferenceIdeal.Gen.bcast_S10000_S10000x1_0 Cert.ReferenceIdeal.Gen.bcast_S_S10000x1 Cert.ReferenceIdeal.Gen.bcast_S10000x1_S10000x128_0_1

/-- Layer 4's features: rectified, not normalised. -/
theorem x4b : ∀ i, (Gen.dat7 (Gen.V9 m ρ) c).arrAt 4 cfg7.N i = (Cert.RefSpec.x4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i :=
  final7_4 (Gen.V9 m ρ) c (m ((c : Thread nD τ).loc main_arg1)) (Cert.RefSpec.proj (Cert.RefSpec.x3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (Cert.RefSpec.row128 (m ((c : Thread nD τ).loc main_arg9)))
    (fun i => (congrFun (e7_0 m ρ c) i).trans (abfb m ρ c i)) (fun i => (congrFun (e7_1 m ρ c) i).trans (y4b m ρ c i)) (fun i => (congrFun (e7_2 m ρ c) i).trans (congrFun (row128_eq _ _) i))
    Cert.ReferenceIdeal.dot_S10000x10000_S10000x128_S10000x128_1_0_0_1_n_n rfl
    Cert.ReferenceIdeal.Gen.bcast_S1x128_S10000x128_0_1 Cert.ReferenceIdeal.Gen.bcast_S_S10000x128

/-! ## The scorer and the result -/

/-- Window 0 of the scorer's region: layer 1's features of the first branch. -/
theorem in8_0 : ∀ i, Gen.V11 m ρ c (Pipeline.arrRef spec8 0) i = (Cert.RefSpec.x1 (m ((c : Thread nD τ).loc main_arg0)) (m ((c : Thread nD τ).loc main_arg2)) (m ((c : Thread nD τ).loc main_arg3))) i :=
  fun i => (congrFun (e8_0 m ρ c) i).trans (x1a m ρ c i)
/-- Window 1 of the scorer's region: layer 2's features of the first branch. -/
theorem in8_1 : ∀ i, Gen.V11 m ρ c (Pipeline.arrRef spec8 1) i = (Cert.RefSpec.x2 (m ((c : Thread nD τ).loc main_arg0)) (m ((c : Thread nD τ).loc main_arg2)) (m ((c : Thread nD τ).loc main_arg3)) (m ((c : Thread nD τ).loc main_arg4)) (m ((c : Thread nD τ).loc main_arg5))) i :=
  fun i => (congrFun (e8_1 m ρ c) i).trans (x2a m ρ c i)
/-- Window 2 of the scorer's region: layer 3's features of the first branch. -/
theorem in8_2 : ∀ i, Gen.V11 m ρ c (Pipeline.arrRef spec8 2) i = (Cert.RefSpec.x3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) i :=
  fun i => (congrFun (e8_2 m ρ c) i).trans (x3a m ρ c i)
/-- Window 3 of the scorer's region: layer 4's features of the first branch. -/
theorem in8_3 : ∀ i, Gen.V11 m ρ c (Pipeline.arrRef spec8 3) i = (Cert.RefSpec.x4 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i :=
  fun i => (congrFun (e8_3 m ρ c) i).trans (x4a m ρ c i)
/-- Window 4 of the scorer's region: layer 1's features of the second branch. -/
theorem in8_4 : ∀ i, Gen.V11 m ρ c (Pipeline.arrRef spec8 4) i = (Cert.RefSpec.x1 (m ((c : Thread nD τ).loc main_arg1)) (m ((c : Thread nD τ).loc main_arg2)) (m ((c : Thread nD τ).loc main_arg3))) i :=
  fun i => (congrFun (e8_4 m ρ c) i).trans (x1b m ρ c i)
/-- Window 5 of the scorer's region: layer 2's features of the second branch. -/
theorem in8_5 : ∀ i, Gen.V11 m ρ c (Pipeline.arrRef spec8 5) i = (Cert.RefSpec.x2 (m ((c : Thread nD τ).loc main_arg1)) (m ((c : Thread nD τ).loc main_arg2)) (m ((c : Thread nD τ).loc main_arg3)) (m ((c : Thread nD τ).loc main_arg4)) (m ((c : Thread nD τ).loc main_arg5))) i :=
  fun i => (congrFun (e8_5 m ρ c) i).trans (x2b m ρ c i)
/-- Window 6 of the scorer's region: layer 3's features of the second branch. -/
theorem in8_6 : ∀ i, Gen.V11 m ρ c (Pipeline.arrRef spec8 6) i = (Cert.RefSpec.x3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) i :=
  fun i => (congrFun (e8_6 m ρ c) i).trans (x3b m ρ c i)
/-- Window 7 of the scorer's region: layer 4's features of the second branch. -/
theorem in8_7 : ∀ i, Gen.V11 m ρ c (Pipeline.arrRef spec8 7) i = (Cert.RefSpec.x4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i :=
  fun i => (congrFun (e8_7 m ρ c) i).trans (x4b m ρ c i)
/-- Window 8 of the scorer's region: the scorer's first weights. -/
theorem in8_8 : ∀ i, Gen.V11 m ρ c (Pipeline.arrRef spec8 8) i = (m ((c : Thread nD τ).loc main_arg10)) i :=
  fun i => (congrFun (e8_8 m ρ c) i).trans (truncf_ideal _ _ i)
/-- Window 9 of the scorer's region: the scorer's first bias as one row. -/
theorem in8_9 : ∀ i, Gen.V11 m ρ c (Pipeline.arrRef spec8 9) i = (Cert.RefSpec.row256 (m ((c : Thread nD τ).loc main_arg11))) i :=
  fun i => (congrFun (e8_9 m ρ c) i).trans (congrFun (row256_eq _ _) i)
/-- Window 10 of the scorer's region: the scorer's second weights. -/
theorem in8_10 : ∀ i, Gen.V11 m ρ c (Pipeline.arrRef spec8 10) i = (m ((c : Thread nD τ).loc main_arg12)) i :=
  fun i => (congrFun (e8_10 m ρ c) i).trans (truncf_ideal _ _ i)
/-- Window 11 of the scorer's region: the scorer's second bias as one row. -/
theorem in8_11 : ∀ i, Gen.V11 m ρ c (Pipeline.arrRef spec8 11) i = (Cert.RefSpec.row256 (m ((c : Thread nD τ).loc main_arg13))) i :=
  fun i => (congrFun (e8_11 m ρ c) i).trans (congrFun (row256_eq _ _) i)
/-- Window 12 of the scorer's region: the scorer's third weights. -/
theorem in8_12 : ∀ i, Gen.V11 m ρ c (Pipeline.arrRef spec8 12) i = (m ((c : Thread nD τ).loc main_arg14)) i :=
  fun i => (congrFun (e8_12 m ρ c) i).trans (truncf_ideal _ _ i)
/-- Window 13 of the scorer's region: the scorer's third bias as one row. -/
theorem in8_13 : ∀ i, Gen.V11 m ρ c (Pipeline.arrRef spec8 13) i = (Cert.RefSpec.row1 (m ((c : Thread nD τ).loc main_arg15))) i :=
  fun i => (congrFun (e8_13 m ρ c) i).trans (congrFun (row1_eq _ _) i)

/-- The result array at the end of the run is the reference's result of the sixteen argument arrays: the last region's
    output, at the eight feature arrays named above, the scorer's weights and its bias rows. The reference's result is
    the product of its two branches, each the sum of the four features' scores: unfolded, it is the last region's
    whole-array value letter for letter. -/
theorem kernel_value : ∀ i, Gen.W12 m ρ c (Proc.devRef .tc main_v30) i
    = Cert.RefSpec.result (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15)) i := by
  intro i
  refine (congrFun (out8 m ρ c) i).trans ?_
  unfold Cert.RefSpec.result Cert.RefSpec.branch Cert.RefSpec.score
  exact final8_14 (Gen.V11 m ρ) c
      (Cert.RefSpec.x1 (m ((c : Thread nD τ).loc main_arg0)) (m ((c : Thread nD τ).loc main_arg2)) (m ((c : Thread nD τ).loc main_arg3)))
      (Cert.RefSpec.x2 (m ((c : Thread nD τ).loc main_arg0)) (m ((c : Thread nD τ).loc main_arg2)) (m ((c : Thread nD τ).loc main_arg3)) (m ((c : Thread nD τ).loc main_arg4)) (m ((c : Thread nD τ).loc main_arg5)))
      (Cert.RefSpec.x3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      (Cert.RefSpec.x4 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      (Cert.RefSpec.x1 (m ((c : Thread nD τ).loc main_arg1)) (m ((c : Thread nD τ).loc main_arg2)) (m ((c : Thread nD τ).loc main_arg3)))
      (Cert.RefSpec.x2 (m ((c : Thread nD τ).loc main_arg1)) (m ((c : Thread nD τ).loc main_arg2)) (m ((c : Thread nD τ).loc main_arg3)) (m ((c : Thread nD τ).loc main_arg4)) (m ((c : Thread nD τ).loc main_arg5)))
      (Cert.RefSpec.x3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      (Cert.RefSpec.x4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      (m ((c : Thread nD τ).loc main_arg10)) (Cert.RefSpec.row256 (m ((c : Thread nD τ).loc main_arg11))) (m ((c : Thread nD τ).loc main_arg12)) (Cert.RefSpec.row256 (m ((c : Thread nD τ).loc main_arg13))) (m ((c : Thread nD τ).loc main_arg14)) (Cert.RefSpec.row1 (m ((c : Thread nD τ).loc main_arg15)))
      (in8_0 m ρ c) (in8_1 m ρ c) (in8_2 m ρ c) (in8_3 m ρ c) (in8_4 m ρ c) (in8_5 m ρ c) (in8_6 m ρ c) (in8_7 m ρ c) (in8_8 m ρ c) (in8_9 m ρ c) (in8_10 m ρ c) (in8_11 m ρ c) (in8_12 m ρ c) (in8_13 m ρ c)
      Cert.ReferenceIdeal.dot_S10000x128_S128x256_S10000x256_1_0_0_1_n_n rfl
      Cert.ReferenceIdeal.dot_S10000x256_S256x256_S10000x256_1_0_0_1_n_n rfl
      Cert.ReferenceIdeal.dot_S10000x256_S256x1_S10000x1_1_0_0_1_n_n rfl
      Cert.ReferenceIdeal.Gen.bcast_S1x256_S10000x256_0_1 Cert.ReferenceIdeal.Gen.bcast_S_S10000x256 Cert.ReferenceIdeal.Gen.bcast_S1x256_S10000x256_0_1 Cert.ReferenceIdeal.Gen.bcast_S_S10000x256
      Cert.ReferenceIdeal.Gen.bcast_S1x1_S10000x1_0_1 i

end Cert.KernelIdeal.Hand

end
-- ==== Proof.lean ====
/-
  The certificate's five claims.

  The kernel runs a two-branch graph network region by region: four layers per branch, each
  relu(A·(x·W) + b) with every row then divided by its Euclidean length (floored at a small constant) except in the
  last layer, and a three-layer scorer summed over the four layers' features; the two branches' scores are multiplied.
  Its regions work on blocks of rows, and every stage treats rows independently, so each region's output array is
  the host's whole-array stage of the region's input arrays; reading each region's inputs back through the buffer
  contents at the region boundaries, the result array ends at one function of the sixteen argument arrays. The
  reference computes the same stages on whole arrays in the same order and association: its run ends at the same
  function. A change of float format is the identity at exact values, the constants are the same words on both
  sides, and no law of arithmetic beyond 0 + x = x is used, so the precondition is never opened.
-/
import proofs.«102964_g18485539242350_cont_8to1_1494_7_alg».proof.Defs
import proofs.«102964_g18485539242350_cont_8to1_1494_7_alg».proof.Proof.Gen.Kernel
import proofs.«102964_g18485539242350_cont_8to1_1494_7_alg».proof.Proof.Gen.Kernel.Frame
import proofs.«102964_g18485539242350_cont_8to1_1494_7_alg».proof.Proof.Gen.KernelIdeal
import proofs.«102964_g18485539242350_cont_8to1_1494_7_alg».proof.Proof.Gen.KernelIdeal.Frame
import proofs.«102964_g18485539242350_cont_8to1_1494_7_alg».proof.Proof.Gen.ReferenceIdeal
import proofs.«102964_g18485539242350_cont_8to1_1494_7_alg».proof.Proof.Gen.Pre_finite_inputs
import proofs.«102964_g18485539242350_cont_8to1_1494_7_alg».proof.Proof.Gen.ReferenceIdeal.Run
import proofs.«102964_g18485539242350_cont_8to1_1494_7_alg».proof.Proof.KernelRun
import proofs.«102964_g18485539242350_cont_8to1_1494_7_alg».proof.Proof.KernelValue
import proofs.«102964_g18485539242350_cont_8to1_1494_7_alg».proof.Proof.Spec
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with their result arrays at the same function of the
    arguments, entry by entry. -/
theorem algebraic : Cert.algebraic_KernelIdeal_ReferenceIdeal := by
  intro m ρ m' ρ' _ hagree
  refine ⟨fun c => Cert.RefSpec.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)), ?_, ?_⟩
  · exact (θ_run Cert.KernelIdeal.defs _ _).mono
      (fun r h c => ⟨(h c).1.trans (funext (Cert.KernelIdeal.Hand.kernel_value m ρ c)), (h c).2⟩)
      (Cert.KernelIdeal.Hand.run_v30 m ρ)
  · refine (θ_run Cert.ReferenceIdeal.defs _ _).mono (fun _ h c => ⟨(h c).1.trans ?_, (h c).2⟩)
      (Cert.ReferenceIdeal.Value.run (F := Ideal) m' ρ')
    rw [Cert.RefSpec.result_eq]
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
